-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384x2048 : Shape := ⟨2, ![16384, 2048]⟩
abbrev S1024x2048 : Shape := ⟨2, ![1024, 2048]⟩
abbrev S2048 : Shape := ⟨1, ![2048]⟩
abbrev S2048x2048 : Shape := ⟨2, ![2048, 2048]⟩
abbrev S3072x1024 : Shape := ⟨2, ![3072, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_arg15 : FVec F S2048 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S2048 .f32 := Host.absf main_arg15
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  main_v78

def fn_part3 {F : FTy → Type} [FloatOps F] (main_arg11 : FVec F S3072x1024 .f32) (main_arg12 : FVec F S1024 .f32) (main_arg13 : FVec F S1024 .f32) (main_arg14 : FVec F S1024 .f32) (main_arg15 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S3072x1024 .f32 := Host.absf main_arg11
  let main_cst_20 : FVec F S_ .f32 := constant S_ .f32 0x7F800000#32
  let main_v55 : FVec F S3072x1024 .f32 := broadcastInDim S3072x1024 ![] bcast_S_S3072x1024 main_cst_20
  let main_v56 : IVec S3072x1024 1 := cmpf .olt main_v54 main_v55
  let main_c_21 : IVec S_ 1 := constantI S_ 1 1#1
  let main_v57 : IVec S_ 1 := (fun x v => Host.reduce IntOp.andi x v reducesTo_S3072x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_v63 main_v67

def fn_part2 {F : FTy → Type} [FloatOps F] (main_arg7 : FVec F S1024x2048 .f32) (main_arg8 : FVec F S2048 .f32) (main_arg9 : FVec F S1024x2048 .f32) (main_arg10 : FVec F S2048x2048 .f32) (main_arg11 : FVec F S3072x1024 .f32) (main_arg12 : FVec F S1024 .f32) (main_arg13 : FVec F S1024 .f32) (main_arg14 : FVec F S1024 .f32) (main_arg15 : FVec F S2048 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_v48 main_v49 main_v50

def fn_part1 {F : FTy → Type} [FloatOps F] (main_arg4 : FVec F S1024x2048 .f32) (main_arg5 : FVec F S2048 .f32) (main_arg6 : FVec F S1024x2048 .f32) (main_arg7 : FVec F S1024x2048 .f32) (main_arg8 : FVec F S2048 .f32) (main_arg9 : FVec F S1024x2048 .f32) (main_arg10 : FVec F S2048x2048 .f32) (main_arg11 : FVec F S3072x1024 .f32) (main_arg12 : FVec F S1024 .f32) (main_arg13 : FVec F S1024 .f32) (main_arg14 : FVec F S1024 .f32) (main_arg15 : FVec F S2048 .f32) (main_v13 : IVec S_ 1) (main_v16 : IVec S16384x2048 1) : IVec S_ 1 :=
  let main_c_5 : IVec S_ 1 := constantI S_ 1 1#1
  let main_v17 : IVec S_ 1 := (fun x v => Host.reduce IntOp.andi x v reducesTo_S16384x2048_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16384x1024 .f32) (main_arg1 : FVec F S16384x2048 .f32) (main_arg2 : FVec F S16384x1024 .f32) (main_arg3 : FVec F S16384x2048 .f32) (main_arg4 : FVec F S1024x2048 .f32) (main_arg5 : FVec F S2048 .f32) (main_arg6 : FVec F S1024x2048 .f32) (main_arg7 : FVec F S1024x2048 .f32) (main_arg8 : FVec F S2048 .f32) (main_arg9 : FVec F S1024x2048 .f32) (main_arg10 : FVec F S2048x2048 .f32) (main_arg11 : FVec F S3072x1024 .f32) (main_arg12 : FVec F S1024 .f32) (main_arg13 : FVec F S1024 .f32) (main_arg14 : FVec F S1024 .f32) (main_arg15 : FVec F S2048 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x2048 .f32 := Host.absf main_arg3
  let main_cst_4 : FVec F S_ .f32 := constant S_ .f32 0x7F800000#32
  let main_v15 : FVec F S16384x2048 .f32 := broadcastInDim S16384x2048 ![] bcast_S_S16384x2048 main_cst_4
  let main_v16 : IVec S16384x2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16384x1024 : Shape := ⟨2, ![16384, 1024]⟩
abbrev S16384x2048 : Shape := ⟨2, ![16384, 2048]⟩
abbrev S1024x2048 : Shape := ⟨2, ![1024, 2048]⟩
abbrev S2048 : Shape := ⟨1, ![2048]⟩
abbrev S2048x2048 : Shape := ⟨2, ![2048, 2048]⟩
abbrev S3072x1024 : Shape := ⟨2, ![3072, 1024]⟩
abbrev S1024 : Shape := ⟨1, ![1024]⟩
abbrev S4096x2048 : Shape := ⟨2, ![4096, 2048]⟩
abbrev S1x2048 : Shape := ⟨2, ![1, 2048]⟩
abbrev S128x1024 : Shape := ⟨2, ![128, 1024]⟩
abbrev S128x2048 : Shape := ⟨2, ![128, 2048]⟩
abbrev S128x4096 : Shape := ⟨2, ![128, 4096]⟩
abbrev S1x1024 : Shape := ⟨2, ![1, 1024]⟩
abbrev S512x1024 : Shape := ⟨2, ![512, 1024]⟩
abbrev S512x2048 : Shape := ⟨2, ![512, 2048]⟩
abbrev S512x3072 : Shape := ⟨2, ![512, 3072]⟩
abbrev S512 : Shape := ⟨1, ![512]⟩
abbrev S512x1 : Shape := ⟨2, ![512, 1]⟩

abbrev nBuf : Space → Nat
  | .hbm => 32
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .f32⟩
  | .hbm, ⟨3, _⟩ => ⟨S16384x2048, .f32⟩
  | .hbm, ⟨4, _⟩ => ⟨S1024x2048, .f32⟩
  | .hbm, ⟨5, _⟩ => ⟨S2048, .f32⟩
  | .hbm, ⟨6, _⟩ => ⟨S1024x2048, .f32⟩
  | .hbm, ⟨7, _⟩ => ⟨S1024x2048, .f32⟩
  | .hbm, ⟨8, _⟩ => ⟨S2048, .f32⟩
  | .hbm, ⟨9, _⟩ => ⟨S1024x2048, .f32⟩
  | .hbm, ⟨10, _⟩ => ⟨S2048x2048, .f32⟩
  | .hbm, ⟨11, _⟩ => ⟨S3072x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S2048, .f32⟩
  | .hbm, ⟨16, _⟩ => ⟨S1024x2048, .bf16⟩
  | .hbm, ⟨17, _⟩ => ⟨S1024x2048, .bf16⟩
  | .hbm, ⟨18, _⟩ => ⟨S1024x2048, .bf16⟩
  | .hbm, ⟨19, _⟩ => ⟨S1024x2048, .bf16⟩
  | .hbm, ⟨20, _⟩ => ⟨S2048x2048, .bf16⟩
  | .hbm, ⟨21, _⟩ => ⟨S4096x2048, .bf16⟩
  | .hbm, ⟨22, _⟩ => ⟨S3072x1024, .bf16⟩
  | .hbm, ⟨23, _⟩ => ⟨S1x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S16384x2048, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x2048, .f32⟩
  | .local _ .vmem, ⟨3, _⟩ => ⟨S128x2048, .f32⟩
  | .local _ .vmem, ⟨4, _⟩ => ⟨S128x1024, .f32⟩
  | .local _ .vmem, ⟨5, _⟩ => ⟨S128x1024, .f32⟩
  | .local _ .vmem, ⟨6, _⟩ => ⟨S128x2048, .f32⟩
  | .local _ .vmem, ⟨7, _⟩ => ⟨S128x2048, .f32⟩
  | .local _ .vmem, ⟨8, _⟩ => ⟨S1024x2048, .bf16⟩
  | .local _ .vmem, ⟨9, _⟩ => ⟨S1x2048, .f32⟩
  | .local _ .vmem, ⟨10, _⟩ => ⟨S1024x2048, .bf16⟩
  | .local _ .vmem, ⟨11, _⟩ => ⟨S4096x2048, .bf16⟩
  | .local _ .vmem, ⟨12, _⟩ => ⟨S1x2048, .f32⟩
  | .local _ .vmem, ⟨13, _⟩ => ⟨S1x2048, .f32⟩
  | .local _ .vmem, ⟨14, _⟩ => ⟨S128x2048, .f32⟩
  | .local _ .vmem, ⟨15, _⟩ => ⟨S128x2048, .f32⟩
  | .local _ .vmem, ⟨16, _⟩ => ⟨S512x1024, .f32⟩
  | .local _ .vmem, ⟨17, _⟩ => ⟨S512x1024, .f32⟩
  | .local _ .vmem, ⟨18, _⟩ => ⟨S512x2048, .f32⟩
  | .local _ .vmem, ⟨19, _⟩ => ⟨S512x2048, .f32⟩
  | .local _ .vmem, ⟨20, _⟩ => ⟨S3072x1024, .bf16⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3072x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  concatenates_S1024x2048_S1024x2048_S2048x2048_S4096x2048_d0 : Shape.Concatenates [S1024x2048, S1024x2048, S2048x2048] S4096x2048 0
  shapeCasts_S2048_S1x2048 : S2048.ShapeCasts S1x2048
  inb_S128x1024_S128x1024_0_0 : ∀ a, (![0, 0] : Fin 2 → Nat) a + S128x1024.size a ≤ S128x1024.size a
  h_S128x1024 : 0 < S128x1024.numel
  inb_S128x2048_S128x2048_0_0 : ∀ a, (![0, 0] : Fin 2 → Nat) a + S128x2048.size a ≤ S128x2048.size a
  h_S128x2048 : 0 < S128x2048.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  concatenates_S128x1024_S128x1024_S128x2048_S128x4096_d1 : Shape.Concatenates [S128x1024, S128x1024, S128x2048] S128x4096 1
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  concatenates_S512x1024_S512x2048_S512x3072_d1 : Shape.Concatenates [S512x1024, S512x2048] S512x3072 1
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  dot_S128x1024_S1024x2048_S128x2048_1_0_0_1_n_n_wf : DotDims.WF S128x1024 S1024x2048 S128x2048 [1] [0] [0] [1] [] []
  dot_S128x4096_S4096x2048_S128x2048_1_0_0_1_n_n_wf : DotDims.WF S128x4096 S4096x2048 S128x2048 [1] [0] [0] [1] [] []
  dot_S512x3072_S3072x1024_S512x1024_1_0_0_1_n_n_wf : DotDims.WF S512x3072 S3072x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S16384x2048.size a
  hwx0_1 : ∀ i : grid0.Coords, EltTy.bits .f32 = 32 ∨ (Rect.block (s := S16384x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S16384x2048.size a
  hwx0_3 : ∀ i : grid0.Coords, EltTy.bits .f32 = 32 ∨ (Rect.block (s := S16384x2048) S128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .bf16 = 32 ∨ (Rect.block (s := S1024x2048) S1024x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x2048.size a ≤ S4096x2048.size a
  hwx0_7 : ∀ i : grid0.Coords, EltTy.bits .bf16 = 32 ∨ (Rect.block (s := S4096x2048) S4096x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S16384x2048.size a
  hwx0_10 : ∀ i : grid0.Coords, EltTy.bits .f32 = 32 ∨ (Rect.block (s := S16384x2048) S128x2048.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S16384x1024.size a
  hwx1_0 : ∀ i : grid1.Coords, EltTy.bits .f32 = 32 ∨ (Rect.block (s := S16384x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S16384x2048.size a
  hwx1_1 : ∀ i : grid1.Coords, EltTy.bits .f32 = 32 ∨ (Rect.block (s := S16384x2048) S512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3072x1024.size a ≤ S3072x1024.size a
  hwx1_2 : ∀ i : grid1.Coords, EltTy.bits .bf16 = 32 ∨ (Rect.block (s := S3072x1024) S3072x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S16384x1024.size a
  hwx1_6 : ∀ i : grid1.Coords, EltTy.bits .f32 = 32 ∨ (Rect.block (s := S16384x1024) S512x1024.size (cc1_transform_6 i) (hinb1_6 i)).WholeWords (EltTy.packing .f32)

variable [Facts₀]

def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x4096_S4096x2048_S128x2048_1_0_0_1_n_n : DotDims S128x4096 S4096x2048 S128x2048 where
  lhsContracting := [1]
  rhsContracting := [0]
  lhsNonContracting := [0]
  rhsNonContracting := [1]
  lhsBatch := []
  rhsBatch := []
  wf := dot_S128x4096_S4096x2048_S128x2048_1_0_0_1_n_n_wf
def dot_S512x3072_S3072x1024_S512x1024_1_0_0_1_n_n : DotDims S512x3072 S3072x1024 S512x1024 where
  lhsContracting := [1]
  rhsContracting := [0]
  lhsNonContracting := [0]
  rhsNonContracting := [1]
  lhsBatch := []
  rhsBatch := []
  wf := dot_S512x3072_S3072x1024_S512x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S4096x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S128x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S3072x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S16384x2048 : Shape := ⟨2, ![16384, 2048]⟩
abbrev S1024x2048 : Shape := ⟨2, ![1024, 2048]⟩
abbrev S2048 : Shape := ⟨1, ![2048]⟩
abbrev S2048x2048 : Shape := ⟨2, ![2048, 2048]⟩
abbrev S3072x1024 : Shape := ⟨2, ![3072, 1024]⟩
abbrev S1024 : Shape := ⟨1, ![1024]⟩
abbrev S1x2048 : Shape := ⟨2, ![1, 2048]⟩
abbrev S_ : Shape := ⟨0, ![]⟩
abbrev S16384x3072 : Shape := ⟨2, ![16384, 3072]⟩
abbrev S1x1024 : Shape := ⟨2, ![1, 1024]⟩
abbrev S16384 : Shape := ⟨1, ![16384]⟩
abbrev S16384x1 : Shape := ⟨2, ![16384, 1]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .f32⟩
  | .hbm, ⟨3, _⟩ => ⟨S16384x2048, .f32⟩
  | .hbm, ⟨4, _⟩ => ⟨S1024x2048, .f32⟩
  | .hbm, ⟨5, _⟩ => ⟨S2048, .f32⟩
  | .hbm, ⟨6, _⟩ => ⟨S1024x2048, .f32⟩
  | .hbm, ⟨7, _⟩ => ⟨S1024x2048, .f32⟩
  | .hbm, ⟨8, _⟩ => ⟨S2048, .f32⟩
  | .hbm, ⟨9, _⟩ => ⟨S1024x2048, .f32⟩
  | .hbm, ⟨10, _⟩ => ⟨S2048x2048, .f32⟩
  | .hbm, ⟨11, _⟩ => ⟨S3072x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .i1⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .i1⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S2048, .f32⟩
  | .hbm, ⟨64, _⟩ => ⟨S1x2048, .f32⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S_, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S16384x3072, .f32⟩
  | .hbm, ⟨76, _⟩ => ⟨S16384x1024, .f32⟩
  | .hbm, ⟨77, _⟩ => ⟨S1x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S_, .f32⟩
  | .hbm, ⟨94, _⟩ => ⟨S16384x1, .f32⟩
  | .hbm, ⟨95, _⟩ => ⟨S16384x1, .f32⟩
  | .hbm, ⟨96, _⟩ => ⟨S16384x1024, .f32⟩
  | .hbm, ⟨97, _⟩ => ⟨S16384x1024, .f32⟩
  | .hbm, ⟨98, _⟩ => ⟨S_, .f32⟩
  | .hbm, ⟨99, _⟩ => ⟨S16384x1, .f32⟩
  | .hbm, ⟨100, _⟩ => ⟨S16384x1, .f32⟩
  | .hbm, ⟨101, _⟩ => ⟨S16384x1, .f32⟩
  | .hbm, ⟨102, _⟩ => ⟨S16384x1024, .f32⟩
  | .hbm, ⟨103, _⟩ => ⟨S16384x1024, .f32⟩
  | .hbm, ⟨104, _⟩ => ⟨S1x1024, .f32⟩
  | .hbm, ⟨105, _⟩ => ⟨S16384x1024, .f32⟩
  | .hbm, ⟨106, _⟩ => ⟨S16384x1024, .f32⟩
  | .hbm, ⟨107, _⟩ => ⟨S1x1024, .f32⟩
  | .hbm, ⟨108, _⟩ => ⟨S16384x1024, .f32⟩
  | .hbm, ⟨109, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v4 : Ref sig .tc := ⟨.hbm, 33, rfl⟩
abbrev main_v5 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_v6 : Ref sig .tc := ⟨.hbm, 48, rfl⟩
abbrev main_cst : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_0 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_cst_1 : Ref sig .tc := ⟨.hbm, 81, rfl⟩
abbrev main_v37 : Ref sig .tc := ⟨.hbm, 82, rfl⟩
abbrev main_v38 : Ref sig .tc := ⟨.hbm, 83, rfl⟩
abbrev main_cst_2 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_3 : Ref sig .tc := ⟨.hbm, 90, rfl⟩
abbrev main_v44 : Ref sig .tc := ⟨.hbm, 91, rfl⟩
abbrev main_v45 : Ref sig .tc := ⟨.hbm, 92, rfl⟩
abbrev main_cst_4 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst_5 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  concatenates_S16384x1024_S16384x2048_S16384x3072_d1 : Shape.Concatenates [S16384x1024, S16384x2048] S16384x3072 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  dot_S16384x1024_S1024x2048_S16384x2048_1_0_0_1_n_n_wf : DotDims.WF S16384x1024 S1024x2048 S16384x2048 [1] [0] [0] [1] [] []
  dot_S16384x2048_S2048x2048_S16384x2048_1_0_0_1_n_n_wf : DotDims.WF S16384x2048 S2048x2048 S16384x2048 [1] [0] [0] [1] [] []
  dot_S16384x3072_S3072x1024_S16384x1024_1_0_0_1_n_n_wf : DotDims.WF S16384x3072 S3072x1024 S16384x1024 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x3072_S3072x1024_S16384x1024_1_0_0_1_n_n : DotDims S16384x3072 S3072x1024 S16384x1024 where
  lhsContracting := [1]
  rhsContracting := [0]
  lhsNonContracting := [0]
  rhsNonContracting := [1]
  lhsBatch := []
  rhsBatch := []
  wf := dot_S16384x3072_S3072x1024_S16384x1024_1_0_0_1_n_n_wf

class Facts : Prop extends Facts₀ where

variable [Facts]
-- ==== Proof.KernelRegion0.lean ====
/-
  Region 0 of @main, taken at any contents `V` of the TensorCore's buffers on entry: the block each window
  holds at a grid point, the contents the kernel body leaves in the output window's staging buffer (its one store,
  a pure function of the blocks it loaded), the body's triple, the pipeline's proof data and the body obligation at
  every point. Generic in the float instance.
-/
import proofs.«123416_j83958020702584_2_alg».proof.Proof.Gen.Kernel.Launch
import proofs.«123416_j83958020702584_2_alg».proof.Proof.Gen.Kernel.Skeleton
import proofs.«123416_j83958020702584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its current staging buffer holds its block at every point, whether that point fetched it or an
    earlier one did (the block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: its current staging buffer holds its block at every point, whether that point fetched it or an
    earlier one did (the block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: its current staging buffer holds its block at every point, whether that point fetched it or an
    earlier one did (the block index has not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: its current staging buffer holds its block at every point, whether that point fetched it or an
    earlier one did (the block index has not moved since). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: its current staging buffer holds its block at every point, whether that point fetched it or an
    earlier one did (the block index has not moved since). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: its current staging buffer holds its block at every point, whether that point fetched it or an
    earlier one did (the block index has not moved since). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6: its current staging buffer holds its block at every point, whether that point fetched it or an
    earlier one did (the block index has not moved since). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7: its current staging buffer holds its block at every point, whether that point fetched it or an
    earlier one did (the block index has not moved since). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8: its current staging buffer holds its block at every point, whether that point fetched it or an
    earlier one did (the block index has not moved since). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9: its current staging buffer holds its block at every point, whether that point fetched it or an
    earlier one did (the block index has not moved since). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body: its single whole-buffer store, of the body's arithmetic on the
    blocks it loaded. -/
def out0_10 (x0 : Vec F S128x1024 .f32) (x1 : Vec F S128x2048 .f32) (x2 : Vec F S128x1024 .f32) (x3 : Vec F S128x2048 .f32) (x4 : Vec F S1024x2048 .bf16) (x5 : Vec F S1x2048 .f32) (x6 : Vec F S1024x2048 .bf16) (x7 : Vec F S4096x2048 .bf16) (x8 : Vec F S1x2048 .f32) (x9 : Vec F S1x2048 .f32) : Vec F S128x2048 .f32 :=
  View.canon [⟨(Rect.unit (s := S128x2048) ![0, 0] S128x2048.size inb_S128x2048_S128x2048_0_0), k0_pay1 (View.ld x1 (Rect.unit (s := S128x2048) ![0, 0] S128x2048.size inb_S128x2048_S128x2048_0_0)) (View.ld x3 (Rect.unit (s := S128x2048) ![0, 0] S128x2048.size inb_S128x2048_S128x2048_0_0)) (k0_pay2 (View.ld x0 (Rect.unit (s := S128x1024) ![0, 0] S128x1024.size inb_S128x1024_S128x1024_0_0))) (k0_pay3 (View.ld x2 (Rect.unit (s := S128x1024) ![0, 0] S128x1024.size inb_S128x1024_S128x1024_0_0))) (k0_pay4 (View.ld x1 (Rect.unit (s := S128x2048) ![0, 0] S128x2048.size inb_S128x2048_S128x2048_0_0))) (k0_pay5 (View.ld x0 (Rect.unit (s := S128x1024) ![0, 0] S128x1024.size inb_S128x1024_S128x1024_0_0)) (View.ld x4 (Rect.unit (s := S1024x2048) ![0, 0] S1024x2048.size inb_S1024x2048_S1024x2048_0_0)) (View.ld x5 (Rect.unit (s := S1x2048) ![0, 0] S1x2048.size inb_S1x2048_S1x2048_0_0))) (k0_pay7 (View.ld x2 (Rect.unit (s := S128x1024) ![0, 0] S128x1024.size inb_S128x1024_S128x1024_0_0)) (View.ld x6 (Rect.unit (s := S1024x2048) ![0, 0] S1024x2048.size inb_S1024x2048_S1024x2048_0_0))) (k0_pay9 (View.ld x2 (Rect.unit (s := S128x1024) ![0, 0] S128x1024.size inb_S128x1024_S128x1024_0_0)) (View.ld x6 (Rect.unit (s := S1024x2048) ![0, 0] S1024x2048.size inb_S1024x2048_S1024x2048_0_0))) (k0_pay10 (View.ld x2 (Rect.unit (s := S128x1024) ![0, 0] S128x1024.size inb_S128x1024_S128x1024_0_0)) (View.ld x6 (Rect.unit (s := S1024x2048) ![0, 0] S1024x2048.size inb_S1024x2048_S1024x2048_0_0))) (k0_pay11 (View.ld x2 (Rect.unit (s := S128x1024) ![0, 0] S128x1024.size inb_S128x1024_S128x1024_0_0)) (View.ld x6 (Rect.unit (s := S1024x2048) ![0, 0] S1024x2048.size inb_S1024x2048_S1024x2048_0_0))) (Scalar.ofBits .f32 0x00000000#32) (View.ld x7 (Rect.unit (s := S4096x2048) ![0, 0] S4096x2048.size inb_S4096x2048_S4096x2048_0_0)) (View.ld x8 (Rect.unit (s := S1x2048) ![0, 0] S1x2048.size inb_S1x2048_S1x2048_0_0)) (View.ld x9 (Rect.unit (s := S1x2048) ![0, 0] S1x2048.size inb_S1x2048_S1x2048_0_0))⟩]

/-- The one store covers the buffer. -/
theorem cover0_10 (p0 : Vec F S128x2048 .f32) (y : S128x2048.Idx) :
    ∃ pc ∈ ([⟨(Rect.unit (s := S128x2048) ![0, 0] S128x2048.size inb_S128x2048_S128x2048_0_0), p0⟩] : List (View.Piece (Elt F) S128x2048 .f32)), y ∈ pc.1.set :=
  View.cover_of_tiled [⟨(Rect.unit (s := S128x2048) ![0, 0] S128x2048.size inb_S128x2048_S128x2048_0_0), p0⟩] S128x2048.size (by rfl) y

set_option maxHeartbeats 4000000 in
/-- The body, on whole staging memrefs holding `x0 …` (inputs) and anything (output), runs without fault to a state where
    the inputs are as they were and the output holds `out0_10` of them. -/
theorem sound_kernel0 (c : Dev nD) (E : Set ℕ) (i : grid0.Coords) (a0 : Memref sig .tc .vmem S128x1024 .f32) (h0 : a0.IsWhole) (a1 : Memref sig .tc .vmem S128x2048 .f32) (h1 : a1.IsWhole) (a2 : Memref sig .tc .vmem S128x1024 .f32) (h2 : a2.IsWhole) (a3 : Memref sig .tc .vmem S128x2048 .f32) (h3 : a3.IsWhole) (a4 : Memref sig .tc .vmem S1024x2048 .bf16) (h4 : a4.IsWhole) (a5 : Memref sig .tc .vmem S1x2048 .f32) (h5 : a5.IsWhole) (a6 : Memref sig .tc .vmem S1024x2048 .bf16) (h6 : a6.IsWhole) (a7 : Memref sig .tc .vmem S4096x2048 .bf16) (h7 : a7.IsWhole) (a8 : Memref sig .tc .vmem S1x2048 .f32) (h8 : a8.IsWhole) (a9 : Memref sig .tc .vmem S1x2048 .f32) (h9 : a9.IsWhole) (a10 : Memref sig .tc .vmem S128x2048 .f32) (h10 : a10.IsWhole)
    (x0 : Vec F S128x1024 .f32) (x1 : Vec F S128x2048 .f32) (x2 : Vec F S128x1024 .f32) (x3 : Vec F S128x2048 .f32) (x4 : Vec F S1024x2048 .bf16) (x5 : Vec F S1x2048 .f32) (x6 : Vec F S1024x2048 .bf16) (x7 : Vec F S4096x2048 .bf16) (x8 : Vec F S1x2048 .f32) (x9 : Vec F S1x2048 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out0_10 x0 x1 x2 x3 x4 x5 x6 x7 x8 x9)) -∗ K ⟨⟩))
      ⊢ wp frame (wpE (defs₀ (F := F)) Variants.none c none) E (cc0__ssm_update_kernel i a0 h0 a1 h1 a2 h2 a3 h3 a4 h4 a5 h5 a6 h6 a7 h7 a8 h8 a9 h9 a10 h10) K := by
  simp only [cc0__ssm_update_kernel_eq_skeleton]; unfold cc0__ssm_update_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover0_10 _)

/-- The pipeline's proof data on core `c`: the arrays as the region finds them; after the body each input's buffer at its
    block and the output's at `out0_10` of the blocks; nothing owed, full shares, the invariant that of a body with no
    state of its own. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- The body at any point: the inputs' memrefs hold their blocks, so the body's triple applies; the invariant and the
    core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Cert.Kernel.Whole

end
-- ==== Proof.KernelRegion1.lean ====
/-
  Region 1 of @main, taken at any contents `V` of the TensorCore's buffers on entry: the block each window
  holds at a grid point, the contents the kernel body leaves in the output window's staging buffer (its one store,
  a pure function of the blocks it loaded), the body's triple, the pipeline's proof data and the body obligation at
  every point. Generic in the float instance.
-/
import proofs.«123416_j83958020702584_2_alg».proof.Proof.Gen.Kernel.Launch
import proofs.«123416_j83958020702584_2_alg».proof.Proof.Gen.Kernel.Skeleton
import proofs.«123416_j83958020702584_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its current staging buffer holds its block at every point, whether that point fetched it or an
    earlier one did (the block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: its current staging buffer holds its block at every point, whether that point fetched it or an
    earlier one did (the block index has not moved since). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: its current staging buffer holds its block at every point, whether that point fetched it or an
    earlier one did (the block index has not moved since). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: its current staging buffer holds its block at every point, whether that point fetched it or an
    earlier one did (the block index has not moved since). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: its current staging buffer holds its block at every point, whether that point fetched it or an
    earlier one did (the block index has not moved since). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: its current staging buffer holds its block at every point, whether that point fetched it or an
    earlier one did (the block index has not moved since). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body: its single whole-buffer store, of the body's arithmetic on the
    blocks it loaded. -/
def out1_6 (x0 : Vec F S512x1024 .f32) (x1 : Vec F S512x2048 .f32) (x2 : Vec F S3072x1024 .bf16) (x3 : Vec F S1x1024 .f32) (x4 : Vec F S1x1024 .f32) (x5 : Vec F S1x1024 .f32) : Vec F S512x1024 .f32 :=
  View.canon [⟨(Rect.unit (s := S512x1024) ![0, 0] S512x1024.size inb_S512x1024_S512x1024_0_0), k1_pay1 (View.ld x0 (Rect.unit (s := S512x1024) ![0, 0] S512x1024.size inb_S512x1024_S512x1024_0_0)) (View.ld x1 (Rect.unit (s := S512x2048) ![0, 0] S512x2048.size inb_S512x2048_S512x2048_0_0)) (View.ld x2 (Rect.unit (s := S3072x1024) ![0, 0] S3072x1024.size inb_S3072x1024_S3072x1024_0_0)) (View.ld x3 (Rect.unit (s := S1x1024) ![0, 0] S1x1024.size inb_S1x1024_S1x1024_0_0)) (View.ld x4 (Rect.unit (s := S1x1024) ![0, 0] S1x1024.size inb_S1x1024_S1x1024_0_0)) (View.ld x5 (Rect.unit (s := S1x1024) ![0, 0] S1x1024.size inb_S1x1024_S1x1024_0_0))⟩]

/-- The one store covers the buffer. -/
theorem cover1_6 (p0 : Vec F S512x1024 .f32) (y : S512x1024.Idx) :
    ∃ pc ∈ ([⟨(Rect.unit (s := S512x1024) ![0, 0] S512x1024.size inb_S512x1024_S512x1024_0_0), p0⟩] : List (View.Piece (Elt F) S512x1024 .f32)), y ∈ pc.1.set :=
  View.cover_of_tiled [⟨(Rect.unit (s := S512x1024) ![0, 0] S512x1024.size inb_S512x1024_S512x1024_0_0), p0⟩] S512x1024.size (by rfl) y

set_option maxHeartbeats 4000000 in
/-- The body, on whole staging memrefs holding `x0 …` (inputs) and anything (output), runs without fault to a state where
    the inputs are as they were and the output holds `out1_6` of them. -/
theorem sound_kernel1 (c : Dev nD) (E : Set ℕ) (i : grid1.Coords) (a0 : Memref sig .tc .vmem S512x1024 .f32) (h0 : a0.IsWhole) (a1 : Memref sig .tc .vmem S512x2048 .f32) (h1 : a1.IsWhole) (a2 : Memref sig .tc .vmem S3072x1024 .bf16) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S512x1024 .f32) (h6 : a6.IsWhole)
    (x0 : Vec F S512x1024 .f32) (x1 : Vec F S512x2048 .f32) (x2 : Vec F S3072x1024 .bf16) (x3 : Vec F S1x1024 .f32) (x4 : Vec F S1x1024 .f32) (x5 : Vec F S1x1024 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out1_6 x0 x1 x2 x3 x4 x5)) -∗ K ⟨⟩))
      ⊢ wp frame (wpE (defs₀ (F := F)) Variants.none c none) E (cc1__output_ln_kernel i a0 h0 a1 h1 a2 h2 a3 h3 a4 h4 a5 h5 a6 h6) K := by
  simp only [cc1__output_ln_kernel_eq_skeleton]; unfold cc1__output_ln_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-- The pipeline's proof data on core `c`: the arrays as the region finds them; after the body each input's buffer at its
    block and the output's at `out1_6` of the blocks; nothing owed, full shares, the invariant that of a body with no
    state of its own. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' memrefs hold their blocks, so the body's triple applies; the invariant and the
    core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Cert.Kernel.Whole

end
-- ==== Proof.KernelRun.lean ====
/-
  The whole run of @main: two stretches of host operations and two kernel regions, as the segments of the pipeline
  library's several-regions launch. The contents of every unscoped buffer at each boundary are a fold from the launch
  memory: a host stretch applies its operations, a region leaves each of its windows' arrays at what its write-backs
  leave and every other buffer alone. Every weakly fair execution terminates, nothing faulting, with EVERY unscoped
  buffer at the last boundary's contents; each argument array read back through the fold is the launch memory's.
  Generic in the float instance.
-/
import proofs.«123416_j83958020702584_2_alg».proof.Proof.KernelRegion0
import proofs.«123416_j83958020702584_2_alg».proof.Proof.KernelRegion1

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

abbrev hostW0 : List (Ref sig .tc) := [main_v0, main_v1, main_v2, main_v3, main_v4, main_v5, main_v6, main_v7, main_v8, main_v9, main_v10]
abbrev hostW1 : List (Ref sig .tc) := [main_v12, main_v13, main_v14]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hostOps0_writes : (hostOps0 : List (HloOp τ sig (Elt F))).Forall fun op => op.writes ⊆ (hostW0.map (Proc.devRef (τ := τ) .tc)).toFinset := by
  simp only [List.Forall]
  repeat' apply And.intro
  all_goals (simp only [StableHlo.unary_writes, StableHlo.reshape_writes, StableHlo.nary_writes, Finset.singleton_subset_iff, List.mem_toFinset]; exact List.mem_map_of_mem (by decide))
theorem hostOps1_writes : (hostOps1 : List (HloOp τ sig (Elt F))).Forall fun op => op.writes ⊆ (hostW1.map (Proc.devRef (τ := τ) .tc)).toFinset := by
  simp only [List.Forall]
  repeat' apply And.intro
  all_goals (simp only [StableHlo.unary_writes, StableHlo.reshape_writes, StableHlo.nary_writes, Finset.singleton_subset_iff, List.mem_toFinset]; exact List.mem_map_of_mem (by decide))

/-- A buffer the first host stretch does not write is as before it. -/
theorem after0_of (Wv : Valuation τ sig (Elt F)) (b : Ref sig .tc) (hb : b ∉ hostW0) :
    StableHlo.after hostOps0 Wv (Proc.devRef .tc b) = Wv (Proc.devRef .tc b) :=
  StableHlo.after_of_writes_sub hostOps0 _ hostOps0_writes hb
/-- A buffer the second host stretch does not write is as before it. -/
theorem after1_of (Wv : Valuation τ sig (Elt F)) (b : Ref sig .tc) (hb : b ∉ hostW1) :
    StableHlo.after hostOps1 Wv (Proc.devRef .tc b) = Wv (Proc.devRef .tc b) :=
  StableHlo.after_of_writes_sub hostOps1 _ hostOps1_writes hb

/-! ## The buffer contents at each boundary -/

/-- Core `c`'s buffers at launch. -/
abbrev B0 : Dev nD → Valuation τ sig (Elt F) := fun c b => (s₀ m ρ).mem ((c : Dev nD), b)
/-- After the first host stretch (region 0's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (region 1's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## Each argument array ends as launched: no host operation writes one, and a region only reads it -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := (B4_arr m ρ c 0).trans (((dat1 (E3 m ρ) c).arrAt_in 0 rfl _).trans (A_eq1 (E3 m ρ) c 0))
    _ = B2 m ρ c (Proc.devRef .tc main_arg0) := after1_of _ main_arg0 (by decide)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := after0_of _ main_arg0 (by decide)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := after1_of _ main_arg1 (by decide)
    _ = B1 m ρ c (Proc.devRef .tc main_arg1) := (B2_arr m ρ c 1).trans (((dat0 (E1 m ρ) c).arrAt_in 1 rfl _).trans (A_eq0 (E1 m ρ) c 1))
    _ = B0 m ρ c (Proc.devRef .tc main_arg1) := after0_of _ main_arg1 (by decide)
    _ = m ((c : Thread nD τ).loc main_arg1) := rfl
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := after1_of _ main_arg2 (by decide)
    _ = B1 m ρ c (Proc.devRef .tc main_arg2) := (B2_arr m ρ c 2).trans (((dat0 (E1 m ρ) c).arrAt_in 2 rfl _).trans (A_eq0 (E1 m ρ) c 2))
    _ = B0 m ρ c (Proc.devRef .tc main_arg2) := after0_of _ main_arg2 (by decide)
    _ = m ((c : Thread nD τ).loc main_arg2) := rfl
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := after1_of _ main_arg3 (by decide)
    _ = B1 m ρ c (Proc.devRef .tc main_arg3) := (B2_arr m ρ c 3).trans (((dat0 (E1 m ρ) c).arrAt_in 3 rfl _).trans (A_eq0 (E1 m ρ) c 3))
    _ = B0 m ρ c (Proc.devRef .tc main_arg3) := after0_of _ main_arg3 (by decide)
    _ = m ((c : Thread nD τ).loc main_arg3) := rfl
theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := after1_of _ main_arg4 (by decide)
    _ = B1 m ρ c (Proc.devRef .tc main_arg4) := B2_of_ne m ρ c main_arg4 (by decide)
    _ = B0 m ρ c (Proc.devRef .tc main_arg4) := after0_of _ main_arg4 (by decide)
    _ = m ((c : Thread nD τ).loc main_arg4) := rfl
theorem B4_main_arg5 (c : Dev nD) : B4 m ρ c (Proc.devRef .tc main_arg5) = m ((c : Thread nD τ).loc main_arg5) :=
  calc B4 m ρ c (Proc.devRef .tc main_arg5)
    _ = B3 m ρ c (Proc.devRef .tc main_arg5) := B4_of_ne m ρ c main_arg5 (by decide)
    _ = B2 m ρ c (Proc.devRef .tc main_arg5) := after1_of _ main_arg5 (by decide)
    _ = B1 m ρ c (Proc.devRef .tc main_arg5) := B2_of_ne m ρ c main_arg5 (by decide)
    _ = B0 m ρ c (Proc.devRef .tc main_arg5) := after0_of _ main_arg5 (by decide)
    _ = m ((c : Thread nD τ).loc main_arg5) := rfl
theorem B4_main_arg6 (c : Dev nD) : B4 m ρ c (Proc.devRef .tc main_arg6) = m ((c : Thread nD τ).loc main_arg6) :=
  calc B4 m ρ c (Proc.devRef .tc main_arg6)
    _ = B3 m ρ c (Proc.devRef .tc main_arg6) := B4_of_ne m ρ c main_arg6 (by decide)
    _ = B2 m ρ c (Proc.devRef .tc main_arg6) := after1_of _ main_arg6 (by decide)
    _ = B1 m ρ c (Proc.devRef .tc main_arg6) := B2_of_ne m ρ c main_arg6 (by decide)
    _ = B0 m ρ c (Proc.devRef .tc main_arg6) := after0_of _ main_arg6 (by decide)
    _ = m ((c : Thread nD τ).loc main_arg6) := rfl
theorem B4_main_arg7 (c : Dev nD) : B4 m ρ c (Proc.devRef .tc main_arg7) = m ((c : Thread nD τ).loc main_arg7) :=
  calc B4 m ρ c (Proc.devRef .tc main_arg7)
    _ = B3 m ρ c (Proc.devRef .tc main_arg7) := B4_of_ne m ρ c main_arg7 (by decide)
    _ = B2 m ρ c (Proc.devRef .tc main_arg7) := after1_of _ main_arg7 (by decide)
    _ = B1 m ρ c (Proc.devRef .tc main_arg7) := B2_of_ne m ρ c main_arg7 (by decide)
    _ = B0 m ρ c (Proc.devRef .tc main_arg7) := after0_of _ main_arg7 (by decide)
    _ = m ((c : Thread nD τ).loc main_arg7) := rfl
theorem B4_main_arg8 (c : Dev nD) : B4 m ρ c (Proc.devRef .tc main_arg8) = m ((c : Thread nD τ).loc main_arg8) :=
  calc B4 m ρ c (Proc.devRef .tc main_arg8)
    _ = B3 m ρ c (Proc.devRef .tc main_arg8) := B4_of_ne m ρ c main_arg8 (by decide)
    _ = B2 m ρ c (Proc.devRef .tc main_arg8) := after1_of _ main_arg8 (by decide)
    _ = B1 m ρ c (Proc.devRef .tc main_arg8) := B2_of_ne m ρ c main_arg8 (by decide)
    _ = B0 m ρ c (Proc.devRef .tc main_arg8) := after0_of _ main_arg8 (by decide)
    _ = m ((c : Thread nD τ).loc main_arg8) := rfl
theorem B4_main_arg9 (c : Dev nD) : B4 m ρ c (Proc.devRef .tc main_arg9) = m ((c : Thread nD τ).loc main_arg9) :=
  calc B4 m ρ c (Proc.devRef .tc main_arg9)
    _ = B3 m ρ c (Proc.devRef .tc main_arg9) := B4_of_ne m ρ c main_arg9 (by decide)
    _ = B2 m ρ c (Proc.devRef .tc main_arg9) := after1_of _ main_arg9 (by decide)
    _ = B1 m ρ c (Proc.devRef .tc main_arg9) := B2_of_ne m ρ c main_arg9 (by decide)
    _ = B0 m ρ c (Proc.devRef .tc main_arg9) := after0_of _ main_arg9 (by decide)
    _ = m ((c : Thread nD τ).loc main_arg9) := rfl
theorem B4_main_arg10 (c : Dev nD) : B4 m ρ c (Proc.devRef .tc main_arg10) = m ((c : Thread nD τ).loc main_arg10) :=
  calc B4 m ρ c (Proc.devRef .tc main_arg10)
    _ = B3 m ρ c (Proc.devRef .tc main_arg10) := B4_of_ne m ρ c main_arg10 (by decide)
    _ = B2 m ρ c (Proc.devRef .tc main_arg10) := after1_of _ main_arg10 (by decide)
    _ = B1 m ρ c (Proc.devRef .tc main_arg10) := B2_of_ne m ρ c main_arg10 (by decide)
    _ = B0 m ρ c (Proc.devRef .tc main_arg10) := after0_of _ main_arg10 (by decide)
    _ = m ((c : Thread nD τ).loc main_arg10) := rfl
theorem B4_main_arg11 (c : Dev nD) : B4 m ρ c (Proc.devRef .tc main_arg11) = m ((c : Thread nD τ).loc main_arg11) :=
  calc B4 m ρ c (Proc.devRef .tc main_arg11)
    _ = B3 m ρ c (Proc.devRef .tc main_arg11) := B4_of_ne m ρ c main_arg11 (by decide)
    _ = B2 m ρ c (Proc.devRef .tc main_arg11) := after1_of _ main_arg11 (by decide)
    _ = B1 m ρ c (Proc.devRef .tc main_arg11) := B2_of_ne m ρ c main_arg11 (by decide)
    _ = B0 m ρ c (Proc.devRef .tc main_arg11) := after0_of _ main_arg11 (by decide)
    _ = m ((c : Thread nD τ).loc main_arg11) := rfl
theorem B4_main_arg12 (c : Dev nD) : B4 m ρ c (Proc.devRef .tc main_arg12) = m ((c : Thread nD τ).loc main_arg12) :=
  calc B4 m ρ c (Proc.devRef .tc main_arg12)
    _ = B3 m ρ c (Proc.devRef .tc main_arg12) := B4_of_ne m ρ c main_arg12 (by decide)
    _ = B2 m ρ c (Proc.devRef .tc main_arg12) := after1_of _ main_arg12 (by decide)
    _ = B1 m ρ c (Proc.devRef .tc main_arg12) := B2_of_ne m ρ c main_arg12 (by decide)
    _ = B0 m ρ c (Proc.devRef .tc main_arg12) := after0_of _ main_arg12 (by decide)
    _ = m ((c : Thread nD τ).loc main_arg12) := rfl
theorem B4_main_arg13 (c : Dev nD) : B4 m ρ c (Proc.devRef .tc main_arg13) = m ((c : Thread nD τ).loc main_arg13) :=
  calc B4 m ρ c (Proc.devRef .tc main_arg13)
    _ = B3 m ρ c (Proc.devRef .tc main_arg13) := B4_of_ne m ρ c main_arg13 (by decide)
    _ = B2 m ρ c (Proc.devRef .tc main_arg13) := after1_of _ main_arg13 (by decide)
    _ = B1 m ρ c (Proc.devRef .tc main_arg13) := B2_of_ne m ρ c main_arg13 (by decide)
    _ = B0 m ρ c (Proc.devRef .tc main_arg13) := after0_of _ main_arg13 (by decide)
    _ = m ((c : Thread nD τ).loc main_arg13) := rfl
theorem B4_main_arg14 (c : Dev nD) : B4 m ρ c (Proc.devRef .tc main_arg14) = m ((c : Thread nD τ).loc main_arg14) :=
  calc B4 m ρ c (Proc.devRef .tc main_arg14)
    _ = B3 m ρ c (Proc.devRef .tc main_arg14) := B4_of_ne m ρ c main_arg14 (by decide)
    _ = B2 m ρ c (Proc.devRef .tc main_arg14) := after1_of _ main_arg14 (by decide)
    _ = B1 m ρ c (Proc.devRef .tc main_arg14) := B2_of_ne m ρ c main_arg14 (by decide)
    _ = B0 m ρ c (Proc.devRef .tc main_arg14) := after0_of _ main_arg14 (by decide)
    _ = m ((c : Thread nD τ).loc main_arg14) := rfl
theorem B4_main_arg15 (c : Dev nD) : B4 m ρ c (Proc.devRef .tc main_arg15) = m ((c : Thread nD τ).loc main_arg15) :=
  calc B4 m ρ c (Proc.devRef .tc main_arg15)
    _ = B3 m ρ c (Proc.devRef .tc main_arg15) := B4_of_ne m ρ c main_arg15 (by decide)
    _ = B2 m ρ c (Proc.devRef .tc main_arg15) := after1_of _ main_arg15 (by decide)
    _ = B1 m ρ c (Proc.devRef .tc main_arg15) := B2_of_ne m ρ c main_arg15 (by decide)
    _ = B0 m ρ c (Proc.devRef .tc main_arg15) := after0_of _ main_arg15 (by decide)
    _ = m ((c : Thread nD τ).loc main_arg15) := rfl

/-! ## The proof data family and the thread state -/

abbrev admT : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admT p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wv Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- Region 0 as a segment: entered with every unscoped buffer at `B1`, left with them at `B2`. Its windows' arrays are
    split out of the unscoped buffers on entry and put back, at what the write-backs leave, on exit; the generator register
    passes through the invariant; nothing is owed and the kernel has no semaphore of its own. -/
def reg0 : Pipeline.RegionSeg (pcfgs (F := F)) admT (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ Rr c)
  post c := iprop(StableHlo.held (c : Thread nD τ) (Pipeline.ucRefs τ sig) (B2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `B3`, left with them at `B4`. Its windows' arrays are
    split out of the unscoped buffers on entry and put back, at what the write-backs leave, on exit; the generator register
    passes through the invariant; nothing is owed and the kernel has no semaphore of its own. -/
def reg1 : Pipeline.RegionSeg (pcfgs (F := F)) admT (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ Rr c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsT : List (Pipeline.Seg (pcfgs (F := F)) admT (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ) ]
theorem main_run (c : Dev nD) : main (F := F) c = Pipeline.Seg.run (segsT m ρ) := (main_chain c).trans (by chain_rfl)

set_option backward.isDefEq.respectTransparency.types false in
/-- THE RUN: from any memory with zero counters every weakly fair execution of @main terminates, nothing faulting, and
    the final memory holds every unscoped buffer at the last boundary's contents `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) admT (pdats m ρ) () cellOf_inj emb₁ defs₀ 𝒱₀ L lv m ρ main (segsT m ρ)
    (fun c Q => by rw [main_run m ρ c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rr c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (B4_main_arg0 m ρ c),
    (h c _ (mem_uc main_arg1 (by decide))).trans (B4_main_arg1 m ρ c),
    (h c _ (mem_uc main_arg2 (by decide))).trans (B4_main_arg2 m ρ c),
    (h c _ (mem_uc main_arg3 (by decide))).trans (B4_main_arg3 m ρ c),
    (h c _ (mem_uc main_arg4 (by decide))).trans (B4_main_arg4 m ρ c),
    (h c _ (mem_uc main_arg5 (by decide))).trans (B4_main_arg5 m ρ c),
    (h c _ (mem_uc main_arg6 (by decide))).trans (B4_main_arg6 m ρ c),
    (h c _ (mem_uc main_arg7 (by decide))).trans (B4_main_arg7 m ρ c),
    (h c _ (mem_uc main_arg8 (by decide))).trans (B4_main_arg8 m ρ c),
    (h c _ (mem_uc main_arg9 (by decide))).trans (B4_main_arg9 m ρ c),
    (h c _ (mem_uc main_arg10 (by decide))).trans (B4_main_arg10 m ρ c),
    (h c _ (mem_uc main_arg11 (by decide))).trans (B4_main_arg11 m ρ c),
    (h c _ (mem_uc main_arg12 (by decide))).trans (B4_main_arg12 m ρ c),
    (h c _ (mem_uc main_arg13 (by decide))).trans (B4_main_arg13 m ρ c),
    (h c _ (mem_uc main_arg14 (by decide))).trans (B4_main_arg14 m ρ c),
    (h c _ (mem_uc main_arg15 (by decide))).trans (B4_main_arg15 m ρ c)⟩) (run_all m ρ)

end Cert.Kernel.Whole

end
-- ==== Proof.KernelIdealRegion0.lean ====
/-
  Region 0 of @main, taken at any contents `V` of the TensorCore's buffers on entry: the block each window
  holds at a grid point, the contents the kernel body leaves in the output window's staging buffer (its one store,
  a pure function of the blocks it loaded), the body's triple, the pipeline's proof data and the body obligation at
  every point. Generic in the float instance.
-/
import proofs.«123416_j83958020702584_2_alg».proof.Proof.Gen.KernelIdeal.Launch
import proofs.«123416_j83958020702584_2_alg».proof.Proof.Gen.KernelIdeal.Skeleton
import proofs.«123416_j83958020702584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its current staging buffer holds its block at every point, whether that point fetched it or an
    earlier one did (the block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: its current staging buffer holds its block at every point, whether that point fetched it or an
    earlier one did (the block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: its current staging buffer holds its block at every point, whether that point fetched it or an
    earlier one did (the block index has not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: its current staging buffer holds its block at every point, whether that point fetched it or an
    earlier one did (the block index has not moved since). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: its current staging buffer holds its block at every point, whether that point fetched it or an
    earlier one did (the block index has not moved since). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: its current staging buffer holds its block at every point, whether that point fetched it or an
    earlier one did (the block index has not moved since). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6: its current staging buffer holds its block at every point, whether that point fetched it or an
    earlier one did (the block index has not moved since). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7: its current staging buffer holds its block at every point, whether that point fetched it or an
    earlier one did (the block index has not moved since). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8: its current staging buffer holds its block at every point, whether that point fetched it or an
    earlier one did (the block index has not moved since). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9: its current staging buffer holds its block at every point, whether that point fetched it or an
    earlier one did (the block index has not moved since). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body: its single whole-buffer store, of the body's arithmetic on the
    blocks it loaded. -/
def out0_10 (x0 : Vec F S128x1024 .f32) (x1 : Vec F S128x2048 .f32) (x2 : Vec F S128x1024 .f32) (x3 : Vec F S128x2048 .f32) (x4 : Vec F S1024x2048 .bf16) (x5 : Vec F S1x2048 .f32) (x6 : Vec F S1024x2048 .bf16) (x7 : Vec F S4096x2048 .bf16) (x8 : Vec F S1x2048 .f32) (x9 : Vec F S1x2048 .f32) : Vec F S128x2048 .f32 :=
  View.canon [⟨(Rect.unit (s := S128x2048) ![0, 0] S128x2048.size inb_S128x2048_S128x2048_0_0), k0_pay1 (View.ld x1 (Rect.unit (s := S128x2048) ![0, 0] S128x2048.size inb_S128x2048_S128x2048_0_0)) (View.ld x3 (Rect.unit (s := S128x2048) ![0, 0] S128x2048.size inb_S128x2048_S128x2048_0_0)) (k0_pay2 (View.ld x0 (Rect.unit (s := S128x1024) ![0, 0] S128x1024.size inb_S128x1024_S128x1024_0_0))) (k0_pay3 (View.ld x2 (Rect.unit (s := S128x1024) ![0, 0] S128x1024.size inb_S128x1024_S128x1024_0_0))) (k0_pay4 (View.ld x1 (Rect.unit (s := S128x2048) ![0, 0] S128x2048.size inb_S128x2048_S128x2048_0_0))) (k0_pay5 (View.ld x0 (Rect.unit (s := S128x1024) ![0, 0] S128x1024.size inb_S128x1024_S128x1024_0_0)) (View.ld x4 (Rect.unit (s := S1024x2048) ![0, 0] S1024x2048.size inb_S1024x2048_S1024x2048_0_0)) (View.ld x5 (Rect.unit (s := S1x2048) ![0, 0] S1x2048.size inb_S1x2048_S1x2048_0_0))) (k0_pay7 (View.ld x2 (Rect.unit (s := S128x1024) ![0, 0] S128x1024.size inb_S128x1024_S128x1024_0_0)) (View.ld x6 (Rect.unit (s := S1024x2048) ![0, 0] S1024x2048.size inb_S1024x2048_S1024x2048_0_0))) (k0_pay9 (View.ld x2 (Rect.unit (s := S128x1024) ![0, 0] S128x1024.size inb_S128x1024_S128x1024_0_0)) (View.ld x6 (Rect.unit (s := S1024x2048) ![0, 0] S1024x2048.size inb_S1024x2048_S1024x2048_0_0))) (k0_pay10 (View.ld x2 (Rect.unit (s := S128x1024) ![0, 0] S128x1024.size inb_S128x1024_S128x1024_0_0)) (View.ld x6 (Rect.unit (s := S1024x2048) ![0, 0] S1024x2048.size inb_S1024x2048_S1024x2048_0_0))) (k0_pay11 (View.ld x2 (Rect.unit (s := S128x1024) ![0, 0] S128x1024.size inb_S128x1024_S128x1024_0_0)) (View.ld x6 (Rect.unit (s := S1024x2048) ![0, 0] S1024x2048.size inb_S1024x2048_S1024x2048_0_0))) (Scalar.ofBits .f32 0x00000000#32) (View.ld x7 (Rect.unit (s := S4096x2048) ![0, 0] S4096x2048.size inb_S4096x2048_S4096x2048_0_0)) (View.ld x8 (Rect.unit (s := S1x2048) ![0, 0] S1x2048.size inb_S1x2048_S1x2048_0_0)) (View.ld x9 (Rect.unit (s := S1x2048) ![0, 0] S1x2048.size inb_S1x2048_S1x2048_0_0))⟩]

/-- The one store covers the buffer. -/
theorem cover0_10 (p0 : Vec F S128x2048 .f32) (y : S128x2048.Idx) :
    ∃ pc ∈ ([⟨(Rect.unit (s := S128x2048) ![0, 0] S128x2048.size inb_S128x2048_S128x2048_0_0), p0⟩] : List (View.Piece (Elt F) S128x2048 .f32)), y ∈ pc.1.set :=
  View.cover_of_tiled [⟨(Rect.unit (s := S128x2048) ![0, 0] S128x2048.size inb_S128x2048_S128x2048_0_0), p0⟩] S128x2048.size (by rfl) y

set_option maxHeartbeats 4000000 in
/-- The body, on whole staging memrefs holding `x0 …` (inputs) and anything (output), runs without fault to a state where
    the inputs are as they were and the output holds `out0_10` of them. -/
theorem sound_kernel0 (c : Dev nD) (E : Set ℕ) (i : grid0.Coords) (a0 : Memref sig .tc .vmem S128x1024 .f32) (h0 : a0.IsWhole) (a1 : Memref sig .tc .vmem S128x2048 .f32) (h1 : a1.IsWhole) (a2 : Memref sig .tc .vmem S128x1024 .f32) (h2 : a2.IsWhole) (a3 : Memref sig .tc .vmem S128x2048 .f32) (h3 : a3.IsWhole) (a4 : Memref sig .tc .vmem S1024x2048 .bf16) (h4 : a4.IsWhole) (a5 : Memref sig .tc .vmem S1x2048 .f32) (h5 : a5.IsWhole) (a6 : Memref sig .tc .vmem S1024x2048 .bf16) (h6 : a6.IsWhole) (a7 : Memref sig .tc .vmem S4096x2048 .bf16) (h7 : a7.IsWhole) (a8 : Memref sig .tc .vmem S1x2048 .f32) (h8 : a8.IsWhole) (a9 : Memref sig .tc .vmem S1x2048 .f32) (h9 : a9.IsWhole) (a10 : Memref sig .tc .vmem S128x2048 .f32) (h10 : a10.IsWhole)
    (x0 : Vec F S128x1024 .f32) (x1 : Vec F S128x2048 .f32) (x2 : Vec F S128x1024 .f32) (x3 : Vec F S128x2048 .f32) (x4 : Vec F S1024x2048 .bf16) (x5 : Vec F S1x2048 .f32) (x6 : Vec F S1024x2048 .bf16) (x7 : Vec F S4096x2048 .bf16) (x8 : Vec F S1x2048 .f32) (x9 : Vec F S1x2048 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare (out0_10 x0 x1 x2 x3 x4 x5 x6 x7 x8 x9)) -∗ K ⟨⟩))
      ⊢ wp frame (wpE (defs₀ (F := F)) Variants.none c none) E (cc0__ssm_update_kernel i a0 h0 a1 h1 a2 h2 a3 h3 a4 h4 a5 h5 a6 h6 a7 h7 a8 h8 a9 h9 a10 h10) K := by
  simp only [cc0__ssm_update_kernel_eq_skeleton]; unfold cc0__ssm_update_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover0_10 _)

/-- The pipeline's proof data on core `c`: the arrays as the region finds them; after the body each input's buffer at its
    block and the output's at `out0_10` of the blocks; nothing owed, full shares, the invariant that of a body with no
    state of its own. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 4000000 in
/-- The body at any point: the inputs' memrefs hold their blocks, so the body's triple applies; the invariant and the
    core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Whole

end
-- ==== Proof.KernelIdealRegion1.lean ====
/-
  Region 1 of @main, taken at any contents `V` of the TensorCore's buffers on entry: the block each window
  holds at a grid point, the contents the kernel body leaves in the output window's staging buffer (its one store,
  a pure function of the blocks it loaded), the body's triple, the pipeline's proof data and the body obligation at
  every point. Generic in the float instance.
-/
import proofs.«123416_j83958020702584_2_alg».proof.Proof.Gen.KernelIdeal.Launch
import proofs.«123416_j83958020702584_2_alg».proof.Proof.Gen.KernelIdeal.Skeleton
import proofs.«123416_j83958020702584_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its current staging buffer holds its block at every point, whether that point fetched it or an
    earlier one did (the block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: its current staging buffer holds its block at every point, whether that point fetched it or an
    earlier one did (the block index has not moved since). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: its current staging buffer holds its block at every point, whether that point fetched it or an
    earlier one did (the block index has not moved since). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: its current staging buffer holds its block at every point, whether that point fetched it or an
    earlier one did (the block index has not moved since). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: its current staging buffer holds its block at every point, whether that point fetched it or an
    earlier one did (the block index has not moved since). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: its current staging buffer holds its block at every point, whether that point fetched it or an
    earlier one did (the block index has not moved since). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body: its single whole-buffer store, of the body's arithmetic on the
    blocks it loaded. -/
def out1_6 (x0 : Vec F S512x1024 .f32) (x1 : Vec F S512x2048 .f32) (x2 : Vec F S3072x1024 .bf16) (x3 : Vec F S1x1024 .f32) (x4 : Vec F S1x1024 .f32) (x5 : Vec F S1x1024 .f32) : Vec F S512x1024 .f32 :=
  View.canon [⟨(Rect.unit (s := S512x1024) ![0, 0] S512x1024.size inb_S512x1024_S512x1024_0_0), k1_pay1 (View.ld x0 (Rect.unit (s := S512x1024) ![0, 0] S512x1024.size inb_S512x1024_S512x1024_0_0)) (View.ld x1 (Rect.unit (s := S512x2048) ![0, 0] S512x2048.size inb_S512x2048_S512x2048_0_0)) (View.ld x2 (Rect.unit (s := S3072x1024) ![0, 0] S3072x1024.size inb_S3072x1024_S3072x1024_0_0)) (View.ld x3 (Rect.unit (s := S1x1024) ![0, 0] S1x1024.size inb_S1x1024_S1x1024_0_0)) (View.ld x4 (Rect.unit (s := S1x1024) ![0, 0] S1x1024.size inb_S1x1024_S1x1024_0_0)) (View.ld x5 (Rect.unit (s := S1x1024) ![0, 0] S1x1024.size inb_S1x1024_S1x1024_0_0))⟩]

/-- The one store covers the buffer. -/
theorem cover1_6 (p0 : Vec F S512x1024 .f32) (y : S512x1024.Idx) :
    ∃ pc ∈ ([⟨(Rect.unit (s := S512x1024) ![0, 0] S512x1024.size inb_S512x1024_S512x1024_0_0), p0⟩] : List (View.Piece (Elt F) S512x1024 .f32)), y ∈ pc.1.set :=
  View.cover_of_tiled [⟨(Rect.unit (s := S512x1024) ![0, 0] S512x1024.size inb_S512x1024_S512x1024_0_0), p0⟩] S512x1024.size (by rfl) y

set_option maxHeartbeats 4000000 in
/-- The body, on whole staging memrefs holding `x0 …` (inputs) and anything (output), runs without fault to a state where
    the inputs are as they were and the output holds `out1_6` of them. -/
theorem sound_kernel1 (c : Dev nD) (E : Set ℕ) (i : grid1.Coords) (a0 : Memref sig .tc .vmem S512x1024 .f32) (h0 : a0.IsWhole) (a1 : Memref sig .tc .vmem S512x2048 .f32) (h1 : a1.IsWhole) (a2 : Memref sig .tc .vmem S3072x1024 .bf16) (h2 : a2.IsWhole) (a3 : Memref sig .tc .vmem S1x1024 .f32) (h3 : a3.IsWhole) (a4 : Memref sig .tc .vmem S1x1024 .f32) (h4 : a4.IsWhole) (a5 : Memref sig .tc .vmem S1x1024 .f32) (h5 : a5.IsWhole) (a6 : Memref sig .tc .vmem S512x1024 .f32) (h6 : a6.IsWhole)
    (x0 : Vec F S512x1024 .f32) (x1 : Vec F S512x2048 .f32) (x2 : Vec F S3072x1024 .bf16) (x3 : Vec F S1x1024 .f32) (x4 : Vec F S1x1024 .f32) (x5 : Vec F S1x1024 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out1_6 x0 x1 x2 x3 x4 x5)) -∗ K ⟨⟩))
      ⊢ wp frame (wpE (defs₀ (F := F)) Variants.none c none) E (cc1__output_ln_kernel i a0 h0 a1 h1 a2 h2 a3 h3 a4 h4 a5 h5 a6 h6) K := by
  simp only [cc1__output_ln_kernel_eq_skeleton]; unfold cc1__output_ln_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover1_6 _)

/-- The pipeline's proof data on core `c`: the arrays as the region finds them; after the body each input's buffer at its
    block and the output's at `out1_6` of the blocks; nothing owed, full shares, the invariant that of a body with no
    state of its own. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' memrefs hold their blocks, so the body's triple applies; the invariant and the
    core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the pipeline library, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Whole

end
-- ==== Proof.KernelIdealRun.lean ====
/-
  The whole run of @main: two stretches of host operations and two kernel regions, as the segments of the pipeline
  library's several-regions launch. The contents of every unscoped buffer at each boundary are a fold from the launch
  memory: a host stretch applies its operations, a region leaves each of its windows' arrays at what its write-backs
  leave and every other buffer alone. Every weakly fair execution terminates, nothing faulting, with EVERY unscoped
  buffer at the last boundary's contents; each argument array read back through the fold is the launch memory's.
  Generic in the float instance.
-/
import proofs.«123416_j83958020702584_2_alg».proof.Proof.KernelIdealRegion0
import proofs.«123416_j83958020702584_2_alg».proof.Proof.KernelIdealRegion1

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

abbrev hostW0 : List (Ref sig .tc) := [main_v0, main_v1, main_v2, main_v3, main_v4, main_v5, main_v6, main_v7, main_v8, main_v9, main_v10]
abbrev hostW1 : List (Ref sig .tc) := [main_v12, main_v13, main_v14]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hostOps0_writes : (hostOps0 : List (HloOp τ sig (Elt F))).Forall fun op => op.writes ⊆ (hostW0.map (Proc.devRef (τ := τ) .tc)).toFinset := by
  simp only [List.Forall]
  repeat' apply And.intro
  all_goals (simp only [StableHlo.unary_writes, StableHlo.reshape_writes, StableHlo.nary_writes, Finset.singleton_subset_iff, List.mem_toFinset]; exact List.mem_map_of_mem (by decide))
theorem hostOps1_writes : (hostOps1 : List (HloOp τ sig (Elt F))).Forall fun op => op.writes ⊆ (hostW1.map (Proc.devRef (τ := τ) .tc)).toFinset := by
  simp only [List.Forall]
  repeat' apply And.intro
  all_goals (simp only [StableHlo.unary_writes, StableHlo.reshape_writes, StableHlo.nary_writes, Finset.singleton_subset_iff, List.mem_toFinset]; exact List.mem_map_of_mem (by decide))

/-- A buffer the first host stretch does not write is as before it. -/
theorem after0_of (Wv : Valuation τ sig (Elt F)) (b : Ref sig .tc) (hb : b ∉ hostW0) :
    StableHlo.after hostOps0 Wv (Proc.devRef .tc b) = Wv (Proc.devRef .tc b) :=
  StableHlo.after_of_writes_sub hostOps0 _ hostOps0_writes hb
/-- A buffer the second host stretch does not write is as before it. -/
theorem after1_of (Wv : Valuation τ sig (Elt F)) (b : Ref sig .tc) (hb : b ∉ hostW1) :
    StableHlo.after hostOps1 Wv (Proc.devRef .tc b) = Wv (Proc.devRef .tc b) :=
  StableHlo.after_of_writes_sub hostOps1 _ hostOps1_writes hb

/-! ## The buffer contents at each boundary -/

/-- Core `c`'s buffers at launch. -/
abbrev B0 : Dev nD → Valuation τ sig (Elt F) := fun c b => (s₀ m ρ).mem ((c : Dev nD), b)
/-- After the first host stretch (region 0's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the second host stretch (region 1's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## Each argument array ends as launched: no host operation writes one, and a region only reads it -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := (B4_arr m ρ c 0).trans (((dat1 (E3 m ρ) c).arrAt_in 0 rfl _).trans (A_eq1 (E3 m ρ) c 0))
    _ = B2 m ρ c (Proc.devRef .tc main_arg0) := after1_of _ main_arg0 (by decide)
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := after0_of _ main_arg0 (by decide)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := after1_of _ main_arg1 (by decide)
    _ = B1 m ρ c (Proc.devRef .tc main_arg1) := (B2_arr m ρ c 1).trans (((dat0 (E1 m ρ) c).arrAt_in 1 rfl _).trans (A_eq0 (E1 m ρ) c 1))
    _ = B0 m ρ c (Proc.devRef .tc main_arg1) := after0_of _ main_arg1 (by decide)
    _ = m ((c : Thread nD τ).loc main_arg1) := rfl
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := after1_of _ main_arg2 (by decide)
    _ = B1 m ρ c (Proc.devRef .tc main_arg2) := (B2_arr m ρ c 2).trans (((dat0 (E1 m ρ) c).arrAt_in 2 rfl _).trans (A_eq0 (E1 m ρ) c 2))
    _ = B0 m ρ c (Proc.devRef .tc main_arg2) := after0_of _ main_arg2 (by decide)
    _ = m ((c : Thread nD τ).loc main_arg2) := rfl
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := after1_of _ main_arg3 (by decide)
    _ = B1 m ρ c (Proc.devRef .tc main_arg3) := (B2_arr m ρ c 3).trans (((dat0 (E1 m ρ) c).arrAt_in 3 rfl _).trans (A_eq0 (E1 m ρ) c 3))
    _ = B0 m ρ c (Proc.devRef .tc main_arg3) := after0_of _ main_arg3 (by decide)
    _ = m ((c : Thread nD τ).loc main_arg3) := rfl
theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := after1_of _ main_arg4 (by decide)
    _ = B1 m ρ c (Proc.devRef .tc main_arg4) := B2_of_ne m ρ c main_arg4 (by decide)
    _ = B0 m ρ c (Proc.devRef .tc main_arg4) := after0_of _ main_arg4 (by decide)
    _ = m ((c : Thread nD τ).loc main_arg4) := rfl
theorem B4_main_arg5 (c : Dev nD) : B4 m ρ c (Proc.devRef .tc main_arg5) = m ((c : Thread nD τ).loc main_arg5) :=
  calc B4 m ρ c (Proc.devRef .tc main_arg5)
    _ = B3 m ρ c (Proc.devRef .tc main_arg5) := B4_of_ne m ρ c main_arg5 (by decide)
    _ = B2 m ρ c (Proc.devRef .tc main_arg5) := after1_of _ main_arg5 (by decide)
    _ = B1 m ρ c (Proc.devRef .tc main_arg5) := B2_of_ne m ρ c main_arg5 (by decide)
    _ = B0 m ρ c (Proc.devRef .tc main_arg5) := after0_of _ main_arg5 (by decide)
    _ = m ((c : Thread nD τ).loc main_arg5) := rfl
theorem B4_main_arg6 (c : Dev nD) : B4 m ρ c (Proc.devRef .tc main_arg6) = m ((c : Thread nD τ).loc main_arg6) :=
  calc B4 m ρ c (Proc.devRef .tc main_arg6)
    _ = B3 m ρ c (Proc.devRef .tc main_arg6) := B4_of_ne m ρ c main_arg6 (by decide)
    _ = B2 m ρ c (Proc.devRef .tc main_arg6) := after1_of _ main_arg6 (by decide)
    _ = B1 m ρ c (Proc.devRef .tc main_arg6) := B2_of_ne m ρ c main_arg6 (by decide)
    _ = B0 m ρ c (Proc.devRef .tc main_arg6) := after0_of _ main_arg6 (by decide)
    _ = m ((c : Thread nD τ).loc main_arg6) := rfl
theorem B4_main_arg7 (c : Dev nD) : B4 m ρ c (Proc.devRef .tc main_arg7) = m ((c : Thread nD τ).loc main_arg7) :=
  calc B4 m ρ c (Proc.devRef .tc main_arg7)
    _ = B3 m ρ c (Proc.devRef .tc main_arg7) := B4_of_ne m ρ c main_arg7 (by decide)
    _ = B2 m ρ c (Proc.devRef .tc main_arg7) := after1_of _ main_arg7 (by decide)
    _ = B1 m ρ c (Proc.devRef .tc main_arg7) := B2_of_ne m ρ c main_arg7 (by decide)
    _ = B0 m ρ c (Proc.devRef .tc main_arg7) := after0_of _ main_arg7 (by decide)
    _ = m ((c : Thread nD τ).loc main_arg7) := rfl
theorem B4_main_arg8 (c : Dev nD) : B4 m ρ c (Proc.devRef .tc main_arg8) = m ((c : Thread nD τ).loc main_arg8) :=
  calc B4 m ρ c (Proc.devRef .tc main_arg8)
    _ = B3 m ρ c (Proc.devRef .tc main_arg8) := B4_of_ne m ρ c main_arg8 (by decide)
    _ = B2 m ρ c (Proc.devRef .tc main_arg8) := after1_of _ main_arg8 (by decide)
    _ = B1 m ρ c (Proc.devRef .tc main_arg8) := B2_of_ne m ρ c main_arg8 (by decide)
    _ = B0 m ρ c (Proc.devRef .tc main_arg8) := after0_of _ main_arg8 (by decide)
    _ = m ((c : Thread nD τ).loc main_arg8) := rfl
theorem B4_main_arg9 (c : Dev nD) : B4 m ρ c (Proc.devRef .tc main_arg9) = m ((c : Thread nD τ).loc main_arg9) :=
  calc B4 m ρ c (Proc.devRef .tc main_arg9)
    _ = B3 m ρ c (Proc.devRef .tc main_arg9) := B4_of_ne m ρ c main_arg9 (by decide)
    _ = B2 m ρ c (Proc.devRef .tc main_arg9) := after1_of _ main_arg9 (by decide)
    _ = B1 m ρ c (Proc.devRef .tc main_arg9) := B2_of_ne m ρ c main_arg9 (by decide)
    _ = B0 m ρ c (Proc.devRef .tc main_arg9) := after0_of _ main_arg9 (by decide)
    _ = m ((c : Thread nD τ).loc main_arg9) := rfl
theorem B4_main_arg10 (c : Dev nD) : B4 m ρ c (Proc.devRef .tc main_arg10) = m ((c : Thread nD τ).loc main_arg10) :=
  calc B4 m ρ c (Proc.devRef .tc main_arg10)
    _ = B3 m ρ c (Proc.devRef .tc main_arg10) := B4_of_ne m ρ c main_arg10 (by decide)
    _ = B2 m ρ c (Proc.devRef .tc main_arg10) := after1_of _ main_arg10 (by decide)
    _ = B1 m ρ c (Proc.devRef .tc main_arg10) := B2_of_ne m ρ c main_arg10 (by decide)
    _ = B0 m ρ c (Proc.devRef .tc main_arg10) := after0_of _ main_arg10 (by decide)
    _ = m ((c : Thread nD τ).loc main_arg10) := rfl
theorem B4_main_arg11 (c : Dev nD) : B4 m ρ c (Proc.devRef .tc main_arg11) = m ((c : Thread nD τ).loc main_arg11) :=
  calc B4 m ρ c (Proc.devRef .tc main_arg11)
    _ = B3 m ρ c (Proc.devRef .tc main_arg11) := B4_of_ne m ρ c main_arg11 (by decide)
    _ = B2 m ρ c (Proc.devRef .tc main_arg11) := after1_of _ main_arg11 (by decide)
    _ = B1 m ρ c (Proc.devRef .tc main_arg11) := B2_of_ne m ρ c main_arg11 (by decide)
    _ = B0 m ρ c (Proc.devRef .tc main_arg11) := after0_of _ main_arg11 (by decide)
    _ = m ((c : Thread nD τ).loc main_arg11) := rfl
theorem B4_main_arg12 (c : Dev nD) : B4 m ρ c (Proc.devRef .tc main_arg12) = m ((c : Thread nD τ).loc main_arg12) :=
  calc B4 m ρ c (Proc.devRef .tc main_arg12)
    _ = B3 m ρ c (Proc.devRef .tc main_arg12) := B4_of_ne m ρ c main_arg12 (by decide)
    _ = B2 m ρ c (Proc.devRef .tc main_arg12) := after1_of _ main_arg12 (by decide)
    _ = B1 m ρ c (Proc.devRef .tc main_arg12) := B2_of_ne m ρ c main_arg12 (by decide)
    _ = B0 m ρ c (Proc.devRef .tc main_arg12) := after0_of _ main_arg12 (by decide)
    _ = m ((c : Thread nD τ).loc main_arg12) := rfl
theorem B4_main_arg13 (c : Dev nD) : B4 m ρ c (Proc.devRef .tc main_arg13) = m ((c : Thread nD τ).loc main_arg13) :=
  calc B4 m ρ c (Proc.devRef .tc main_arg13)
    _ = B3 m ρ c (Proc.devRef .tc main_arg13) := B4_of_ne m ρ c main_arg13 (by decide)
    _ = B2 m ρ c (Proc.devRef .tc main_arg13) := after1_of _ main_arg13 (by decide)
    _ = B1 m ρ c (Proc.devRef .tc main_arg13) := B2_of_ne m ρ c main_arg13 (by decide)
    _ = B0 m ρ c (Proc.devRef .tc main_arg13) := after0_of _ main_arg13 (by decide)
    _ = m ((c : Thread nD τ).loc main_arg13) := rfl
theorem B4_main_arg14 (c : Dev nD) : B4 m ρ c (Proc.devRef .tc main_arg14) = m ((c : Thread nD τ).loc main_arg14) :=
  calc B4 m ρ c (Proc.devRef .tc main_arg14)
    _ = B3 m ρ c (Proc.devRef .tc main_arg14) := B4_of_ne m ρ c main_arg14 (by decide)
    _ = B2 m ρ c (Proc.devRef .tc main_arg14) := after1_of _ main_arg14 (by decide)
    _ = B1 m ρ c (Proc.devRef .tc main_arg14) := B2_of_ne m ρ c main_arg14 (by decide)
    _ = B0 m ρ c (Proc.devRef .tc main_arg14) := after0_of _ main_arg14 (by decide)
    _ = m ((c : Thread nD τ).loc main_arg14) := rfl
theorem B4_main_arg15 (c : Dev nD) : B4 m ρ c (Proc.devRef .tc main_arg15) = m ((c : Thread nD τ).loc main_arg15) :=
  calc B4 m ρ c (Proc.devRef .tc main_arg15)
    _ = B3 m ρ c (Proc.devRef .tc main_arg15) := B4_of_ne m ρ c main_arg15 (by decide)
    _ = B2 m ρ c (Proc.devRef .tc main_arg15) := after1_of _ main_arg15 (by decide)
    _ = B1 m ρ c (Proc.devRef .tc main_arg15) := B2_of_ne m ρ c main_arg15 (by decide)
    _ = B0 m ρ c (Proc.devRef .tc main_arg15) := after0_of _ main_arg15 (by decide)
    _ = m ((c : Thread nD τ).loc main_arg15) := rfl

/-! ## The proof data family and the thread state -/

abbrev admT : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admT p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wv Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- Region 0 as a segment: entered with every unscoped buffer at `B1`, left with them at `B2`. Its windows' arrays are
    split out of the unscoped buffers on entry and put back, at what the write-backs leave, on exit; the generator register
    passes through the invariant; nothing is owed and the kernel has no semaphore of its own. -/
def reg0 : Pipeline.RegionSeg (pcfgs (F := F)) admT (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ Rr c)
  post c := iprop(StableHlo.held (c : Thread nD τ) (Pipeline.ucRefs τ sig) (B2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `B3`, left with them at `B4`. Its windows' arrays are
    split out of the unscoped buffers on entry and put back, at what the write-backs leave, on exit; the generator register
    passes through the invariant; nothing is owed and the kernel has no semaphore of its own. -/
def reg1 : Pipeline.RegionSeg (pcfgs (F := F)) admT (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ Rr c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsT : List (Pipeline.Seg (pcfgs (F := F)) admT (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ) ]
theorem main_run (c : Dev nD) : main (F := F) c = Pipeline.Seg.run (segsT m ρ) := (main_chain c).trans (by chain_rfl)

set_option backward.isDefEq.respectTransparency.types false in
/-- THE RUN: from any memory with zero counters every weakly fair execution of @main terminates, nothing faulting, and
    the final memory holds every unscoped buffer at the last boundary's contents `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) admT (pdats m ρ) () cellOf_inj emb₁ defs₀ 𝒱₀ L lv m ρ main (segsT m ρ)
    (fun c Q => by rw [main_run m ρ c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rr c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (B4_main_arg0 m ρ c),
    (h c _ (mem_uc main_arg1 (by decide))).trans (B4_main_arg1 m ρ c),
    (h c _ (mem_uc main_arg2 (by decide))).trans (B4_main_arg2 m ρ c),
    (h c _ (mem_uc main_arg3 (by decide))).trans (B4_main_arg3 m ρ c),
    (h c _ (mem_uc main_arg4 (by decide))).trans (B4_main_arg4 m ρ c),
    (h c _ (mem_uc main_arg5 (by decide))).trans (B4_main_arg5 m ρ c),
    (h c _ (mem_uc main_arg6 (by decide))).trans (B4_main_arg6 m ρ c),
    (h c _ (mem_uc main_arg7 (by decide))).trans (B4_main_arg7 m ρ c),
    (h c _ (mem_uc main_arg8 (by decide))).trans (B4_main_arg8 m ρ c),
    (h c _ (mem_uc main_arg9 (by decide))).trans (B4_main_arg9 m ρ c),
    (h c _ (mem_uc main_arg10 (by decide))).trans (B4_main_arg10 m ρ c),
    (h c _ (mem_uc main_arg11 (by decide))).trans (B4_main_arg11 m ρ c),
    (h c _ (mem_uc main_arg12 (by decide))).trans (B4_main_arg12 m ρ c),
    (h c _ (mem_uc main_arg13 (by decide))).trans (B4_main_arg13 m ρ c),
    (h c _ (mem_uc main_arg14 (by decide))).trans (B4_main_arg14 m ρ c),
    (h c _ (mem_uc main_arg15 (by decide))).trans (B4_main_arg15 m ρ c)⟩) (run_all m ρ)

end Cert.KernelIdeal.Whole

end
-- ==== Proof.Spec.lean ====
/-
  The two results, element by element, as functions of one ROW of each batched input, the weight matrices and the bias
  vectors, on the extended reals.

  new_state(r, c) = decay · state(r, c) + (1 − decay) · tanh p, where
    step  = softplus (x_r · W_step[:, c] + b_step c) + 0.1 · softplus (cond_r · W_cstep[:, c]),
    decay = exp ((0 − step) · e^{log_decay c}) · carry(r, c),
  and p, the proposal before its tanh, is spelt two ways: the reference's ((x_r · W_in[:, c] + b_in c) + cond_r · W_cin[:, c])
  + state_r · W_state[:, c], and the kernel's ONE product of the joined row [x_r | cond_r | state_r] with the stacked weight
  [W_in; W_cin; W_state], plus b_in c. The two agree because a sum over 4096 indices is the sum of its three stretches and
  addition on the extended reals is commutative and associative (`newStateAtK_eq`).
  softplus z = max z 0 + log1p (exp (0 − |z − 0|)) behind a comparison of z − 0 with itself that never fires on a linear
  order. output(r, j) is the layer norm over j of h(r, ·), h(r, j) = ([x_r | new_state_r] · W_out[:, j] + b_out j) + x(r, j):
  ((h − mean) · rsqrt (variance + ε)) · ln_w j + ln_b j, mean and variance the sums over the 1024 columns divided by 1024.
  Every constant is the binary value of its f32 word.
-/
import Idealize.ShloMosaic.PureOps.Ideal
import Idealize.ShloMosaic.Lib.ValueIdx

noncomputable section

namespace Cert.Spec

open Idealize.ShloMosaic Idealize.ShloMosaic.ValueIdx

abbrev Mat (a b : Nat) := (⟨2, ![a, b]⟩ : Shape).Idx → EReal

abbrev z0 : EReal := Ideal.ofBits .f32 0x00000000#32
abbrev cTenth : EReal := Ideal.ofBits .f32 0x3DCCCCCD#32
abbrev cOne : EReal := Ideal.ofBits .f32 0x3F800000#32
abbrev c1024 : EReal := Ideal.ofBits .f32 0x44800000#32
abbrev cEps : EReal := Ideal.ofBits .f32 0x3727C5AC#32

/-- A row vector against column `c` of a matrix. -/
def rowdot {K n : Nat} (v : Fin K → EReal) (W : Mat K n) (c : Fin n) : EReal := ∑ k : Fin K, v k * W (ix2 k c)

/-- Row `r` of a matrix. -/
abbrev row {n K : Nat} (X : Mat n K) (r : Fin n) : Fin K → EReal := fun k => X (ix2 r k)

/-- softplus as both programs spell it (logaddexp against zero). -/
def softplus (z : EReal) : EReal :=
  Scalar.select (Ideal.cmp .one (z - z0) (z - z0)) (z + z0)
    (max z z0 + Ideal.log1p (Ideal.exp (z0 - max (z - z0) (-(z - z0)))))

/-- new_state at one element from the two step pre-activations `s1`, `s2`, the proposal's pre-activation `p`, the decay
    rate `eld`, the carry scale and the old state. -/
def newStateCore (s1 s2 p eld carry st : EReal) : EReal :=
  Ideal.exp ((z0 - (softplus s1 + cTenth * softplus s2)) * eld) * carry * st
    + (cOne - Ideal.exp ((z0 - (softplus s1 + cTenth * softplus s2)) * eld) * carry) * Ideal.tanh p

/-- The proposal's pre-activation in the reference's association. -/
def preAt (xr cr : Fin 1024 → EReal) (sr : Fin 2048 → EReal) (Win Wcin : Mat 1024 2048) (Wstate : Mat 2048 2048)
    (bin : Fin 2048 → EReal) (c : Fin 2048) : EReal :=
  ((rowdot xr Win c + bin c) + rowdot cr Wcin c) + rowdot sr Wstate c

/-- new_state at one element, the reference's spelling. -/
def newStateAt (xr cr : Fin 1024 → EReal) (sr : Fin 2048 → EReal) (carry : EReal)
    (Wstep Wcstep Win Wcin : Mat 1024 2048) (Wstate : Mat 2048 2048) (bstep bin eld : Fin 2048 → EReal) (c : Fin 2048) : EReal :=
  newStateCore (rowdot xr Wstep c + bstep c) (rowdot cr Wcstep c) (preAt xr cr sr Win Wcin Wstate bin c) (eld c) carry (sr c)

/-- The joined row [x_r | cond_r | state_r]. -/
def cat3 (xr cr : Fin 1024 → EReal) (sr : Fin 2048 → EReal) (k : Fin 4096) : EReal :=
  if h : k.val < 1024 then xr ⟨k.val, h⟩
  else if h' : k.val < 2048 then cr ⟨k.val - 1024, by omega⟩ else sr ⟨k.val - 2048, by omega⟩

/-- The stacked weight [W_in; W_cin; W_state]. -/
def stack3 (Win Wcin : Mat 1024 2048) (Wstate : Mat 2048 2048) : Mat 4096 2048 := fun i =>
  if h : (i 0).val < 1024 then Win (ix2 ⟨(i 0).val, h⟩ (i 1))
  else if h' : (i 0).val < 2048 then Wcin (ix2 ⟨(i 0).val - 1024, by have := idx2_lt0 i; omega⟩ (i 1))
  else Wstate (ix2 ⟨(i 0).val - 2048, by have := idx2_lt0 i; omega⟩ (i 1))

/-- new_state at one element, the kernel's spelling: the proposal's pre-activation is one product with a stacked weight. -/
def newStateAtK (xr cr : Fin 1024 → EReal) (sr : Fin 2048 → EReal) (carry : EReal)
    (Wstep Wcstep : Mat 1024 2048) (Wp : Mat 4096 2048) (bstep bin eld : Fin 2048 → EReal) (c : Fin 2048) : EReal :=
  newStateCore (rowdot xr Wstep c + bstep c) (rowdot cr Wcstep c) (rowdot (cat3 xr cr sr) Wp c + bin c) (eld c) carry (sr c)

/-- The row [x_r | new_state_r] of the concatenated matrix. -/
def catRow (xr : Fin 1024 → EReal) (nr : Fin 2048 → EReal) (k : Fin 3072) : EReal :=
  if h : k.val < 1024 then xr ⟨k.val, h⟩ else nr ⟨k.val - 1024, by omega⟩

/-- The pre-normalisation row h(r, ·). -/
def hAt (xr : Fin 1024 → EReal) (nr : Fin 2048 → EReal) (Wout : Mat 3072 1024) (bout : Fin 1024 → EReal) (j : Fin 1024) : EReal :=
  (rowdot (catRow xr nr) Wout j + bout j) + xr j

def meanAt (xr : Fin 1024 → EReal) (nr : Fin 2048 → EReal) (Wout : Mat 3072 1024) (bout : Fin 1024 → EReal) : EReal :=
  Ideal.div (z0 + ∑ j : Fin 1024, hAt xr nr Wout bout j) c1024

def varAt (xr : Fin 1024 → EReal) (nr : Fin 2048 → EReal) (Wout : Mat 3072 1024) (bout : Fin 1024 → EReal) : EReal :=
  Ideal.div (z0 + ∑ j : Fin 1024, (hAt xr nr Wout bout j - meanAt xr nr Wout bout) * (hAt xr nr Wout bout j - meanAt xr nr Wout bout)) c1024

/-- output at one element, from the element's row of x and of new_state. -/
def outputAt (xr : Fin 1024 → EReal) (nr : Fin 2048 → EReal) (Wout : Mat 3072 1024) (bout lnw lnb : Fin 1024 → EReal) (j : Fin 1024) : EReal :=
  ((hAt xr nr Wout bout j - meanAt xr nr Wout bout) * Ideal.rsqrt (varAt xr nr Wout bout + cEps)) * lnw j + lnb j

/-- new_state as a whole array. -/
def newState (x cond : Mat 16384 1024) (state carry : Mat 16384 2048) (Wstep Wcstep Win Wcin : Mat 1024 2048)
    (Wstate : Mat 2048 2048) (bstep bin eld : Fin 2048 → EReal) : Mat 16384 2048 :=
  fun i => newStateAt (row x (i 0)) (row cond (i 0)) (row state (i 0)) (carry i) Wstep Wcstep Win Wcin Wstate bstep bin eld (i 1)

/-- output as a whole array, from x and new_state. -/
def output (x : Mat 16384 1024) (ns : Mat 16384 2048) (Wout : Mat 3072 1024) (bout lnw lnb : Fin 1024 → EReal) : Mat 16384 1024 :=
  fun i => outputAt (row x (i 0)) (row ns (i 0)) Wout bout lnw lnb (i 1)

end Cert.Spec

end
-- ==== Proof.KernelIdealEntry.lean ====
/-
  What each region finds in the buffers it reads, at the extended reals. Before the first region the host has narrowed
  the weights (the identity on the extended reals), stacked W_in, W_cin and W_state into one [4096, 2048] matrix, laid
  b_step, b_in and e^{log_decay} out as [1, 2048] rows; the batched inputs are the launch memory's. Before the second
  region: x is still the launch memory's, new_state is what the first region's write-backs left, W_out is narrowed, and
  b_out, ln_w, ln_b are [1, 1024] rows.
-/
import proofs.«123416_j83958020702584_2_alg».proof.Proof.KernelIdealRun
import proofs.«123416_j83958020702584_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- Three matrices joined along the rows, read at an index, is the stacked matrix of the specification. -/
theorem concat_rows3 (A B : Spec.Mat 1024 2048) (C : Spec.Mat 2048 2048)
    (h : Shape.Concatenates (([⟨S1024x2048, A⟩, ⟨S1024x2048, B⟩, ⟨S2048x2048, C⟩] : List ((s : Shape) × (s.Idx → EReal))).map (·.1)) S4096x2048 0) :
    concatenate S4096x2048 0 [⟨S1024x2048, A⟩, ⟨S1024x2048, B⟩, ⟨S2048x2048, C⟩] h = Spec.stack3 A B C := by
  funext j
  unfold Spec.stack3
  have h0 : (j 0).val < 4096 := idx2_lt0 j
  by_cases c1 : (j 0).val < 1024
  · rw [dif_pos c1]
    exact concatenate_apply_piece 0 _ h j 0 (by decide : 0 < 3) S1024x2048 A rfl rfl 0 rfl (ix2 ⟨(j 0).val, c1⟩ (j 1))
      (fun b hb => by match b with | ⟨0, _⟩ => exact absurd rfl hb | ⟨1, _⟩ => rfl) (Nat.zero_add _)
  · rw [dif_neg c1]
    by_cases c2 : (j 0).val < 2048
    · rw [dif_pos c2]
      exact concatenate_apply_piece 0 _ h j 1 (by decide : 1 < 3) S1024x2048 B rfl rfl 1024 rfl (ix2 ⟨(j 0).val - 1024, by omega⟩ (j 1))
        (fun b hb => by match b with | ⟨0, _⟩ => exact absurd rfl hb | ⟨1, _⟩ => rfl) (by show 1024 + ((j 0).val - 1024) = (j 0).val; omega)
    · rw [dif_neg c2]
      exact concatenate_apply_piece 0 _ h j 2 (by decide : 2 < 3) S2048x2048 C rfl rfl 2048 rfl (ix2 ⟨(j 0).val - 2048, by omega⟩ (j 1))
        (fun b hb => by match b with | ⟨0, _⟩ => exact absurd rfl hb | ⟨1, _⟩ => rfl) (by show 2048 + ((j 0).val - 2048) = (j 0).val; omega)

/-- A vector laid out as a one-row matrix, read at (0, q), is the vector at q. -/
theorem row_of_vec {n : Nat} (v : (⟨1, ![n]⟩ : Shape).Idx → EReal) (h : (⟨1, ![n]⟩ : Shape).ShapeCasts ⟨2, ![1, n]⟩) (q : Fin n) :
    shapeCast (⟨2, ![1, n]⟩ : Shape) v h (ix2 0 q) = v (ix1 q) := by
  refine (shapeCast_addUnit_apply (n := 1) ![n] v h (ix2 0 q)).trans (congrArg v (funext fun a => ?_))
  match a with
  | ⟨0, _⟩ => rfl

/-! ## Region 0's entry -/

theorem E1_arg0 (c : Dev nD) : E1 m ρ c main_arg0 = m ((c : Thread nD τ).loc main_arg0) := after0_of _ main_arg0 (by decide)
theorem E1_arg1 (c : Dev nD) : E1 m ρ c main_arg1 = m ((c : Thread nD τ).loc main_arg1) := after0_of _ main_arg1 (by decide)
theorem E1_arg2 (c : Dev nD) : E1 m ρ c main_arg2 = m ((c : Thread nD τ).loc main_arg2) := after0_of _ main_arg2 (by decide)
theorem E1_arg3 (c : Dev nD) : E1 m ρ c main_arg3 = m ((c : Thread nD τ).loc main_arg3) := after0_of _ main_arg3 (by decide)

theorem E1_v0 (c : Dev nD) : (E1 m ρ c main_v0 : Spec.Mat 1024 2048) = m ((c : Thread nD τ).loc main_arg4) := by
  show StableHlo.after hostOps0 _ (Proc.devRef .tc main_v0) = _
  after_results
  rfl
theorem E1_v1 (c : Dev nD) : (E1 m ρ c main_v1 : Spec.Mat 1024 2048) = m ((c : Thread nD τ).loc main_arg6) := by
  show StableHlo.after hostOps0 _ (Proc.devRef .tc main_v1) = _
  after_results
  rfl
theorem E1_v5 (c : Dev nD) : (E1 m ρ c main_v5 : Spec.Mat 4096 2048)
    = Spec.stack3 (m ((c : Thread nD τ).loc main_arg7)) (m ((c : Thread nD τ).loc main_arg9)) (m ((c : Thread nD τ).loc main_arg10)) := by
  show StableHlo.after hostOps0 _ (Proc.devRef .tc main_v5) = _
  after_results
  exact concat_rows3 _ _ _ _
theorem E1_v7 (c : Dev nD) (q : Fin 2048) : E1 m ρ c main_v7 (ix2 0 q) = m ((c : Thread nD τ).loc main_arg5) (ix1 q) := by
  show StableHlo.after hostOps0 _ (Proc.devRef .tc main_v7) (ix2 0 q) = _
  after_results
  exact row_of_vec _ _ q
theorem E1_v8 (c : Dev nD) (q : Fin 2048) : E1 m ρ c main_v8 (ix2 0 q) = m ((c : Thread nD τ).loc main_arg8) (ix1 q) := by
  show StableHlo.after hostOps0 _ (Proc.devRef .tc main_v8) (ix2 0 q) = _
  after_results
  exact row_of_vec _ _ q
theorem E1_v10 (c : Dev nD) (q : Fin 2048) : E1 m ρ c main_v10 (ix2 0 q) = Ideal.exp (m ((c : Thread nD τ).loc main_arg15) (ix1 q)) := by
  show StableHlo.after hostOps0 _ (Proc.devRef .tc main_v10) (ix2 0 q) = _
  after_results
  exact row_of_vec _ _ q

/-! ## Region 1's entry -/

theorem E3_arg0 (c : Dev nD) : E3 m ρ c main_arg0 = m ((c : Thread nD τ).loc main_arg0) :=
  (after1_of _ main_arg0 (by decide)).trans <|
    ((B2_arr m ρ c 0).trans (((dat0 (E1 m ρ) c).arrAt_in 0 rfl _).trans (A_eq0 (E1 m ρ) c 0))).trans (E1_arg0 m ρ c)
theorem E3_v11 (c : Dev nD) : E3 m ρ c main_v11 = (dat0 (E1 m ρ) c).arrAt 10 cfg0.N :=
  (after1_of _ main_v11 (by decide)).trans (B2_arr m ρ c 10)
theorem E3_v6 (c : Dev nD) : (E3 m ρ c main_v6 : Spec.Mat 3072 1024) = m ((c : Thread nD τ).loc main_arg11) := by
  refine ((after1_of _ main_v6 (by decide)).trans (B2_of_ne m ρ c main_v6 (by decide))).trans ?_
  show StableHlo.after hostOps0 _ (Proc.devRef .tc main_v6) = _
  after_results
  rfl
theorem B2_arg (c : Dev nD) (b : Ref sig .tc) (h1 : ∀ w, Pipeline.arrRef spec0 w ≠ b) (h0 : b ∉ hostW0) :
    B2 m ρ c (Proc.devRef .tc b) = m ((c : Thread nD τ).loc b) :=
  (B2_of_ne m ρ c b h1).trans (after0_of _ b h0)
theorem E3_v12 (c : Dev nD) (j : Fin 1024) : E3 m ρ c main_v12 (ix2 0 j) = m ((c : Thread nD τ).loc main_arg12) (ix1 j) := by
  show StableHlo.after hostOps1 _ (Proc.devRef .tc main_v12) (ix2 0 j) = _
  after_results
  rw [B2_arg m ρ c main_arg12 (by decide) (by decide)]
  exact row_of_vec _ _ j
theorem E3_v13 (c : Dev nD) (j : Fin 1024) : E3 m ρ c main_v13 (ix2 0 j) = m ((c : Thread nD τ).loc main_arg13) (ix1 j) := by
  show StableHlo.after hostOps1 _ (Proc.devRef .tc main_v13) (ix2 0 j) = _
  after_results
  rw [B2_arg m ρ c main_arg13 (by decide) (by decide)]
  exact row_of_vec _ _ j
theorem E3_v14 (c : Dev nD) (j : Fin 1024) : E3 m ρ c main_v14 (ix2 0 j) = m ((c : Thread nD τ).loc main_arg14) (ix1 j) := by
  show StableHlo.after hostOps1 _ (Proc.devRef .tc main_v14) (ix2 0 j) = _
  after_results
  rw [B2_arg m ρ c main_arg14 (by decide) (by decide)]
  exact row_of_vec _ _ j

end Cert.KernelIdeal.Whole

end
-- ==== Proof.KernelIdealBlocks.lean ====
/-
  Where a window's block sits in its array. At grid point `t` a batched window (x, state, conditioning, carry scale,
  new_state, the output) holds the rows t·R … t·R + R − 1 of its array (R = 128 in the first region, 512 in the second), all
  columns; a resident window (a weight or a bias row) holds its whole array at every point. So a block read at (p, k) is the
  array read at (t·R + p, k), and the output window's blocks, one per point, tile the rows of its array.
-/
import proofs.«123416_j83958020702584_2_alg».proof.Proof.KernelIdealRegion0
import proofs.«123416_j83958020702584_2_alg».proof.Proof.KernelIdealRegion1
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! ## Region 0 -/

theorem idx0_0 : ∀ t : Fin cfg0.N, win0_0.index t (0 : Fin 2) = t.val ∧ win0_0.index t (1 : Fin 2) = 0 :=
  (by decide +kernel : ∀ t : Fin grid0.N, _)
/-- The block of window 0 at point `t`, read at (p, k), is its array at (t·128 + p, k). -/
theorem iblk0_0_apply (c : Dev nD) (t : Fin cfg0.N) (p : Fin 128) (k : Fin 1024) :
    iblk0 V c 0 t (ix2 p k) = V c main_arg0 (ix2 (⟨t.val * 128 + p.val, by have ht : t.val < 128 := lt_of_lt_of_eq t.isLt N_0; have := p.isLt; omega⟩ : Fin 16384) k) := by
  unfold iblk0
  rw [View.read_apply]
  refine congrArg (V c main_arg0) (funext fun a => Fin.ext ?_)
  obtain ⟨e0, e1⟩ := idx0_0 t
  match a with
  | ⟨0, _⟩ => show win0_0.index t (0 : Fin 2) * 128 + 1 * p.val = t.val * 128 + p.val; omega
  | ⟨1, _⟩ => show win0_0.index t (1 : Fin 2) * 1024 + 1 * k.val = k.val; omega

theorem idx0_1 : ∀ t : Fin cfg0.N, win0_1.index t (0 : Fin 2) = t.val ∧ win0_1.index t (1 : Fin 2) = 0 :=
  (by decide +kernel : ∀ t : Fin grid0.N, _)
/-- The block of window 1 at point `t`, read at (p, k), is its array at (t·128 + p, k). -/
theorem iblk0_1_apply (c : Dev nD) (t : Fin cfg0.N) (p : Fin 128) (k : Fin 2048) :
    iblk0 V c 1 t (ix2 p k) = V c main_arg1 (ix2 (⟨t.val * 128 + p.val, by have ht : t.val < 128 := lt_of_lt_of_eq t.isLt N_0; have := p.isLt; omega⟩ : Fin 16384) k) := by
  unfold iblk0
  rw [View.read_apply]
  refine congrArg (V c main_arg1) (funext fun a => Fin.ext ?_)
  obtain ⟨e0, e1⟩ := idx0_1 t
  match a with
  | ⟨0, _⟩ => show win0_1.index t (0 : Fin 2) * 128 + 1 * p.val = t.val * 128 + p.val; omega
  | ⟨1, _⟩ => show win0_1.index t (1 : Fin 2) * 2048 + 1 * k.val = k.val; omega

theorem idx0_2 : ∀ t : Fin cfg0.N, win0_2.index t (0 : Fin 2) = t.val ∧ win0_2.index t (1 : Fin 2) = 0 :=
  (by decide +kernel : ∀ t : Fin grid0.N, _)
/-- The block of window 2 at point `t`, read at (p, k), is its array at (t·128 + p, k). -/
theorem iblk0_2_apply (c : Dev nD) (t : Fin cfg0.N) (p : Fin 128) (k : Fin 1024) :
    iblk0 V c 2 t (ix2 p k) = V c main_arg2 (ix2 (⟨t.val * 128 + p.val, by have ht : t.val < 128 := lt_of_lt_of_eq t.isLt N_0; have := p.isLt; omega⟩ : Fin 16384) k) := by
  unfold iblk0
  rw [View.read_apply]
  refine congrArg (V c main_arg2) (funext fun a => Fin.ext ?_)
  obtain ⟨e0, e1⟩ := idx0_2 t
  match a with
  | ⟨0, _⟩ => show win0_2.index t (0 : Fin 2) * 128 + 1 * p.val = t.val * 128 + p.val; omega
  | ⟨1, _⟩ => show win0_2.index t (1 : Fin 2) * 1024 + 1 * k.val = k.val; omega

theorem idx0_3 : ∀ t : Fin cfg0.N, win0_3.index t (0 : Fin 2) = t.val ∧ win0_3.index t (1 : Fin 2) = 0 :=
  (by decide +kernel : ∀ t : Fin grid0.N, _)
/-- The block of window 3 at point `t`, read at (p, k), is its array at (t·128 + p, k). -/
theorem iblk0_3_apply (c : Dev nD) (t : Fin cfg0.N) (p : Fin 128) (k : Fin 2048) :
    iblk0 V c 3 t (ix2 p k) = V c main_arg3 (ix2 (⟨t.val * 128 + p.val, by have ht : t.val < 128 := lt_of_lt_of_eq t.isLt N_0; have := p.isLt; omega⟩ : Fin 16384) k) := by
  unfold iblk0
  rw [View.read_apply]
  refine congrArg (V c main_arg3) (funext fun a => Fin.ext ?_)
  obtain ⟨e0, e1⟩ := idx0_3 t
  match a with
  | ⟨0, _⟩ => show win0_3.index t (0 : Fin 2) * 128 + 1 * p.val = t.val * 128 + p.val; omega
  | ⟨1, _⟩ => show win0_3.index t (1 : Fin 2) * 2048 + 1 * k.val = k.val; omega

theorem idx0_10 : ∀ t : Fin cfg0.N, win0_10.index t (0 : Fin 2) = t.val ∧ win0_10.index t (1 : Fin 2) = 0 :=
  (by decide +kernel : ∀ t : Fin grid0.N, _)
/-- The block of window 10 at point `t`, read at (p, k), is its array at (t·128 + p, k). -/
theorem iblk0_10_apply (c : Dev nD) (t : Fin cfg0.N) (p : Fin 128) (k : Fin 2048) :
    iblk0 V c 10 t (ix2 p k) = V c main_v11 (ix2 (⟨t.val * 128 + p.val, by have ht : t.val < 128 := lt_of_lt_of_eq t.isLt N_0; have := p.isLt; omega⟩ : Fin 16384) k) := by
  unfold iblk0
  rw [View.read_apply]
  refine congrArg (V c main_v11) (funext fun a => Fin.ext ?_)
  obtain ⟨e0, e1⟩ := idx0_10 t
  match a with
  | ⟨0, _⟩ => show win0_10.index t (0 : Fin 2) * 128 + 1 * p.val = t.val * 128 + p.val; omega
  | ⟨1, _⟩ => show win0_10.index t (1 : Fin 2) * 2048 + 1 * k.val = k.val; omega

theorem idx0_4 : ∀ t : Fin cfg0.N, win0_4.index t (0 : Fin 2) = 0 ∧ win0_4.index t (1 : Fin 2) = 0 :=
  (by decide +kernel : ∀ t : Fin grid0.N, _)
/-- Window 4 is resident: its block at every point is its whole array. -/
theorem iblk0_4_apply (c : Dev nD) (t : Fin cfg0.N) (y : S1024x2048.Idx) :
    iblk0 V c 4 t y = V c main_v0 y := by
  unfold iblk0
  rw [View.read_apply]
  refine congrArg (V c main_v0) (funext fun a => Fin.ext ?_)
  obtain ⟨e0, e1⟩ := idx0_4 t
  match a with
  | ⟨0, _⟩ => show win0_4.index t (0 : Fin 2) * 1024 + 1 * (y 0).val = (y 0).val; omega
  | ⟨1, _⟩ => show win0_4.index t (1 : Fin 2) * 2048 + 1 * (y 1).val = (y 1).val; omega

theorem idx0_5 : ∀ t : Fin cfg0.N, win0_5.index t (0 : Fin 2) = 0 ∧ win0_5.index t (1 : Fin 2) = 0 :=
  (by decide +kernel : ∀ t : Fin grid0.N, _)
/-- Window 5 is resident: its block at every point is its whole array. -/
theorem iblk0_5_apply (c : Dev nD) (t : Fin cfg0.N) (y : S1x2048.Idx) :
    iblk0 V c 5 t y = V c main_v7 y := by
  unfold iblk0
  rw [View.read_apply]
  refine congrArg (V c main_v7) (funext fun a => Fin.ext ?_)
  obtain ⟨e0, e1⟩ := idx0_5 t
  match a with
  | ⟨0, _⟩ => show win0_5.index t (0 : Fin 2) * 1 + 1 * (y 0).val = (y 0).val; omega
  | ⟨1, _⟩ => show win0_5.index t (1 : Fin 2) * 2048 + 1 * (y 1).val = (y 1).val; omega

theorem idx0_6 : ∀ t : Fin cfg0.N, win0_6.index t (0 : Fin 2) = 0 ∧ win0_6.index t (1 : Fin 2) = 0 :=
  (by decide +kernel : ∀ t : Fin grid0.N, _)
/-- Window 6 is resident: its block at every point is its whole array. -/
theorem iblk0_6_apply (c : Dev nD) (t : Fin cfg0.N) (y : S1024x2048.Idx) :
    iblk0 V c 6 t y = V c main_v1 y := by
  unfold iblk0
  rw [View.read_apply]
  refine congrArg (V c main_v1) (funext fun a => Fin.ext ?_)
  obtain ⟨e0, e1⟩ := idx0_6 t
  match a with
  | ⟨0, _⟩ => show win0_6.index t (0 : Fin 2) * 1024 + 1 * (y 0).val = (y 0).val; omega
  | ⟨1, _⟩ => show win0_6.index t (1 : Fin 2) * 2048 + 1 * (y 1).val = (y 1).val; omega

theorem idx0_7 : ∀ t : Fin cfg0.N, win0_7.index t (0 : Fin 2) = 0 ∧ win0_7.index t (1 : Fin 2) = 0 :=
  (by decide +kernel : ∀ t : Fin grid0.N, _)
/-- Window 7 is resident: its block at every point is its whole array. -/
theorem iblk0_7_apply (c : Dev nD) (t : Fin cfg0.N) (y : S4096x2048.Idx) :
    iblk0 V c 7 t y = V c main_v5 y := by
  unfold iblk0
  rw [View.read_apply]
  refine congrArg (V c main_v5) (funext fun a => Fin.ext ?_)
  obtain ⟨e0, e1⟩ := idx0_7 t
  match a with
  | ⟨0, _⟩ => show win0_7.index t (0 : Fin 2) * 4096 + 1 * (y 0).val = (y 0).val; omega
  | ⟨1, _⟩ => show win0_7.index t (1 : Fin 2) * 2048 + 1 * (y 1).val = (y 1).val; omega

theorem idx0_8 : ∀ t : Fin cfg0.N, win0_8.index t (0 : Fin 2) = 0 ∧ win0_8.index t (1 : Fin 2) = 0 :=
  (by decide +kernel : ∀ t : Fin grid0.N, _)
/-- Window 8 is resident: its block at every point is its whole array. -/
theorem iblk0_8_apply (c : Dev nD) (t : Fin cfg0.N) (y : S1x2048.Idx) :
    iblk0 V c 8 t y = V c main_v8 y := by
  unfold iblk0
  rw [View.read_apply]
  refine congrArg (V c main_v8) (funext fun a => Fin.ext ?_)
  obtain ⟨e0, e1⟩ := idx0_8 t
  match a with
  | ⟨0, _⟩ => show win0_8.index t (0 : Fin 2) * 1 + 1 * (y 0).val = (y 0).val; omega
  | ⟨1, _⟩ => show win0_8.index t (1 : Fin 2) * 2048 + 1 * (y 1).val = (y 1).val; omega

theorem idx0_9 : ∀ t : Fin cfg0.N, win0_9.index t (0 : Fin 2) = 0 ∧ win0_9.index t (1 : Fin 2) = 0 :=
  (by decide +kernel : ∀ t : Fin grid0.N, _)
/-- Window 9 is resident: its block at every point is its whole array. -/
theorem iblk0_9_apply (c : Dev nD) (t : Fin cfg0.N) (y : S1x2048.Idx) :
    iblk0 V c 9 t y = V c main_v10 y := by
  unfold iblk0
  rw [View.read_apply]
  refine congrArg (V c main_v10) (funext fun a => Fin.ext ?_)
  obtain ⟨e0, e1⟩ := idx0_9 t
  match a with
  | ⟨0, _⟩ => show win0_9.index t (0 : Fin 2) * 1 + 1 * (y 0).val = (y 0).val; omega
  | ⟨1, _⟩ => show win0_9.index t (1 : Fin 2) * 2048 + 1 * (y 1).val = (y 1).val; omega

/-- Where the output window's block sends (p, q): row t·128 + p, column q of the array. -/
theorem emb0_out (t : Fin cfg0.N) (p : Fin 128) (q : Fin 2048) :
    ((cfg0.win 10).blk t).view.emb (ix2 p q) = ix2 (⟨t.val * 128 + p.val, by have ht : t.val < 128 := lt_of_lt_of_eq t.isLt N_0; have := p.isLt; omega⟩ : Fin 16384) q := by
  funext a; apply Fin.ext
  obtain ⟨e0, e1⟩ := idx0_10 t
  match a with
  | ⟨0, _⟩ => show win0_10.index t (0 : Fin 2) * 128 + 1 * p.val = t.val * 128 + p.val; omega
  | ⟨1, _⟩ => show win0_10.index t (1 : Fin 2) * 2048 + 1 * q.val = q.val; omega

/-- An index of the output's array is in point `t`'s block iff each coordinate is in the block's range on its axis. -/
theorem mem_blk0 (t : Fin cfg0.N) (i : S16384x2048.Idx) :
    i ∈ ((cfg0.win 10).blk t).view.set ↔ ∀ a : Fin 2, win0_10.index t a * S128x2048.size a ≤ (i a).val ∧ (i a).val < win0_10.index t a * S128x2048.size a + S128x2048.size a := by
  show i ∈ ((View.whole main_v11).slice (win0_10.rect t)).set ↔ _
  rw [View.set_slice_whole, Rect.mem_set_unit]
  exact Iff.rfl

/-- Every index of the output's array is in the block of the point that holds its row. -/
theorem cover0 (i : S16384x2048.Idx) :
    ∃ t : Fin cfg0.N, (cfg0.win 10).flush t = true ∧ i ∈ ((cfg0.win 10).blk t).view.set := by
  have hi0 : (i 0).val < 16384 := idx2_lt0 i
  have hi1 : (i 1).val < 2048 := idx2_lt1 i
  have hN : (i 0).val / 128 < cfg0.N := by show _ < grid0.N; rw [N_0]; omega
  refine ⟨⟨(i 0).val / 128, hN⟩, flush0_10 _, ?_⟩
  rw [mem_blk0]
  obtain ⟨e0, e1⟩ := idx0_10 ⟨(i 0).val / 128, hN⟩
  have e0' : win0_10.index ⟨(i 0).val / 128, hN⟩ (0 : Fin 2) = (i 0).val / 128 := e0
  intro a
  match a with
  | ⟨0, _⟩ => show win0_10.index ⟨(i 0).val / 128, hN⟩ (0 : Fin 2) * 128 ≤ (i 0).val ∧ (i 0).val < win0_10.index ⟨(i 0).val / 128, hN⟩ (0 : Fin 2) * 128 + 128; omega
  | ⟨1, _⟩ => show win0_10.index ⟨(i 0).val / 128, hN⟩ (1 : Fin 2) * 2048 ≤ (i 1).val ∧ (i 1).val < win0_10.index ⟨(i 0).val / 128, hN⟩ (1 : Fin 2) * 2048 + 2048; omega

/-! ## Region 1 -/

theorem idx1_0 : ∀ t : Fin cfg1.N, win1_0.index t (0 : Fin 2) = t.val ∧ win1_0.index t (1 : Fin 2) = 0 :=
  (by decide +kernel : ∀ t : Fin grid1.N, _)
/-- The block of window 0 at point `t`, read at (p, k), is its array at (t·512 + p, k). -/
theorem iblk1_0_apply (c : Dev nD) (t : Fin cfg1.N) (p : Fin 512) (k : Fin 1024) :
    iblk1 V c 0 t (ix2 p k) = V c main_arg0 (ix2 (⟨t.val * 512 + p.val, by have ht : t.val < 32 := lt_of_lt_of_eq t.isLt N_1; have := p.isLt; omega⟩ : Fin 16384) k) := by
  unfold iblk1
  rw [View.read_apply]
  refine congrArg (V c main_arg0) (funext fun a => Fin.ext ?_)
  obtain ⟨e0, e1⟩ := idx1_0 t
  match a with
  | ⟨0, _⟩ => show win1_0.index t (0 : Fin 2) * 512 + 1 * p.val = t.val * 512 + p.val; omega
  | ⟨1, _⟩ => show win1_0.index t (1 : Fin 2) * 1024 + 1 * k.val = k.val; omega

theorem idx1_1 : ∀ t : Fin cfg1.N, win1_1.index t (0 : Fin 2) = t.val ∧ win1_1.index t (1 : Fin 2) = 0 :=
  (by decide +kernel : ∀ t : Fin grid1.N, _)
/-- The block of window 1 at point `t`, read at (p, k), is its array at (t·512 + p, k). -/
theorem iblk1_1_apply (c : Dev nD) (t : Fin cfg1.N) (p : Fin 512) (k : Fin 2048) :
    iblk1 V c 1 t (ix2 p k) = V c main_v11 (ix2 (⟨t.val * 512 + p.val, by have ht : t.val < 32 := lt_of_lt_of_eq t.isLt N_1; have := p.isLt; omega⟩ : Fin 16384) k) := by
  unfold iblk1
  rw [View.read_apply]
  refine congrArg (V c main_v11) (funext fun a => Fin.ext ?_)
  obtain ⟨e0, e1⟩ := idx1_1 t
  match a with
  | ⟨0, _⟩ => show win1_1.index t (0 : Fin 2) * 512 + 1 * p.val = t.val * 512 + p.val; omega
  | ⟨1, _⟩ => show win1_1.index t (1 : Fin 2) * 2048 + 1 * k.val = k.val; omega

theorem idx1_6 : ∀ t : Fin cfg1.N, win1_6.index t (0 : Fin 2) = t.val ∧ win1_6.index t (1 : Fin 2) = 0 :=
  (by decide +kernel : ∀ t : Fin grid1.N, _)
/-- The block of window 6 at point `t`, read at (p, k), is its array at (t·512 + p, k). -/
theorem iblk1_6_apply (c : Dev nD) (t : Fin cfg1.N) (p : Fin 512) (k : Fin 1024) :
    iblk1 V c 6 t (ix2 p k) = V c main_v15 (ix2 (⟨t.val * 512 + p.val, by have ht : t.val < 32 := lt_of_lt_of_eq t.isLt N_1; have := p.isLt; omega⟩ : Fin 16384) k) := by
  unfold iblk1
  rw [View.read_apply]
  refine congrArg (V c main_v15) (funext fun a => Fin.ext ?_)
  obtain ⟨e0, e1⟩ := idx1_6 t
  match a with
  | ⟨0, _⟩ => show win1_6.index t (0 : Fin 2) * 512 + 1 * p.val = t.val * 512 + p.val; omega
  | ⟨1, _⟩ => show win1_6.index t (1 : Fin 2) * 1024 + 1 * k.val = k.val; omega

theorem idx1_2 : ∀ t : Fin cfg1.N, win1_2.index t (0 : Fin 2) = 0 ∧ win1_2.index t (1 : Fin 2) = 0 :=
  (by decide +kernel : ∀ t : Fin grid1.N, _)
/-- Window 2 is resident: its block at every point is its whole array. -/
theorem iblk1_2_apply (c : Dev nD) (t : Fin cfg1.N) (y : S3072x1024.Idx) :
    iblk1 V c 2 t y = V c main_v6 y := by
  unfold iblk1
  rw [View.read_apply]
  refine congrArg (V c main_v6) (funext fun a => Fin.ext ?_)
  obtain ⟨e0, e1⟩ := idx1_2 t
  match a with
  | ⟨0, _⟩ => show win1_2.index t (0 : Fin 2) * 3072 + 1 * (y 0).val = (y 0).val; omega
  | ⟨1, _⟩ => show win1_2.index t (1 : Fin 2) * 1024 + 1 * (y 1).val = (y 1).val; omega

theorem idx1_3 : ∀ t : Fin cfg1.N, win1_3.index t (0 : Fin 2) = 0 ∧ win1_3.index t (1 : Fin 2) = 0 :=
  (by decide +kernel : ∀ t : Fin grid1.N, _)
/-- Window 3 is resident: its block at every point is its whole array. -/
theorem iblk1_3_apply (c : Dev nD) (t : Fin cfg1.N) (y : S1x1024.Idx) :
    iblk1 V c 3 t y = V c main_v12 y := by
  unfold iblk1
  rw [View.read_apply]
  refine congrArg (V c main_v12) (funext fun a => Fin.ext ?_)
  obtain ⟨e0, e1⟩ := idx1_3 t
  match a with
  | ⟨0, _⟩ => show win1_3.index t (0 : Fin 2) * 1 + 1 * (y 0).val = (y 0).val; omega
  | ⟨1, _⟩ => show win1_3.index t (1 : Fin 2) * 1024 + 1 * (y 1).val = (y 1).val; omega

theorem idx1_4 : ∀ t : Fin cfg1.N, win1_4.index t (0 : Fin 2) = 0 ∧ win1_4.index t (1 : Fin 2) = 0 :=
  (by decide +kernel : ∀ t : Fin grid1.N, _)
/-- Window 4 is resident: its block at every point is its whole array. -/
theorem iblk1_4_apply (c : Dev nD) (t : Fin cfg1.N) (y : S1x1024.Idx) :
    iblk1 V c 4 t y = V c main_v13 y := by
  unfold iblk1
  rw [View.read_apply]
  refine congrArg (V c main_v13) (funext fun a => Fin.ext ?_)
  obtain ⟨e0, e1⟩ := idx1_4 t
  match a with
  | ⟨0, _⟩ => show win1_4.index t (0 : Fin 2) * 1 + 1 * (y 0).val = (y 0).val; omega
  | ⟨1, _⟩ => show win1_4.index t (1 : Fin 2) * 1024 + 1 * (y 1).val = (y 1).val; omega

theorem idx1_5 : ∀ t : Fin cfg1.N, win1_5.index t (0 : Fin 2) = 0 ∧ win1_5.index t (1 : Fin 2) = 0 :=
  (by decide +kernel : ∀ t : Fin grid1.N, _)
/-- Window 5 is resident: its block at every point is its whole array. -/
theorem iblk1_5_apply (c : Dev nD) (t : Fin cfg1.N) (y : S1x1024.Idx) :
    iblk1 V c 5 t y = V c main_v14 y := by
  unfold iblk1
  rw [View.read_apply]
  refine congrArg (V c main_v14) (funext fun a => Fin.ext ?_)
  obtain ⟨e0, e1⟩ := idx1_5 t
  match a with
  | ⟨0, _⟩ => show win1_5.index t (0 : Fin 2) * 1 + 1 * (y 0).val = (y 0).val; omega
  | ⟨1, _⟩ => show win1_5.index t (1 : Fin 2) * 1024 + 1 * (y 1).val = (y 1).val; omega

/-- Where the output window's block sends (p, q): row t·512 + p, column q of the array. -/
theorem emb1_out (t : Fin cfg1.N) (p : Fin 512) (q : Fin 1024) :
    ((cfg1.win 6).blk t).view.emb (ix2 p q) = ix2 (⟨t.val * 512 + p.val, by have ht : t.val < 32 := lt_of_lt_of_eq t.isLt N_1; have := p.isLt; omega⟩ : Fin 16384) q := by
  funext a; apply Fin.ext
  obtain ⟨e0, e1⟩ := idx1_6 t
  match a with
  | ⟨0, _⟩ => show win1_6.index t (0 : Fin 2) * 512 + 1 * p.val = t.val * 512 + p.val; omega
  | ⟨1, _⟩ => show win1_6.index t (1 : Fin 2) * 1024 + 1 * q.val = q.val; omega

/-- An index of the output's array is in point `t`'s block iff each coordinate is in the block's range on its axis. -/
theorem mem_blk1 (t : Fin cfg1.N) (i : S16384x1024.Idx) :
    i ∈ ((cfg1.win 6).blk t).view.set ↔ ∀ a : Fin 2, win1_6.index t a * S512x1024.size a ≤ (i a).val ∧ (i a).val < win1_6.index t a * S512x1024.size a + S512x1024.size a := by
  show i ∈ ((View.whole main_v15).slice (win1_6.rect t)).set ↔ _
  rw [View.set_slice_whole, Rect.mem_set_unit]
  exact Iff.rfl

/-- Every index of the output's array is in the block of the point that holds its row. -/
theorem cover1 (i : S16384x1024.Idx) :
    ∃ t : Fin cfg1.N, (cfg1.win 6).flush t = true ∧ i ∈ ((cfg1.win 6).blk t).view.set := by
  have hi0 : (i 0).val < 16384 := idx2_lt0 i
  have hi1 : (i 1).val < 1024 := idx2_lt1 i
  have hN : (i 0).val / 512 < cfg1.N := by show _ < grid1.N; rw [N_1]; omega
  refine ⟨⟨(i 0).val / 512, hN⟩, flush1_6 _, ?_⟩
  rw [mem_blk1]
  obtain ⟨e0, e1⟩ := idx1_6 ⟨(i 0).val / 512, hN⟩
  have e0' : win1_6.index ⟨(i 0).val / 512, hN⟩ (0 : Fin 2) = (i 0).val / 512 := e0
  intro a
  match a with
  | ⟨0, _⟩ => show win1_6.index ⟨(i 0).val / 512, hN⟩ (0 : Fin 2) * 512 ≤ (i 0).val ∧ (i 0).val < win1_6.index ⟨(i 0).val / 512, hN⟩ (0 : Fin 2) * 512 + 512; omega
  | ⟨1, _⟩ => show win1_6.index ⟨(i 0).val / 512, hN⟩ (1 : Fin 2) * 1024 ≤ (i 1).val ∧ (i 1).val < win1_6.index ⟨(i 0).val / 512, hN⟩ (1 : Fin 2) * 1024 + 1024; omega

end Cert.KernelIdeal.Whole

end
-- ==== Proof.KernelPayLib.lean ====
/-
  The non-pointwise vector operations of the two kernel bodies, each read at an index given by its coordinates:
  a product into a zero accumulator is the sum over the contraction coordinate of the operands' products; a
  concatenation along the columns reads the piece that holds the column; a column [n,1] broadcast along the columns
  and a vector [n] viewed as a column read the row's one element; a sum over the columns with a zero accumulator is
  the sum over the column coordinate.
-/
import proofs.«123416_j83958020702584_2_alg».proof.Proof.Spec
import proofs.«123416_j83958020702584_2_alg».proof.Proof.Gen.KernelIdeal.Skeleton
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-! ## The three products -/

abbrev DA := dot_S128x1024_S1024x2048_S128x2048_1_0_0_1_n_n
abbrev DB := dot_S128x4096_S4096x2048_S128x2048_1_0_0_1_n_n
abbrev DC := dot_S512x3072_S3072x1024_S512x1024_1_0_0_1_n_n

theorem DA_lhs0 (i : S128x2048.Idx) (q : DA.contr.Idx) : (DA.lhsIdx i q 0).val = (i 0).val := by
  unfold DotDims.lhsIdx
  rw [dif_neg (show ¬(0 : Fin S128x1024.rank) ∈ DA.lhsBatch by decide), dif_pos (show (0 : Fin S128x1024.rank) ∈ DA.lhsNonContracting by decide)]
  rfl
theorem DA_lhs1 (i : S128x2048.Idx) (q : DA.contr.Idx) : (DA.lhsIdx i q 1).val = (q ⟨0, by decide⟩).val :=
  DA.lhsIdx_val_of_single rfl i q
theorem DA_rhs0 (i : S128x2048.Idx) (q : DA.contr.Idx) : (DA.rhsIdx i q 0).val = (q ⟨0, by decide⟩).val :=
  DA.rhsIdx_val_of_single rfl i q
theorem DA_rhs1 (i : S128x2048.Idx) (q : DA.contr.Idx) : (DA.rhsIdx i q 1).val = (i 1).val := by
  unfold DotDims.rhsIdx
  rw [dif_neg (show ¬(1 : Fin S1024x2048.rank) ∈ DA.rhsBatch by decide), dif_pos (show (1 : Fin S1024x2048.rank) ∈ DA.rhsNonContracting by decide)]
  rfl

/-- A [128,1024] block times a [1024,2048] block into zero, at (p, q): the row of the first against the column of the second. -/
theorem matmulA_apply (A : FVec Ideal S128x1024 .bf16) (B : FVec Ideal S1024x2048 .bf16) (p : Fin 128) (q : Fin 2048) :
    matmul DA none A B (constant S128x2048 .f32 0x00000000#32) (ix2 p q) = ∑ k : Fin 1024, A (ix2 p k) * B (ix2 k q) := by
  simp only [matmul]
  rw [Ideal.matmul_constant_zero_apply, ← Equiv.sum_comp (contrEquiv1 DA 1024 rfl rfl).symm]
  refine Finset.sum_congr rfl fun k _ => ?_
  have hk := contrEquiv1_symm_val DA 1024 rfl rfl k
  have el : DA.lhsIdx (ix2 p q) ((contrEquiv1 DA 1024 rfl rfl).symm k) = ix2 p k := funext fun a => Fin.ext (by
    match a with
    | ⟨0, _⟩ => exact DA_lhs0 _ _
    | ⟨1, _⟩ => exact (DA_lhs1 _ _).trans hk)
  have er : DA.rhsIdx (ix2 p q) ((contrEquiv1 DA 1024 rfl rfl).symm k) = ix2 k q := funext fun a => Fin.ext (by
    match a with
    | ⟨0, _⟩ => exact (DA_rhs0 _ _).trans hk
    | ⟨1, _⟩ => exact DA_rhs1 _ _)
  rw [el, er]

theorem DB_lhs0 (i : S128x2048.Idx) (q : DB.contr.Idx) : (DB.lhsIdx i q 0).val = (i 0).val := by
  unfold DotDims.lhsIdx
  rw [dif_neg (show ¬(0 : Fin S128x4096.rank) ∈ DB.lhsBatch by decide), dif_pos (show (0 : Fin S128x4096.rank) ∈ DB.lhsNonContracting by decide)]
  rfl
theorem DB_lhs1 (i : S128x2048.Idx) (q : DB.contr.Idx) : (DB.lhsIdx i q 1).val = (q ⟨0, by decide⟩).val :=
  DB.lhsIdx_val_of_single rfl i q
theorem DB_rhs0 (i : S128x2048.Idx) (q : DB.contr.Idx) : (DB.rhsIdx i q 0).val = (q ⟨0, by decide⟩).val :=
  DB.rhsIdx_val_of_single rfl i q
theorem DB_rhs1 (i : S128x2048.Idx) (q : DB.contr.Idx) : (DB.rhsIdx i q 1).val = (i 1).val := by
  unfold DotDims.rhsIdx
  rw [dif_neg (show ¬(1 : Fin S4096x2048.rank) ∈ DB.rhsBatch by decide), dif_pos (show (1 : Fin S4096x2048.rank) ∈ DB.rhsNonContracting by decide)]
  rfl

/-- A [128,4096] block times a [4096,2048] block into zero, at (p, q). -/
theorem matmulB_apply (A : FVec Ideal S128x4096 .bf16) (B : FVec Ideal S4096x2048 .bf16) (p : Fin 128) (q : Fin 2048) :
    matmul DB none A B (constant S128x2048 .f32 0x00000000#32) (ix2 p q) = ∑ k : Fin 4096, A (ix2 p k) * B (ix2 k q) := by
  simp only [matmul]
  rw [Ideal.matmul_constant_zero_apply, ← Equiv.sum_comp (contrEquiv1 DB 4096 rfl rfl).symm]
  refine Finset.sum_congr rfl fun k _ => ?_
  have hk := contrEquiv1_symm_val DB 4096 rfl rfl k
  have el : DB.lhsIdx (ix2 p q) ((contrEquiv1 DB 4096 rfl rfl).symm k) = ix2 p k := funext fun a => Fin.ext (by
    match a with
    | ⟨0, _⟩ => exact DB_lhs0 _ _
    | ⟨1, _⟩ => exact (DB_lhs1 _ _).trans hk)
  have er : DB.rhsIdx (ix2 p q) ((contrEquiv1 DB 4096 rfl rfl).symm k) = ix2 k q := funext fun a => Fin.ext (by
    match a with
    | ⟨0, _⟩ => exact (DB_rhs0 _ _).trans hk
    | ⟨1, _⟩ => exact DB_rhs1 _ _)
  rw [el, er]

theorem DC_lhs0 (i : S512x1024.Idx) (q : DC.contr.Idx) : (DC.lhsIdx i q 0).val = (i 0).val := by
  unfold DotDims.lhsIdx
  rw [dif_neg (show ¬(0 : Fin S512x3072.rank) ∈ DC.lhsBatch by decide), dif_pos (show (0 : Fin S512x3072.rank) ∈ DC.lhsNonContracting by decide)]
  rfl
theorem DC_lhs1 (i : S512x1024.Idx) (q : DC.contr.Idx) : (DC.lhsIdx i q 1).val = (q ⟨0, by decide⟩).val :=
  DC.lhsIdx_val_of_single rfl i q
theorem DC_rhs0 (i : S512x1024.Idx) (q : DC.contr.Idx) : (DC.rhsIdx i q 0).val = (q ⟨0, by decide⟩).val :=
  DC.rhsIdx_val_of_single rfl i q
theorem DC_rhs1 (i : S512x1024.Idx) (q : DC.contr.Idx) : (DC.rhsIdx i q 1).val = (i 1).val := by
  unfold DotDims.rhsIdx
  rw [dif_neg (show ¬(1 : Fin S3072x1024.rank) ∈ DC.rhsBatch by decide), dif_pos (show (1 : Fin S3072x1024.rank) ∈ DC.rhsNonContracting by decide)]
  rfl

/-- A [512,3072] block times a [3072,1024] block into zero, at (p, j). -/
theorem matmulC_apply (A : FVec Ideal S512x3072 .bf16) (B : FVec Ideal S3072x1024 .bf16) (p : Fin 512) (j : Fin 1024) :
    matmul DC none A B (constant S512x1024 .f32 0x00000000#32) (ix2 p j) = ∑ k : Fin 3072, A (ix2 p k) * B (ix2 k j) := by
  simp only [matmul]
  rw [Ideal.matmul_constant_zero_apply, ← Equiv.sum_comp (contrEquiv1 DC 3072 rfl rfl).symm]
  refine Finset.sum_congr rfl fun k _ => ?_
  have hk := contrEquiv1_symm_val DC 3072 rfl rfl k
  have el : DC.lhsIdx (ix2 p j) ((contrEquiv1 DC 3072 rfl rfl).symm k) = ix2 p k := funext fun a => Fin.ext (by
    match a with
    | ⟨0, _⟩ => exact DC_lhs0 _ _
    | ⟨1, _⟩ => exact (DC_lhs1 _ _).trans hk)
  have er : DC.rhsIdx (ix2 p j) ((contrEquiv1 DC 3072 rfl rfl).symm k) = ix2 k j := funext fun a => Fin.ext (by
    match a with
    | ⟨0, _⟩ => exact (DC_rhs0 _ _).trans hk
    | ⟨1, _⟩ => exact DC_rhs1 _ _)
  rw [el, er]

/-! ## The two concatenations along the columns -/

/-- [a | b | c] of widths 1024, 1024, 2048 at (p, k): the piece that holds column k. -/
theorem cat3_apply (a b : FVec Ideal S128x1024 .bf16) (c : FVec Ideal S128x2048 .bf16) (p : Fin 128) (k : Fin 4096) :
    concatenate S128x4096 1 [⟨S128x1024, a⟩, ⟨S128x1024, b⟩, ⟨S128x2048, c⟩] concatenates_S128x1024_S128x1024_S128x2048_S128x4096_d1 (ix2 p k)
      = Cert.Spec.cat3 (fun t => a (ix2 p t)) (fun t => b (ix2 p t)) (fun t => c (ix2 p t)) k := by
  unfold Cert.Spec.cat3
  split
  · next h =>
    exact concatenate_apply_piece 1 _ _ (ix2 p k) 0 (by show (0 : Nat) < 3; omega) S128x1024 a rfl rfl 0 rfl (ix2 p ⟨k.val, h⟩)
      (fun ax => match ax with
        | ⟨0, _⟩ => fun _ => rfl
        | ⟨1, _⟩ => fun hne => absurd rfl hne)
      (Nat.zero_add _)
  · next h =>
    split
    · next h' =>
      exact concatenate_apply_piece 1 _ _ (ix2 p k) 1 (by show (1 : Nat) < 3; omega) S128x1024 b rfl rfl 1024 rfl (ix2 p ⟨k.val - 1024, by omega⟩)
        (fun ax => match ax with
          | ⟨0, _⟩ => fun _ => rfl
          | ⟨1, _⟩ => fun hne => absurd rfl hne)
        (by show 1024 + (k.val - 1024) = k.val; omega)
    · next h' =>
      exact concatenate_apply_piece 1 _ _ (ix2 p k) 2 (by show (2 : Nat) < 3; omega) S128x2048 c rfl rfl 2048 rfl (ix2 p ⟨k.val - 2048, by omega⟩)
        (fun ax => match ax with
          | ⟨0, _⟩ => fun _ => rfl
          | ⟨1, _⟩ => fun hne => absurd rfl hne)
        (by show 2048 + (k.val - 2048) = k.val; omega)

/-- [a | b] of widths 1024, 2048 at (p, k). -/
theorem cat2_apply (a : FVec Ideal S512x1024 .bf16) (b : FVec Ideal S512x2048 .bf16) (p : Fin 512) (k : Fin 3072) :
    concatenate S512x3072 1 [⟨S512x1024, a⟩, ⟨S512x2048, b⟩] concatenates_S512x1024_S512x2048_S512x3072_d1 (ix2 p k)
      = Cert.Spec.catRow (fun t => a (ix2 p t)) (fun t => b (ix2 p t)) k := by
  unfold Cert.Spec.catRow
  split
  · next h =>
    exact concatenate_apply_piece 1 _ _ (ix2 p k) 0 (by show (0 : Nat) < 2; omega) S512x1024 a rfl rfl 0 rfl (ix2 p ⟨k.val, h⟩)
      (fun ax => match ax with
        | ⟨0, _⟩ => fun _ => rfl
        | ⟨1, _⟩ => fun hne => absurd rfl hne)
      (Nat.zero_add _)
  · next h =>
    exact concatenate_apply_piece 1 _ _ (ix2 p k) 1 (by show (1 : Nat) < 2; omega) S512x2048 b rfl rfl 1024 rfl (ix2 p ⟨k.val - 1024, by omega⟩)
      (fun ax => match ax with
        | ⟨0, _⟩ => fun _ => rfl
        | ⟨1, _⟩ => fun hne => absurd rfl hne)
      (by show 1024 + (k.val - 1024) = k.val; omega)

/-! ## A column: a vector viewed as one, and broadcast along the columns -/

/-- A [512] vector viewed [512,1] reads, at (p, u), the vector at p. -/
theorem shapeCast_col_apply {α : Type} (v : S512.Idx → α) (p : Fin 512) (u : Fin 1) :
    shapeCast S512x1 v shapeCasts_S512_S512x1 (ix2 p u) = v (ix1 p) :=
  shapeCast_apply v _ _ _ (by
    have hu : u.val = 0 := by omega
    rw [Shape.rowMajor_val_two, Shape.rowMajor_val_one]
    show p.val = p.val * 1 + u.val
    rw [hu, Nat.mul_one, Nat.add_zero])

/-- A [512,1] column broadcast to [512,1024] reads, at (p, j), the column at p. -/
theorem broadcastTo_col_apply {α : Type} (v : S512x1.Idx → α) (p : Fin 512) (j : Fin 1024) :
    broadcastTo S512x1024 v broadcasts_S512x1_S512x1024 (ix2 p j) = v (ix2 p (0 : Fin 1)) := by
  refine broadcastTo_apply v _ (ix2 p j) (ix2 p (0 : Fin 1)) fun ax => ?_
  match ax with
  | ⟨0, _⟩ => rfl
  | ⟨1, _⟩ => rfl

/-! ## A sum over the columns -/

/-- The sum over the columns of a [512,1024] block into a zero accumulator, at row p. -/
theorem rowsum_apply (src : FVec Ideal S512x1024 .f32) (hφ : FKind.Formats .f32)
    (hacc : (0x00000000#32 : BitVec 32) = 0x00000000#32) (p : Fin 512) :
    multiReduction .add [1] S512 src 0x00000000#32 reduces_S512x1024_S512 hφ hacc (ix1 p) = ∑ j : Fin 1024, src (ix2 p j) := by
  refine (Ideal.multiReduction_add_single src _ reduces_S512x1024_S512 hφ hacc (ix1 p)).trans ?_
  show ∑ j : Fin 1024, src (reduces_S512x1024_S512.lift (ix1 p) j) = _
  refine Finset.sum_congr rfl fun j _ => congrArg src ?_
  funext ax
  match ax with
  | ⟨0, _⟩ => rfl
  | ⟨1, _⟩ => rfl

end Cert.KernelIdeal.PayValue

end
-- ==== Proof.KernelPay0.lean ====
/-
  The first kernel body's stored value at (p, q), as the specification's new_state in the kernel's spelling: the two
  step pre-activations are a row against a column of a weight (plus a bias row for the first); each softplus is the
  comparison-guarded max z 0 + log1p (exp (0 - |z - 0|)); the proposal's pre-activation is the joined row
  [x_p | cond_p | state_p] against a column of the stacked weight plus a bias row; the rest is pointwise.
-/
import proofs.«123416_j83958020702584_2_alg».proof.Proof.Spec
import proofs.«123416_j83958020702584_2_alg».proof.Proof.Gen.KernelIdeal.Skeleton
import proofs.«123416_j83958020702584_2_alg».proof.Proof.KernelPayLib

noncomputable section

namespace Cert.KernelIdeal.PayValue

open Cert.KernelIdeal Cert.KernelIdeal.Gen Idealize.ShloMosaic Idealize.ShloMosaic.ValueIdx

/-! ## The first step term: softplus of x_p · W_step[:, q] + b_step q -/

/-- The first step's pre-activation at (p, q). -/
theorem pre5_apply (x0 : Vec Ideal S128x1024 .f32) (x4 : Vec Ideal S1024x2048 .bf16) (x5 : Vec Ideal S1x2048 .f32)
    (p : Fin 128) (q : Fin 2048) :
    addf (matmul (φ₁ := .bf16) (φ₂ := .bf16) DA none (k0_pay2 x0) (shapeCast S1024x2048 x4 shapeCasts_S1024x2048_S1024x2048) (constant S128x2048 .f32 0x00000000#32))
        (broadcastTo S128x2048 (shapeCast S1x2048 x5 shapeCasts_S1x2048_S1x2048) broadcasts_S1x2048_S128x2048) (ix2 p q)
      = Cert.Spec.rowdot (Cert.Spec.row x0 p) x4 q + x5 (ix2 0 q) := by
  rw [addf_apply, shapeCast_self, shapeCast_self, matmulA_apply, broadcastTo_1b_ab_apply]
  rfl

/-- The first step term at (p, q): the softplus of its pre-activation. -/
theorem pay5_apply (x0 : Vec Ideal S128x1024 .f32) (x4 : Vec Ideal S1024x2048 .bf16) (x5 : Vec Ideal S1x2048 .f32)
    (p : Fin 128) (q : Fin 2048) :
    k0_pay5 x0 x4 x5 (ix2 p q) = Cert.Spec.softplus (Cert.Spec.rowdot (Cert.Spec.row x0 p) x4 q + x5 (ix2 0 q)) := by
  refine Eq.trans ?_ (congrArg Cert.Spec.softplus (pre5_apply x0 x4 x5 p q))
  rfl

/-! ## The second step term's pieces: cond_p · W_cstep[:, q] and what is read of it -/

/-- The second step's pre-activation at (p, q). -/
theorem pay6_apply (x2 : Vec Ideal S128x1024 .f32) (x6 : Vec Ideal S1024x2048 .bf16) (p : Fin 128) (q : Fin 2048) :
    k0_pay6 x2 x6 (ix2 p q) = Cert.Spec.rowdot (Cert.Spec.row x2 p) x6 q := by
  show matmul (φ₁ := .bf16) (φ₂ := .bf16) DA none (k0_pay3 x2) (shapeCast S1024x2048 x6 shapeCasts_S1024x2048_S1024x2048) (constant S128x2048 .f32 0x00000000#32) (ix2 p q) = _
  rw [shapeCast_self, matmulA_apply]
  rfl

/-- Its maximum with zero. -/
theorem pay7_apply (x2 : Vec Ideal S128x1024 .f32) (x6 : Vec Ideal S1024x2048 .bf16) (p : Fin 128) (q : Fin 2048) :
    k0_pay7 x2 x6 (ix2 p q) = max (Cert.Spec.rowdot (Cert.Spec.row x2 p) x6 q) Cert.Spec.z0 := by
  show max (k0_pay6 x2 x6 (ix2 p q)) Cert.Spec.z0 = _
  rw [pay6_apply]

/-- Its difference with zero. -/
theorem pay8_apply (x2 : Vec Ideal S128x1024 .f32) (x6 : Vec Ideal S1024x2048 .bf16) (p : Fin 128) (q : Fin 2048) :
    k0_pay8 x2 x6 (ix2 p q) = Cert.Spec.rowdot (Cert.Spec.row x2 p) x6 q - Cert.Spec.z0 := by
  show k0_pay6 x2 x6 (ix2 p q) - Cert.Spec.z0 = _
  rw [pay6_apply]

/-- The comparison of that difference with itself. -/
theorem pay9_apply (x2 : Vec Ideal S128x1024 .f32) (x6 : Vec Ideal S1024x2048 .bf16) (p : Fin 128) (q : Fin 2048) :
    k0_pay9 x2 x6 (ix2 p q) = Ideal.cmp .one (Cert.Spec.rowdot (Cert.Spec.row x2 p) x6 q - Cert.Spec.z0)
      (Cert.Spec.rowdot (Cert.Spec.row x2 p) x6 q - Cert.Spec.z0) := by
  show Ideal.cmp .one (k0_pay8 x2 x6 (ix2 p q)) (k0_pay8 x2 x6 (ix2 p q)) = _
  rw [pay8_apply]

/-- Its sum with zero. -/
theorem pay10_apply (x2 : Vec Ideal S128x1024 .f32) (x6 : Vec Ideal S1024x2048 .bf16) (p : Fin 128) (q : Fin 2048) :
    k0_pay10 x2 x6 (ix2 p q) = Cert.Spec.rowdot (Cert.Spec.row x2 p) x6 q + Cert.Spec.z0 := by
  show k0_pay6 x2 x6 (ix2 p q) + Cert.Spec.z0 = _
  rw [pay6_apply]

/-- The absolute value of the difference: the larger of it and its negation. -/
theorem pay11_apply (x2 : Vec Ideal S128x1024 .f32) (x6 : Vec Ideal S1024x2048 .bf16) (p : Fin 128) (q : Fin 2048) :
    k0_pay11 x2 x6 (ix2 p q) = max (Cert.Spec.rowdot (Cert.Spec.row x2 p) x6 q - Cert.Spec.z0)
      (-(Cert.Spec.rowdot (Cert.Spec.row x2 p) x6 q - Cert.Spec.z0)) := by
  show max (k0_pay8 x2 x6 (ix2 p q)) (-(k0_pay8 x2 x6 (ix2 p q))) = _
  rw [pay8_apply]

/-! ## The stored value over the values read before it -/

/-- The proposal's pre-activation at (p, q): the joined row against a column of the stacked weight, plus the bias row. -/
theorem pre1_apply (v4 v5 : FVec Ideal S128x1024 .bf16) (v6 : FVec Ideal S128x2048 .bf16) (v49 : Vec Ideal S4096x2048 .bf16)
    (v52 : Vec Ideal S1x2048 .f32) (p : Fin 128) (q : Fin 2048) :
    addf (matmul (φ₁ := .bf16) (φ₂ := .bf16) DB none
          (concatenate S128x4096 1 [⟨S128x1024, v4⟩, ⟨S128x1024, v5⟩, ⟨S128x2048, v6⟩] concatenates_S128x1024_S128x1024_S128x2048_S128x4096_d1)
          (shapeCast S4096x2048 v49 shapeCasts_S4096x2048_S4096x2048) (constant S128x2048 .f32 0x00000000#32))
        (broadcastTo S128x2048 (shapeCast S1x2048 v52 shapeCasts_S1x2048_S1x2048) broadcasts_S1x2048_S128x2048) (ix2 p q)
      = Cert.Spec.rowdot (Cert.Spec.cat3 (Cert.Spec.row v4 p) (Cert.Spec.row v5 p) (Cert.Spec.row v6 p)) v49 q + v52 (ix2 0 q) := by
  rw [addf_apply, shapeCast_self, shapeCast_self, matmulB_apply, broadcastTo_1b_ab_apply]
  simp only [cat3_apply]
  rfl

/-- The decay rate's row broadcast down the rows, at (p, q). -/
theorem eld_apply (v59 : Vec Ideal S1x2048 .f32) (p : Fin 128) (q : Fin 2048) :
    broadcastTo S128x2048 (shapeCast S1x2048 v59 shapeCasts_S1x2048_S1x2048) broadcasts_S1x2048_S128x2048 (ix2 p q) = v59 (ix2 0 q) := by
  rw [shapeCast_self, broadcastTo_1b_ab_apply]

/-- The stored value at (p, q) from the values read before it at (p, q). -/
theorem pay1_core (v1 v3 : Vec Ideal S128x2048 .f32) (v4 v5 : FVec Ideal S128x1024 .bf16) (v6 : FVec Ideal S128x2048 .bf16)
    (v27 v32 : FVec Ideal S128x2048 .f32) (v35 : IVec S128x2048 1) (v37 v38 : FVec Ideal S128x2048 .f32)
    (v49 : Vec Ideal S4096x2048 .bf16) (v52 v59 : Vec Ideal S1x2048 .f32) (p : Fin 128) (q : Fin 2048) :
    k0_pay1 v1 v3 v4 v5 v6 v27 v32 v35 v37 v38 (Scalar.ofBits .f32 0x00000000#32) v49 v52 v59 (ix2 p q)
      = Ideal.exp ((Cert.Spec.z0 - (v27 (ix2 p q) + Cert.Spec.cTenth * Scalar.select (v35 (ix2 p q)) (v37 (ix2 p q))
            (v32 (ix2 p q) + Ideal.log1p (Ideal.exp (Cert.Spec.z0 - v38 (ix2 p q)))))) * v59 (ix2 0 q)) * v3 (ix2 p q) * v1 (ix2 p q)
        + (Cert.Spec.cOne - Ideal.exp ((Cert.Spec.z0 - (v27 (ix2 p q) + Cert.Spec.cTenth * Scalar.select (v35 (ix2 p q)) (v37 (ix2 p q))
            (v32 (ix2 p q) + Ideal.log1p (Ideal.exp (Cert.Spec.z0 - v38 (ix2 p q)))))) * v59 (ix2 0 q)) * v3 (ix2 p q))
          * Ideal.tanh (Cert.Spec.rowdot (Cert.Spec.cat3 (Cert.Spec.row v4 p) (Cert.Spec.row v5 p) (Cert.Spec.row v6 p)) v49 q + v52 (ix2 0 q)) := by
  rw [← pre1_apply v4 v5 v6 v49 v52 p q, ← eld_apply v59 p q]
  rfl

/-! ## The stored value of the first body -/

theorem pay0_apply (x0 : Vec Ideal S128x1024 .f32) (x1 : Vec Ideal S128x2048 .f32) (x2 : Vec Ideal S128x1024 .f32)
    (x3 : Vec Ideal S128x2048 .f32) (x4 : Vec Ideal S1024x2048 .bf16) (x5 : Vec Ideal S1x2048 .f32)
    (x6 : Vec Ideal S1024x2048 .bf16) (x7 : Vec Ideal S4096x2048 .bf16) (x8 x9 : Vec Ideal S1x2048 .f32)
    (p : Fin 128) (q : Fin 2048) :
    k0_pay1 x1 x3 (k0_pay2 x0) (k0_pay3 x2) (k0_pay4 x1) (k0_pay5 x0 x4 x5) (k0_pay7 x2 x6) (k0_pay9 x2 x6) (k0_pay10 x2 x6)
        (k0_pay11 x2 x6) (Scalar.ofBits .f32 0x00000000#32) x7 x8 x9 (ix2 p q)
      = Cert.Spec.newStateAtK (Cert.Spec.row x0 p) (Cert.Spec.row x2 p) (Cert.Spec.row x1 p) (x3 (ix2 p q)) x4 x6 x7
          (fun c => x5 (ix2 0 c)) (fun c => x8 (ix2 0 c)) (fun c => x9 (ix2 0 c)) q := by
  rw [pay1_core, pay5_apply, pay7_apply, pay9_apply, pay10_apply, pay11_apply]
  rfl

end Cert.KernelIdeal.PayValue

end
-- ==== Proof.KernelPay1.lean ====
/-
  The second kernel body's stored value at (p, j), as the specification's output: the pre-normalisation block is the
  joined row [x_p | new_state_p] against a column of the weight plus a bias row plus x; the mean and the variance
  columns are sums over the 1024 columns into a zero accumulator divided by 1024 (a zero accumulator adds nothing);
  the rest is pointwise, the columns broadcast along the row and the bias and scale rows down the rows.
-/
import proofs.«123416_j83958020702584_2_alg».proof.Proof.Spec
import proofs.«123416_j83958020702584_2_alg».proof.Proof.Gen.KernelIdeal.Skeleton
import proofs.«123416_j83958020702584_2_alg».proof.Proof.KernelPayLib

noncomputable section

namespace Cert.KernelIdeal.PayValue

open Cert.KernelIdeal Cert.KernelIdeal.Gen Idealize.ShloMosaic Idealize.ShloMosaic.ValueIdx

/-! ## The pre-normalisation block h -/

/-- h as the body computes it: the product of the joined block with the weight, plus the bias row, plus x. -/
def hBlk (x0 : Vec Ideal S512x1024 .f32) (x1 : Vec Ideal S512x2048 .f32) (x2 : Vec Ideal S3072x1024 .bf16)
    (x3 : Vec Ideal S1x1024 .f32) : FVec Ideal S512x1024 .f32 :=
  addf (addf (matmul (φ₁ := .bf16) (φ₂ := .bf16) DC none
        (concatenate S512x3072 1 [⟨S512x1024, truncf .bf16 x0 bitsLt_bf16_f32⟩,
          ⟨S512x2048, truncf .bf16 (shapeCast S512x2048 x1 shapeCasts_S512x2048_S512x2048) bitsLt_bf16_f32⟩]
          concatenates_S512x1024_S512x2048_S512x3072_d1)
        (shapeCast S3072x1024 x2 shapeCasts_S3072x1024_S3072x1024) (constant S512x1024 .f32 0x00000000#32))
      (broadcastTo S512x1024 (shapeCast S1x1024 x3 shapeCasts_S1x1024_S1x1024) broadcasts_S1x1024_S512x1024)) x0

/-- h at (p, j) is the specification's h of row p at j. -/
theorem hBlk_apply (x0 : Vec Ideal S512x1024 .f32) (x1 : Vec Ideal S512x2048 .f32) (x2 : Vec Ideal S3072x1024 .bf16)
    (x3 : Vec Ideal S1x1024 .f32) (p : Fin 512) (j : Fin 1024) :
    hBlk x0 x1 x2 x3 (ix2 p j)
      = Cert.Spec.hAt (Cert.Spec.row x0 p) (Cert.Spec.row x1 p) x2 (fun j => x3 (ix2 0 j)) j := by
  unfold hBlk Cert.Spec.hAt
  rw [addf_apply, addf_apply, shapeCast_self, shapeCast_self, shapeCast_self, matmulC_apply, broadcastTo_1b_ab_apply]
  simp only [cat2_apply]
  rfl

/-! ## A row statistic: the sum over the columns, as a column, divided by 1024 -/

/-- The column of row sums of a block divided by 1024. -/
def meanCol (H : FVec Ideal S512x1024 .f32) : FVec Ideal S512x1 .f32 :=
  divf (shapeCast S512x1 (multiReduction .add [1] S512 H 0x00000000#32 reduces_S512x1024_S512 (.inl rfl) rfl) shapeCasts_S512_S512x1)
    (broadcast S512x1 (Scalar.ofBits .f32 0x44800000#32))

/-- At row p it is the zero accumulator plus the sum over the columns, divided by 1024. -/
theorem meanCol_apply (H : FVec Ideal S512x1024 .f32) (p : Fin 512) (u : Fin 1) :
    meanCol H (ix2 p u) = Ideal.div (Cert.Spec.z0 + ∑ j : Fin 1024, H (ix2 p j)) Cert.Spec.c1024 := by
  show Ideal.div (shapeCast S512x1 (multiReduction .add [1] S512 H 0x00000000#32 reduces_S512x1024_S512 (.inl rfl) rfl)
      shapeCasts_S512_S512x1 (ix2 p u)) Cert.Spec.c1024 = _
  refine Eq.trans (congrArg (fun t => Ideal.div t Cert.Spec.c1024)
    ((shapeCast_col_apply _ p u).trans (rowsum_apply H _ _ p))) ?_
  rw [show Cert.Spec.z0 = (0 : EReal) from Ideal.ofBits_zero_f32, zero_add]

/-- A block less its row means. -/
def cen (H : FVec Ideal S512x1024 .f32) : FVec Ideal S512x1024 .f32 :=
  subf H (broadcastTo S512x1024 (meanCol H) broadcasts_S512x1_S512x1024)

theorem cen_apply (H : FVec Ideal S512x1024 .f32) (p : Fin 512) (j : Fin 1024) :
    cen H (ix2 p j) = H (ix2 p j) - Ideal.div (Cert.Spec.z0 + ∑ j' : Fin 1024, H (ix2 p j')) Cert.Spec.c1024 := by
  unfold cen
  rw [subf_apply, broadcastTo_col_apply, meanCol_apply]

/-! ## The stored value of the second body -/

/-- The body's value over h, its centred block and the two row statistics: the same term, named. -/
theorem k1_pay1_eq (x0 : Vec Ideal S512x1024 .f32) (x1 : Vec Ideal S512x2048 .f32) (x2 : Vec Ideal S3072x1024 .bf16)
    (x3 x4 x5 : Vec Ideal S1x1024 .f32) :
    k1_pay1 x0 x1 x2 x3 x4 x5
      = addf (mulf (mulf (cen (hBlk x0 x1 x2 x3))
            (broadcastTo S512x1024 (rsqrt (addf (meanCol (mulf (cen (hBlk x0 x1 x2 x3)) (cen (hBlk x0 x1 x2 x3))))
              (broadcast S512x1 (Scalar.ofBits .f32 0x3727C5AC#32)))) broadcasts_S512x1_S512x1024))
          (broadcastTo S512x1024 (shapeCast S1x1024 x4 shapeCasts_S1x1024_S1x1024) broadcasts_S1x1024_S512x1024))
        (broadcastTo S512x1024 (shapeCast S1x1024 x5 shapeCasts_S1x1024_S1x1024) broadcasts_S1x1024_S512x1024) := rfl

theorem pay1_apply (x0 : Vec Ideal S512x1024 .f32) (x1 : Vec Ideal S512x2048 .f32) (x2 : Vec Ideal S3072x1024 .bf16)
    (x3 x4 x5 : Vec Ideal S1x1024 .f32) (p : Fin 512) (j : Fin 1024) :
    k1_pay1 x0 x1 x2 x3 x4 x5 (ix2 p j)
      = Cert.Spec.outputAt (Cert.Spec.row x0 p) (Cert.Spec.row x1 p) x2 (fun j => x3 (ix2 0 j)) (fun j => x4 (ix2 0 j))
          (fun j => x5 (ix2 0 j)) j := by
  rw [k1_pay1_eq, addf_apply, mulf_apply, mulf_apply, broadcastTo_col_apply, shapeCast_self, shapeCast_self,
    broadcastTo_1b_ab_apply, broadcastTo_1b_ab_apply]
  show cen (hBlk x0 x1 x2 x3) (ix2 p j)
        * Ideal.rsqrt (meanCol (mulf (cen (hBlk x0 x1 x2 x3)) (cen (hBlk x0 x1 x2 x3))) (ix2 p (0 : Fin 1)) + Cert.Spec.cEps)
        * x4 (ix2 0 j) + x5 (ix2 0 j) = _
  rw [meanCol_apply, cen_apply]
  simp only [mulf_apply, cen_apply, hBlk_apply]
  rfl

end Cert.KernelIdeal.PayValue

end
-- ==== Proof.KernelIdealFinal.lean ====
/-
  From blocks to arrays. At each grid point the first region writes back, as the block of rows t·128 … t·128 + 127 of
  new_state, the kernel's arithmetic on the blocks it loaded; read at (p, q) that is the specification's new_state at row
  t·128 + p, column q of the arrays the region found. The 128 blocks tile the array, so after the region new_state IS the
  specification's function of those arrays. The second region likewise leaves the output at the specification's layer
  norm of x and of the new_state it found, in 32 blocks of 512 rows.
-/
import proofs.«123416_j83958020702584_2_alg».proof.Proof.KernelIdealBlocks
import proofs.«123416_j83958020702584_2_alg».proof.Proof.Spec
import proofs.«123416_j83958020702584_2_alg».proof.Proof.KernelPay0
import proofs.«123416_j83958020702584_2_alg».proof.Proof.KernelPay1

set_option maxRecDepth 16384

noncomputable section

namespace Cert.KernelIdeal.Whole

open Cert.KernelIdeal Cert.KernelIdeal.Gen Cert.KernelIdeal.PayValue
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The first region: new_state -/

/-- new_state as the first region leaves it, from the arrays it found: the kernel's spelling, element by element. -/
def G0 (c : Dev nD) : S16384x2048.Idx → EReal := fun i =>
  Spec.newStateAtK (Spec.row (n := 16384) (K := 1024) (V c main_arg0) (i 0)) (Spec.row (n := 16384) (K := 1024) (V c main_arg2) (i 0))
    (Spec.row (n := 16384) (K := 2048) (V c main_arg1) (i 0)) (V c main_arg3 i) (V c main_v0) (V c main_v1) (V c main_v5)
    (fun q => V c main_v7 (ix2 0 q)) (fun q => V c main_v8 (ix2 0 q)) (fun q => V c main_v10 (ix2 0 q)) (i 1)

/-- What point `t` writes back is block `t` of `G0`. -/
theorem flushed0_eq (c : Dev nD) (t : Fin cfg0.N) :
    (dat0 V c).flushed 10 t = ((cfg0.win 10).blk t).view.read (Elt Ideal) (G0 V c) := by
  show (cfg0.win 10).cut (grid0.coords t) ((dat0 V c).after 10 t) = _
  rw [after0_10]
  unfold out0_10
  rw [View.canon_unit_zero hz]
  simp only [View.ld_unit_zero (S := S128x1024) hz, View.ld_unit_zero (S := S128x2048) hz, View.ld_unit_zero (S := S1024x2048) hz,
    View.ld_unit_zero (S := S1x2048) hz, View.ld_unit_zero (S := S4096x2048) hz]
  funext j
  obtain ⟨p, q, rfl⟩ : ∃ (p : Fin 128) (q : Fin 2048), j = ix2 p q := ⟨j 0, j 1, eq_ix2 j⟩
  rw [View.read_apply, emb0_out]
  refine (pay0_apply (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) p q).trans ?_
  unfold G0
  have r0 : Spec.row (n := 128) (K := 1024) (iblk0 V c 0 t) p = Spec.row (n := 16384) (K := 1024) (V c main_arg0) ⟨t.val * 128 + p.val, by have ht : t.val < 128 := lt_of_lt_of_eq t.isLt N_0; have := p.isLt; omega⟩ :=
    funext fun k => iblk0_0_apply V c t p k
  have r2 : Spec.row (n := 128) (K := 1024) (iblk0 V c 2 t) p = Spec.row (n := 16384) (K := 1024) (V c main_arg2) ⟨t.val * 128 + p.val, by have ht : t.val < 128 := lt_of_lt_of_eq t.isLt N_0; have := p.isLt; omega⟩ :=
    funext fun k => iblk0_2_apply V c t p k
  have r1 : Spec.row (n := 128) (K := 2048) (iblk0 V c 1 t) p = Spec.row (n := 16384) (K := 2048) (V c main_arg1) ⟨t.val * 128 + p.val, by have ht : t.val < 128 := lt_of_lt_of_eq t.isLt N_0; have := p.isLt; omega⟩ :=
    funext fun k => iblk0_1_apply V c t p k
  have r3 := iblk0_3_apply V c t p q
  have w4 : (iblk0 V c 4 t : S1024x2048.Idx → EReal) = V c main_v0 := funext fun y => iblk0_4_apply V c t y
  have w6 : (iblk0 V c 6 t : S1024x2048.Idx → EReal) = V c main_v1 := funext fun y => iblk0_6_apply V c t y
  have w7 : (iblk0 V c 7 t : S4096x2048.Idx → EReal) = V c main_v5 := funext fun y => iblk0_7_apply V c t y
  have w5 : (fun q' : Fin 2048 => iblk0 V c 5 t (ix2 0 q')) = fun q' => V c main_v7 (ix2 0 q') := funext fun q' => iblk0_5_apply V c t _
  have w8 : (fun q' : Fin 2048 => iblk0 V c 8 t (ix2 0 q')) = fun q' => V c main_v8 (ix2 0 q') := funext fun q' => iblk0_8_apply V c t _
  have w9 : (fun q' : Fin 2048 => iblk0 V c 9 t (ix2 0 q')) = fun q' => V c main_v10 (ix2 0 q') := funext fun q' => iblk0_9_apply V c t _
  rw [r0, r2, r1, r3, w4, w6, w7, w5, w8, w9]
  rfl

/-- After the first region its output array is `G0` of what the region found. -/
theorem final0 (c : Dev nD) : (dat0 V c).arrAt 10 cfg0.N = G0 V c :=
  (dat0 V c).arrAt_eq_of_cover 10 (G0 V c) (fun t _ => flushed0_eq V c t) cover0

/-! ## The second region: the output -/

/-- The output as the second region leaves it, from the arrays it found. -/
def G1 (c : Dev nD) : S16384x1024.Idx → EReal := fun i =>
  Spec.outputAt (Spec.row (n := 16384) (K := 1024) (V c main_arg0) (i 0)) (Spec.row (n := 16384) (K := 2048) (V c main_v11) (i 0)) (V c main_v6)
    (fun j => V c main_v12 (ix2 0 j)) (fun j => V c main_v13 (ix2 0 j)) (fun j => V c main_v14 (ix2 0 j)) (i 1)

/-- What point `t` writes back is block `t` of `G1`. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S512x1024) hz, View.ld_unit_zero (S := S512x2048) hz, View.ld_unit_zero (S := S3072x1024) hz,
    View.ld_unit_zero (S := S1x1024) hz]
  funext j
  obtain ⟨p, q, rfl⟩ : ∃ (p : Fin 512) (q : Fin 1024), j = ix2 p q := ⟨j 0, j 1, eq_ix2 j⟩
  rw [View.read_apply, emb1_out]
  refine (pay1_apply (iblk1 V c 0 t) (iblk1 V c 1 t) (iblk1 V c 2 t) (iblk1 V c 3 t) (iblk1 V c 4 t) (iblk1 V c 5 t) p q).trans ?_
  unfold G1
  have r0 : Spec.row (n := 512) (K := 1024) (iblk1 V c 0 t) p = Spec.row (n := 16384) (K := 1024) (V c main_arg0) ⟨t.val * 512 + p.val, by have ht : t.val < 32 := lt_of_lt_of_eq t.isLt N_1; have := p.isLt; omega⟩ :=
    funext fun k => iblk1_0_apply V c t p k
  have r1 : Spec.row (n := 512) (K := 2048) (iblk1 V c 1 t) p = Spec.row (n := 16384) (K := 2048) (V c main_v11) ⟨t.val * 512 + p.val, by have ht : t.val < 32 := lt_of_lt_of_eq t.isLt N_1; have := p.isLt; omega⟩ :=
    funext fun k => iblk1_1_apply V c t p k
  have w2 : (iblk1 V c 2 t : S3072x1024.Idx → EReal) = V c main_v6 := funext fun y => iblk1_2_apply V c t y
  have w3 : (fun j' : Fin 1024 => iblk1 V c 3 t (ix2 0 j')) = fun j' => V c main_v12 (ix2 0 j') := funext fun j' => iblk1_3_apply V c t _
  have w4 : (fun j' : Fin 1024 => iblk1 V c 4 t (ix2 0 j')) = fun j' => V c main_v13 (ix2 0 j') := funext fun j' => iblk1_4_apply V c t _
  have w5 : (fun j' : Fin 1024 => iblk1 V c 5 t (ix2 0 j')) = fun j' => V c main_v14 (ix2 0 j') := funext fun j' => iblk1_5_apply V c t _
  rw [r0, r1, w2, w3, w4, w5]
  rfl

/-- After the second region its output array is `G1` of what the region found. -/
theorem final1 (c : Dev nD) : (dat1 V c).arrAt 6 cfg1.N = G1 V c :=
  (dat1 V c).arrAt_eq_of_cover 6 (G1 V c) (fun t _ => flushed1_eq V c t) cover1

end Cert.KernelIdeal.Whole

end
-- ==== Proof.SpecLaws.lean ====
/-
  The kernel's one product with the stacked weight is the reference's three products: a sum over the 4096 joined
  columns is the sum of its three stretches (1024 of x, 1024 of conditioning, 2048 of state), on each stretch the
  joined row and the stacked weight read their own piece, and moving the bias across the other summands uses only that
  addition on the extended reals is commutative and associative.
-/
import proofs.«123416_j83958020702584_2_alg».proof.Proof.Spec

noncomputable section

namespace Cert.Spec

open Idealize.ShloMosaic Idealize.ShloMosaic.ValueIdx

/-- A sum over `n = a + b` indices is the sum over the first `a` plus the sum over the last `b`. -/
theorem sum_split {M : Type*} [AddCommMonoid M] (a b n : Nat) (h : a + b = n) (f : Fin n → M) :
    ∑ k : Fin n, f k = (∑ k : Fin a, f ⟨k.val, by omega⟩) + ∑ k : Fin b, f ⟨a + k.val, by omega⟩ := by
  subst h
  rw [Fin.sum_univ_add]
  rfl

/-- The joined row against the stacked weight, column by column, is the three separate products added. -/
theorem rowdot_cat3 (xr cr : Fin 1024 → EReal) (sr : Fin 2048 → EReal) (Win Wcin : Mat 1024 2048) (Wstate : Mat 2048 2048)
    (c : Fin 2048) :
    rowdot (cat3 xr cr sr) (stack3 Win Wcin Wstate) c = (rowdot xr Win c + rowdot cr Wcin c) + rowdot sr Wstate c := by
  unfold rowdot
  rw [sum_split 1024 3072 4096 rfl, sum_split 1024 2048 3072 rfl, ← add_assoc]
  refine congrArg₂ (· + ·) (congrArg₂ (· + ·) ?_ ?_) ?_
  · refine Finset.sum_congr rfl fun k _ => ?_
    have hk : k.val < 1024 := k.isLt
    unfold cat3 stack3
    rw [dif_pos (show (⟨k.val, by omega⟩ : Fin 4096).val < 1024 from hk)]
    rw [dif_pos (show ((ix2 (⟨k.val, by omega⟩ : Fin 4096) c : (⟨2, ![4096, 2048]⟩ : Shape).Idx) 0).val < 1024 from hk)]
  · refine Finset.sum_congr rfl fun k _ => ?_
    have hk : k.val < 1024 := k.isLt
    unfold cat3 stack3
    rw [dif_neg (show ¬ (⟨1024 + (⟨k.val, by omega⟩ : Fin 3072).val, by show 1024 + k.val < 4096; omega⟩ : Fin 4096).val < 1024 from by show ¬ (1024 + k.val < 1024); omega),
      dif_pos (show (⟨1024 + (⟨k.val, by omega⟩ : Fin 3072).val, by show 1024 + k.val < 4096; omega⟩ : Fin 4096).val < 2048 from by show 1024 + k.val < 2048; omega)]
    rw [dif_neg (show ¬ ((ix2 (⟨1024 + (⟨k.val, by omega⟩ : Fin 3072).val, by show 1024 + k.val < 4096; omega⟩ : Fin 4096) c : (⟨2, ![4096, 2048]⟩ : Shape).Idx) 0).val < 1024 from by show ¬ (1024 + k.val < 1024); omega),
      dif_pos (show ((ix2 (⟨1024 + (⟨k.val, by omega⟩ : Fin 3072).val, by show 1024 + k.val < 4096; omega⟩ : Fin 4096) c : (⟨2, ![4096, 2048]⟩ : Shape).Idx) 0).val < 2048 from by show 1024 + k.val < 2048; omega)]
    exact congrArg₂ (· * ·) (congrArg cr (Fin.ext (by show 1024 + k.val - 1024 = k.val; omega)))
      (congrArg Wcin (congrArg (fun a => ix2 a c) (Fin.ext (by show 1024 + k.val - 1024 = k.val; omega))))
  · refine Finset.sum_congr rfl fun k _ => ?_
    have hk : k.val < 2048 := k.isLt
    unfold cat3 stack3
    rw [dif_neg (show ¬ (⟨1024 + (⟨1024 + k.val, by omega⟩ : Fin 3072).val, by show 1024 + (1024 + k.val) < 4096; omega⟩ : Fin 4096).val < 1024 from by show ¬ (1024 + (1024 + k.val) < 1024); omega),
      dif_neg (show ¬ (⟨1024 + (⟨1024 + k.val, by omega⟩ : Fin 3072).val, by show 1024 + (1024 + k.val) < 4096; omega⟩ : Fin 4096).val < 2048 from by show ¬ (1024 + (1024 + k.val) < 2048); omega)]
    rw [dif_neg (show ¬ ((ix2 (⟨1024 + (⟨1024 + k.val, by omega⟩ : Fin 3072).val, by show 1024 + (1024 + k.val) < 4096; omega⟩ : Fin 4096) c : (⟨2, ![4096, 2048]⟩ : Shape).Idx) 0).val < 1024 from by show ¬ (1024 + (1024 + k.val) < 1024); omega),
      dif_neg (show ¬ ((ix2 (⟨1024 + (⟨1024 + k.val, by omega⟩ : Fin 3072).val, by show 1024 + (1024 + k.val) < 4096; omega⟩ : Fin 4096) c : (⟨2, ![4096, 2048]⟩ : Shape).Idx) 0).val < 2048 from by show ¬ (1024 + (1024 + k.val) < 2048); omega)]
    exact congrArg₂ (· * ·) (congrArg sr (Fin.ext (by show 1024 + (1024 + k.val) - 2048 = k.val; omega)))
      (congrArg Wstate (congrArg (fun a => ix2 a c) (Fin.ext (by show 1024 + (1024 + k.val) - 2048 = k.val; omega))))

/-- new_state in the kernel's spelling, at the stacked weight, is new_state in the reference's. -/
theorem newStateAtK_eq (xr cr : Fin 1024 → EReal) (sr : Fin 2048 → EReal) (carry : EReal)
    (Wstep Wcstep Win Wcin : Mat 1024 2048) (Wstate : Mat 2048 2048) (bstep bin eld : Fin 2048 → EReal) (c : Fin 2048) :
    newStateAtK xr cr sr carry Wstep Wcstep (stack3 Win Wcin Wstate) bstep bin eld c
      = newStateAt xr cr sr carry Wstep Wcstep Win Wcin Wstate bstep bin eld c := by
  unfold newStateAtK newStateAt preAt
  rw [rowdot_cat3, add_right_comm (rowdot xr Win c + rowdot cr Wcin c) (rowdot sr Wstate c) (bin c),
    add_right_comm (rowdot xr Win c) (rowdot cr Wcin c) (bin c)]

end Cert.Spec

end
-- ==== Proof.KernelIdealValue.lean ====
/-
  The idealized kernel's run, read: every weakly fair execution terminates with new_state at the specification's function
  of the argument arrays, the output at the specification's layer norm of x and that new_state, and every argument array
  unchanged. The first region's output array is what the second region finds under its new_state window; the stacked
  weight the first region finds is the stack of the three argument weights, so the kernel's one product is the
  reference's three.
-/
import proofs.«123416_j83958020702584_2_alg».proof.Proof.KernelIdealEntry
import proofs.«123416_j83958020702584_2_alg».proof.Proof.KernelIdealFinal
import proofs.«123416_j83958020702584_2_alg».proof.Proof.SpecLaws

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- What the first region leaves as new_state is the specification's new_state of the argument arrays. -/
theorem G0_entry (c : Dev nD) : G0 (E1 m ρ) c = (Spec.newState (m ((c : Thread nD τ).loc main_arg0)) (m ((c : Thread nD τ).loc main_arg2)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg9)) (m ((c : Thread nD τ).loc main_arg10))
      (fun q => (m ((c : Thread nD τ).loc main_arg5)) (ix1 q)) (fun q => (m ((c : Thread nD τ).loc main_arg8)) (ix1 q)) (fun q => Ideal.exp ((m ((c : Thread nD τ).loc main_arg15)) (ix1 q)))) := by
  funext i
  unfold G0 Spec.newState
  have w7 : (fun q : Fin 2048 => E1 m ρ c main_v7 (ix2 0 q)) = fun q => (m ((c : Thread nD τ).loc main_arg5)) (ix1 q) := funext fun q => E1_v7 m ρ c q
  have w8 : (fun q : Fin 2048 => E1 m ρ c main_v8 (ix2 0 q)) = fun q => (m ((c : Thread nD τ).loc main_arg8)) (ix1 q) := funext fun q => E1_v8 m ρ c q
  have w10 : (fun q : Fin 2048 => E1 m ρ c main_v10 (ix2 0 q)) = fun q => Ideal.exp ((m ((c : Thread nD τ).loc main_arg15)) (ix1 q)) := funext fun q => E1_v10 m ρ c q
  rw [E1_arg0, E1_arg1, E1_arg2, E1_arg3, E1_v0, E1_v1, E1_v5, w7, w8, w10]
  exact Spec.newStateAtK_eq _ _ _ _ _ _ _ _ _ _ _ _ _

/-- new_state at the end of the run. -/
theorem B4_v11 (c : Dev nD) : B4 m ρ c (Proc.devRef .tc main_v11) = (Spec.newState (m ((c : Thread nD τ).loc main_arg0)) (m ((c : Thread nD τ).loc main_arg2)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg9)) (m ((c : Thread nD τ).loc main_arg10))
      (fun q => (m ((c : Thread nD τ).loc main_arg5)) (ix1 q)) (fun q => (m ((c : Thread nD τ).loc main_arg8)) (ix1 q)) (fun q => Ideal.exp ((m ((c : Thread nD τ).loc main_arg15)) (ix1 q)))) :=
  calc B4 m ρ c (Proc.devRef .tc main_v11)
    _ = E3 m ρ c main_v11 := (B4_arr m ρ c 1).trans (((dat1 (E3 m ρ) c).arrAt_in 1 rfl _).trans (A_eq1 (E3 m ρ) c 1))
    _ = (dat0 (E1 m ρ) c).arrAt 10 cfg0.N := E3_v11 m ρ c
    _ = G0 (E1 m ρ) c := final0 (E1 m ρ) c
    _ = _ := G0_entry m ρ c

/-- The output at the end of the run. -/
theorem B4_v15 (c : Dev nD) : B4 m ρ c (Proc.devRef .tc main_v15) = (Spec.output (m ((c : Thread nD τ).loc main_arg0)) (Spec.newState (m ((c : Thread nD τ).loc main_arg0)) (m ((c : Thread nD τ).loc main_arg2)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg9)) (m ((c : Thread nD τ).loc main_arg10))
      (fun q => (m ((c : Thread nD τ).loc main_arg5)) (ix1 q)) (fun q => (m ((c : Thread nD τ).loc main_arg8)) (ix1 q)) (fun q => Ideal.exp ((m ((c : Thread nD τ).loc main_arg15)) (ix1 q)))) (m ((c : Thread nD τ).loc main_arg11))
      (fun j => (m ((c : Thread nD τ).loc main_arg12)) (ix1 j)) (fun j => (m ((c : Thread nD τ).loc main_arg13)) (ix1 j)) (fun j => (m ((c : Thread nD τ).loc main_arg14)) (ix1 j))) := by
  refine (B4_arr m ρ c 6).trans ((final1 (E3 m ρ) c).trans ?_)
  funext i
  unfold G1 Spec.output
  have w12 : (fun j : Fin 1024 => E3 m ρ c main_v12 (ix2 0 j)) = fun j => (m ((c : Thread nD τ).loc main_arg12)) (ix1 j) := funext fun j => E3_v12 m ρ c j
  have w13 : (fun j : Fin 1024 => E3 m ρ c main_v13 (ix2 0 j)) = fun j => (m ((c : Thread nD τ).loc main_arg13)) (ix1 j) := funext fun j => E3_v13 m ρ c j
  have w14 : (fun j : Fin 1024 => E3 m ρ c main_v14 (ix2 0 j)) = fun j => (m ((c : Thread nD τ).loc main_arg14)) (ix1 j) := funext fun j => E3_v14 m ρ c j
  have w11 : E3 m ρ c main_v11 = (Spec.newState (m ((c : Thread nD τ).loc main_arg0)) (m ((c : Thread nD τ).loc main_arg2)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg9)) (m ((c : Thread nD τ).loc main_arg10))
      (fun q => (m ((c : Thread nD τ).loc main_arg5)) (ix1 q)) (fun q => (m ((c : Thread nD τ).loc main_arg8)) (ix1 q)) (fun q => Ideal.exp ((m ((c : Thread nD τ).loc main_arg15)) (ix1 q)))) := (E3_v11 m ρ c).trans ((final0 (E1 m ρ) c).trans (G0_entry m ρ c))
  rw [E3_arg0, w11, E3_v6, w12, w13, w14]

/-- THE VALUE RUN of the idealized kernel. -/
theorem value : θ_run defs (onTc (τ := τ) (main (F := Ideal))) ⟨m, fun _ => 0, ρ⟩ (fun r => ∀ c : Dev nD,
      r.2.mem ((c.tc : Thread nD τ).loc main_v15) = (Spec.output (m ((c : Thread nD τ).loc main_arg0)) (Spec.newState (m ((c : Thread nD τ).loc main_arg0)) (m ((c : Thread nD τ).loc main_arg2)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg9)) (m ((c : Thread nD τ).loc main_arg10))
      (fun q => (m ((c : Thread nD τ).loc main_arg5)) (ix1 q)) (fun q => (m ((c : Thread nD τ).loc main_arg8)) (ix1 q)) (fun q => Ideal.exp ((m ((c : Thread nD τ).loc main_arg15)) (ix1 q)))) (m ((c : Thread nD τ).loc main_arg11))
      (fun j => (m ((c : Thread nD τ).loc main_arg12)) (ix1 j)) (fun j => (m ((c : Thread nD τ).loc main_arg13)) (ix1 j)) (fun j => (m ((c : Thread nD τ).loc main_arg14)) (ix1 j)))
      ∧ r.2.mem ((c.tc : Thread nD τ).loc main_v11) = (Spec.newState (m ((c : Thread nD τ).loc main_arg0)) (m ((c : Thread nD τ).loc main_arg2)) (m ((c : Thread nD τ).loc main_arg1)) (m ((c : Thread nD τ).loc main_arg3)) (m ((c : Thread nD τ).loc main_arg4)) (m ((c : Thread nD τ).loc main_arg6)) (m ((c : Thread nD τ).loc main_arg7)) (m ((c : Thread nD τ).loc main_arg9)) (m ((c : Thread nD τ).loc main_arg10))
      (fun q => (m ((c : Thread nD τ).loc main_arg5)) (ix1 q)) (fun q => (m ((c : Thread nD τ).loc main_arg8)) (ix1 q)) (fun q => Ideal.exp ((m ((c : Thread nD τ).loc main_arg15)) (ix1 q))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_v15 (by decide))).trans (B4_v15 m ρ c),
    (h c _ (mem_uc main_v11 (by decide))).trans (B4_v11 m ρ c),
    (h c _ (mem_uc main_arg0 (by decide))).trans (B4_main_arg0 m ρ c),
    (h c _ (mem_uc main_arg1 (by decide))).trans (B4_main_arg1 m ρ c),
    (h c _ (mem_uc main_arg2 (by decide))).trans (B4_main_arg2 m ρ c),
    (h c _ (mem_uc main_arg3 (by decide))).trans (B4_main_arg3 m ρ c),
    (h c _ (mem_uc main_arg4 (by decide))).trans (B4_main_arg4 m ρ c),
    (h c _ (mem_uc main_arg5 (by decide))).trans (B4_main_arg5 m ρ c),
    (h c _ (mem_uc main_arg6 (by decide))).trans (B4_main_arg6 m ρ c),
    (h c _ (mem_uc main_arg7 (by decide))).trans (B4_main_arg7 m ρ c),
    (h c _ (mem_uc main_arg8 (by decide))).trans (B4_main_arg8 m ρ c),
    (h c _ (mem_uc main_arg9 (by decide))).trans (B4_main_arg9 m ρ c),
    (h c _ (mem_uc main_arg10 (by decide))).trans (B4_main_arg10 m ρ c),
    (h c _ (mem_uc main_arg11 (by decide))).trans (B4_main_arg11 m ρ c),
    (h c _ (mem_uc main_arg12 (by decide))).trans (B4_main_arg12 m ρ c),
    (h c _ (mem_uc main_arg13 (by decide))).trans (B4_main_arg13 m ρ c),
    (h c _ (mem_uc main_arg14 (by decide))).trans (B4_main_arg14 m ρ c),
    (h c _ (mem_uc main_arg15 (by decide))).trans (B4_main_arg15 m ρ c)⟩) (run_all m ρ)

end Cert.KernelIdeal.Whole

end
-- ==== Proof.RefValue.lean ====
/-
  The reference side, element by element, on the extended reals.

  new_state: at row r and column c each product with a weight is the row of the batched input against column c of the
  weight, each broadcast vector is its entry c, and each softplus call is the specification's softplus of its argument
  (the host's negation -a is the difference 0 - a from the zero word, and the unordered "not equal" of d with itself
  answers as the ordered one). Chaining the pointwise operations gives the specification's new_state in the reference's
  own association of the proposal's three products.

  output: the joined array [x | new_state] at (r, k) is the joined row (the first 1024 columns from x, the remaining
  2048 from new_state), so the output projection at (r, j) is that row against column j of W_out; h adds the bias and the
  residual; the mean and the variance are the sums over the 1024 columns, each started from the zero word, divided by the
  word of 1024; the result is the centred row times the reciprocal square root of the variance plus the epsilon word, times
  ln_w, plus ln_b. new_state enters only as an array, so the statement is over the reference's own new_state.

  The read-at-an-index lemmas of each operation are imported from the generated module; written here are the index
  equations that identify its composed index functions with (r, k), (k, c), (c), and the chains.
-/
import proofs.«123416_j83958020702584_2_alg».proof.Proof.Spec
import proofs.«123416_j83958020702584_2_alg».proof.Proof.Gen.ReferenceIdeal.Read

noncomputable section

namespace Cert.RefValue

open Cert.ReferenceIdeal Cert.ReferenceIdeal.Gen Cert.ReferenceIdeal.Read
open Idealize.ShloMosaic Idealize.ShloMosaic.TcCoe Idealize.ShloMosaic.StableHlo Idealize.ShloMosaic.ValueIdx

variable (x0 : (⟨S16384x1024, .f32⟩ : BufTy).Contents (Elt Ideal)) (x1 : (⟨S16384x2048, .f32⟩ : BufTy).Contents (Elt Ideal))
  (x2 : (⟨S16384x1024, .f32⟩ : BufTy).Contents (Elt Ideal)) (x3 : (⟨S16384x2048, .f32⟩ : BufTy).Contents (Elt Ideal))
  (x4 : (⟨S1024x2048, .f32⟩ : BufTy).Contents (Elt Ideal)) (x5 : (⟨S2048, .f32⟩ : BufTy).Contents (Elt Ideal))
  (x6 x7 : (⟨S1024x2048, .f32⟩ : BufTy).Contents (Elt Ideal)) (x8 : (⟨S2048, .f32⟩ : BufTy).Contents (Elt Ideal))
  (x9 : (⟨S1024x2048, .f32⟩ : BufTy).Contents (Elt Ideal)) (x10 : (⟨S2048x2048, .f32⟩ : BufTy).Contents (Elt Ideal))
  (x11 : (⟨S3072x1024, .f32⟩ : BufTy).Contents (Elt Ideal)) (x12 x13 x14 : (⟨S1024, .f32⟩ : BufTy).Contents (Elt Ideal))
  (x15 : (⟨S2048, .f32⟩ : BufTy).Contents (Elt Ideal))

/-- A product of a [16384,1024] array with a [1024,2048] weight, at row r and column c, is the row against the column. -/
theorem dot1024 (x : (⟨S16384x1024, .f32⟩ : BufTy).Contents (Elt Ideal)) (w : (⟨S1024x2048, .f32⟩ : BufTy).Contents (Elt Ideal))
    (r : Fin 16384) (c : Fin 2048) :
    val_main_v0 (F := Ideal) x w (ix2 r c) = Cert.Spec.rowdot (Cert.Spec.row x r) w c := by
  rw [val_main_v0_apply]
  unfold Cert.Spec.rowdot
  refine Finset.sum_congr rfl fun k _ => ?_
  have el : lidx_main_v0 (ix2 r c) k = ix2 r k :=
    funext fun a => Fin.ext (by match a with | ⟨0, _⟩ => rfl | ⟨1, _⟩ => rfl)
  have er : ridx_main_v0 (ix2 r c) k = ix2 k c :=
    funext fun a => Fin.ext (by match a with | ⟨0, _⟩ => rfl | ⟨1, _⟩ => rfl)
  rw [el, er]

theorem dot2048 (x : (⟨S16384x2048, .f32⟩ : BufTy).Contents (Elt Ideal)) (w : (⟨S2048x2048, .f32⟩ : BufTy).Contents (Elt Ideal))
    (r : Fin 16384) (c : Fin 2048) :
    val_main_v16 (F := Ideal) x w (ix2 r c) = Cert.Spec.rowdot (Cert.Spec.row x r) w c := by
  rw [val_main_v16_apply]
  unfold Cert.Spec.rowdot
  refine Finset.sum_congr rfl fun k _ => ?_
  have el : lidx_main_v16 (ix2 r c) k = ix2 r k :=
    funext fun a => Fin.ext (by match a with | ⟨0, _⟩ => rfl | ⟨1, _⟩ => rfl)
  have er : ridx_main_v16 (ix2 r c) k = ix2 k c :=
    funext fun a => Fin.ext (by match a with | ⟨0, _⟩ => rfl | ⟨1, _⟩ => rfl)
  rw [el, er]

/-- A [2048] vector broadcast along the rows, at (r, c), is its entry c. -/
theorem bias2048 (b : (⟨S2048, .f32⟩ : BufTy).Contents (Elt Ideal)) (r : Fin 16384) (c : Fin 2048) :
    val_main_v2 (F := Ideal) b (ix2 r c) = b (ix1 c) := by
  rw [val_main_v2_apply, val_main_v1_apply]
  refine congrArg b ?_
  exact funext fun a => Fin.ext (by match a with | ⟨0, _⟩ => rfl)

theorem dot_v5 (r : Fin 16384) (c : Fin 2048) :
    val_main_v5 (F := Ideal) x2 x6 (ix2 r c) = Cert.Spec.rowdot (Cert.Spec.row x2 r) x6 c := dot1024 x2 x6 r c
theorem dot_v10 (r : Fin 16384) (c : Fin 2048) :
    val_main_v10 (F := Ideal) x0 x7 (ix2 r c) = Cert.Spec.rowdot (Cert.Spec.row x0 r) x7 c := dot1024 x0 x7 r c
theorem dot_v14 (r : Fin 16384) (c : Fin 2048) :
    val_main_v14 (F := Ideal) x2 x9 (ix2 r c) = Cert.Spec.rowdot (Cert.Spec.row x2 r) x9 c := dot1024 x2 x9 r c
theorem bias_v12 (r : Fin 16384) (c : Fin 2048) : val_main_v12 (F := Ideal) x8 (ix2 r c) = x8 (ix1 c) := bias2048 x8 r c
theorem bias_v22 (r : Fin 16384) (c : Fin 2048) :
    val_main_v22 (F := Ideal) x15 (ix2 r c) = Ideal.exp (x15 (ix1 c)) := bias2048 (val_main_v20 (F := Ideal) x15) r c

/-- The unordered "not equal" answers as the ordered one on a linear order. -/
theorem cmp_une (a b : EReal) : Ideal.cmp .une a b = Ideal.cmp .one a b := rfl

/-- The host's negation is the difference from the zero word. -/
theorem neg_eq_z0_sub (a : EReal) : -a = Cert.Spec.z0 - a := by
  show -a = Ideal.ofBits .f32 0x00000000#32 - a
  rw [Ideal.ofBits_zero_f32, zero_sub]

/-- The first softplus call, at an element. -/
theorem softplus0 (i : S16384x2048.Idx) :
    val_main_v4 (F := Ideal) x0 x4 x5 i = Cert.Spec.softplus (val_main_v3 (F := Ideal) x0 x4 x5 i) := by
  simp only [val_main_v4_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  generalize val_main_v3 (F := Ideal) x0 x4 x5 i = z
  simp only [Ideal.cmpf_def, Ideal.addf_def, Ideal.subf_def, Ideal.maximumf_def, Ideal.hostNegf_def, Ideal.negf_def,
    Ideal.hostAbsf_def, Ideal.absf_def, Ideal.hostUnary_exp_def, Ideal.hostUnary_log1p_def, Ideal.ofBits_def, cmp_une]
  rw [neg_eq_z0_sub]
  rfl

/-- The second softplus call, at an element. -/
theorem softplus1 (i : S16384x2048.Idx) :
    val_main_v6 (F := Ideal) x2 x6 i = Cert.Spec.softplus (val_main_v5 (F := Ideal) x2 x6 i) := by
  simp only [val_main_v6_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply]
  generalize val_main_v5 (F := Ideal) x2 x6 i = z
  simp only [Ideal.cmpf_def, Ideal.addf_def, Ideal.subf_def, Ideal.maximumf_def, Ideal.hostNegf_def, Ideal.negf_def,
    Ideal.hostAbsf_def, Ideal.absf_def, Ideal.hostUnary_exp_def, Ideal.hostUnary_log1p_def, Ideal.ofBits_def, cmp_une]
  rw [neg_eq_z0_sub]
  rfl

/-- new_state: the reference's array is the specification's, element by element. -/
theorem ref_newState :
    val_main_v30 (F := Ideal) x0 x1 x2 x3 x4 x5 x6 x7 x8 x9 x10 x15
      = Cert.Spec.newState x0 x2 x1 x3 x4 x6 x7 x9 x10 (fun c => x5 (ix1 c)) (fun c => x8 (ix1 c))
          (fun c => Ideal.exp (x15 (ix1 c))) := by
  funext i
  obtain ⟨r, c, rfl⟩ : ∃ (r : Fin 16384) (c : Fin 2048), i = ix2 r c := ⟨i 0, i 1, eq_ix2 i⟩
  simp only [val_main_v30_apply, val_main_v29_apply, val_main_v28_apply, val_main_v27_apply, val_main_cst_0_apply,
    val_main_v26_apply, val_main_v25_apply, val_main_v24_apply, val_main_v23_apply, val_main_v19_apply, val_main_v9_apply,
    val_main_v8_apply, val_main_v7_apply, val_main_cst_apply, val_main_v18_apply, val_main_v17_apply, val_main_v15_apply,
    val_main_v13_apply, softplus0, softplus1, val_main_v3_apply, dot1024, dot_v5, dot_v10, dot_v14, dot2048, bias2048,
    bias_v12, bias_v22]
  simp only [Ideal.addf_def, Ideal.subf_def, Ideal.mulf_def, Ideal.hostNegf_def, Ideal.negf_def, Ideal.hostUnary_exp_def,
    Ideal.hostUnary_tanh_def, Ideal.ofBits_def]
  rw [neg_eq_z0_sub]
  rfl

/-- The joined array [x | n] at (r, k) is the joined row at k. -/
theorem cat_apply (x : (⟨S16384x1024, .f32⟩ : BufTy).Contents (Elt Ideal)) (n : (⟨S16384x2048, .f32⟩ : BufTy).Contents (Elt Ideal))
    (r : Fin 16384) (k : Fin 3072) :
    concatenate S16384x3072 1 [⟨S16384x1024, x⟩, ⟨S16384x2048, n⟩] concatenates_S16384x1024_S16384x2048_S16384x3072_d1 (ix2 r k)
      = Cert.Spec.catRow (Cert.Spec.row x r) (Cert.Spec.row n r) k := by
  unfold Cert.Spec.catRow
  split
  · next h =>
    exact concatenate_pair_apply_left (1 : Fin S16384x3072.rank) x n _ (ix2 r k) rfl (ix2 r ⟨k.val, h⟩)
      (fun b => by match b with | ⟨0, _⟩ => rfl | ⟨1, _⟩ => rfl)
  · next h =>
    exact concatenate_pair_apply_right (1 : Fin S16384x3072.rank) x n _ (ix2 r k) rfl rfl (ix2 r ⟨k.val - 1024, by omega⟩)
      (fun b hb => by match b, hb with | ⟨0, _⟩, _ => rfl | ⟨1, _⟩, hb => exact absurd rfl hb)
      (by show (k.val - 1024) + 1024 = k.val; omega)

/-- The output projection at (r, j): the joined row against column j of W_out. -/
theorem dot_v32 (r : Fin 16384) (j : Fin 1024) :
    val_main_v32 (F := Ideal) x0 x1 x2 x3 x4 x5 x6 x7 x8 x9 x10 x11 x15 (ix2 r j)
      = Cert.Spec.rowdot (Cert.Spec.catRow (Cert.Spec.row x0 r) (Cert.Spec.row (val_main_v30 (F := Ideal) x0 x1 x2 x3 x4 x5 x6 x7 x8 x9 x10 x15) r)) x11 j := by
  rw [val_main_v32_apply]
  unfold Cert.Spec.rowdot
  refine Finset.sum_congr rfl fun k _ => ?_
  have el : lidx_main_v32 (ix2 r j) k = ix2 r k :=
    funext fun a => Fin.ext (by match a with | ⟨0, _⟩ => rfl | ⟨1, _⟩ => rfl)
  have er : ridx_main_v32 (ix2 r j) k = ix2 k j :=
    funext fun a => Fin.ext (by match a with | ⟨0, _⟩ => rfl | ⟨1, _⟩ => rfl)
  rw [el, er]
  exact congrArg (fun t => t * x11 (ix2 k j)) (cat_apply x0 (val_main_v30 (F := Ideal) x0 x1 x2 x3 x4 x5 x6 x7 x8 x9 x10 x15) r k)

/-- A [1024] vector broadcast along the rows, at (r, j), is its entry j. -/
theorem bias1024 (b : (⟨S1024, .f32⟩ : BufTy).Contents (Elt Ideal)) (r : Fin 16384) (j : Fin 1024) :
    val_main_v34 (F := Ideal) b (ix2 r j) = b (ix1 j) := by
  rw [val_main_v34_apply, val_main_v33_apply]
  refine congrArg b ?_
  exact funext fun a => Fin.ext (by match a with | ⟨0, _⟩ => rfl)
theorem bias_v56 (r : Fin 16384) (j : Fin 1024) : val_main_v56 (F := Ideal) x13 (ix2 r j) = x13 (ix1 j) := bias1024 x13 r j
theorem bias_v59 (r : Fin 16384) (j : Fin 1024) : val_main_v59 (F := Ideal) x14 (ix2 r j) = x14 (ix1 j) := bias1024 x14 r j

/-- The row before normalisation, h(r, j). -/
theorem h_apply (r : Fin 16384) (j : Fin 1024) :
    val_main_v36 (F := Ideal) x0 x1 x2 x3 x4 x5 x6 x7 x8 x9 x10 x11 x12 x15 (ix2 r j)
      = Cert.Spec.hAt (Cert.Spec.row x0 r) (Cert.Spec.row (val_main_v30 (F := Ideal) x0 x1 x2 x3 x4 x5 x6 x7 x8 x9 x10 x15) r) x11 (fun j => x12 (ix1 j)) j := by
  simp only [val_main_v36_apply, val_main_v35_apply, dot_v32, bias1024, Ideal.addf_def]
  rfl

/-- The row sum of h over the 1024 columns, from the zero word. -/
theorem sum_v37 (r : Fin 16384) :
    val_main_v37 (F := Ideal) x0 x1 x2 x3 x4 x5 x6 x7 x8 x9 x10 x11 x12 x15 (ix1 r)
      = Cert.Spec.z0 + ∑ j : Fin 1024, Cert.Spec.hAt (Cert.Spec.row x0 r) (Cert.Spec.row (val_main_v30 (F := Ideal) x0 x1 x2 x3 x4 x5 x6 x7 x8 x9 x10 x15) r) x11 (fun j => x12 (ix1 j)) j := by
  rw [val_main_v37_apply, val_main_cst_1_apply]
  refine congrArg (fun t => Cert.Spec.z0 + t) (Finset.sum_congr rfl fun k _ => ?_)
  have e : idx_main_v37 (ix1 r) k = ix2 r k :=
    funext fun a => Fin.ext (by match a with | ⟨0, _⟩ => rfl | ⟨1, _⟩ => rfl)
  rw [e, h_apply]

/-- The mean of row r. -/
theorem mean_apply (r : Fin 16384) :
    val_main_v40 (F := Ideal) x0 x1 x2 x3 x4 x5 x6 x7 x8 x9 x10 x11 x12 x15 (ix2 r (0 : Fin 1)) = Cert.Spec.meanAt (Cert.Spec.row x0 r) (Cert.Spec.row (val_main_v30 (F := Ideal) x0 x1 x2 x3 x4 x5 x6 x7 x8 x9 x10 x15) r) x11 (fun j => x12 (ix1 j)) := by
  have e : idx_main_v38 (ix2 r (0 : Fin 1)) = ix1 r := funext fun a => Fin.ext (by match a with | ⟨0, _⟩ => rfl)
  rw [val_main_v40_apply, val_main_v38_apply, e, sum_v37, val_main_v39_apply, val_main_cst_2_apply]
  rfl

/-- The centred row, as the variance reads it. -/
theorem centred_v42 (r : Fin 16384) (j : Fin 1024) :
    val_main_v42 (F := Ideal) x0 x1 x2 x3 x4 x5 x6 x7 x8 x9 x10 x11 x12 x15 (ix2 r j)
      = Cert.Spec.hAt (Cert.Spec.row x0 r) (Cert.Spec.row (val_main_v30 (F := Ideal) x0 x1 x2 x3 x4 x5 x6 x7 x8 x9 x10 x15) r) x11 (fun j => x12 (ix1 j)) j - Cert.Spec.meanAt (Cert.Spec.row x0 r) (Cert.Spec.row (val_main_v30 (F := Ideal) x0 x1 x2 x3 x4 x5 x6 x7 x8 x9 x10 x15) r) x11 (fun j => x12 (ix1 j)) := by
  have e : idx_main_v41 (ix2 r j) = ix2 r (0 : Fin 1) :=
    funext fun a => Fin.ext (by match a with | ⟨0, _⟩ => rfl | ⟨1, _⟩ => rfl)
  rw [val_main_v42_apply, val_main_v41_apply, e, h_apply, mean_apply]
  rfl

/-- The centred row, as the output reads it. -/
theorem centred_v49 (r : Fin 16384) (j : Fin 1024) :
    val_main_v49 (F := Ideal) x0 x1 x2 x3 x4 x5 x6 x7 x8 x9 x10 x11 x12 x15 (ix2 r j)
      = Cert.Spec.hAt (Cert.Spec.row x0 r) (Cert.Spec.row (val_main_v30 (F := Ideal) x0 x1 x2 x3 x4 x5 x6 x7 x8 x9 x10 x15) r) x11 (fun j => x12 (ix1 j)) j - Cert.Spec.meanAt (Cert.Spec.row x0 r) (Cert.Spec.row (val_main_v30 (F := Ideal) x0 x1 x2 x3 x4 x5 x6 x7 x8 x9 x10 x15) r) x11 (fun j => x12 (ix1 j)) := by
  have e : idx_main_v48 (ix2 r j) = ix2 r (0 : Fin 1) :=
    funext fun a => Fin.ext (by match a with | ⟨0, _⟩ => rfl | ⟨1, _⟩ => rfl)
  rw [val_main_v49_apply, val_main_v48_apply, e, h_apply, mean_apply]
  rfl

/-- The row sum of the squared centred row, from the zero word. -/
theorem sum_v44 (r : Fin 16384) :
    val_main_v44 (F := Ideal) x0 x1 x2 x3 x4 x5 x6 x7 x8 x9 x10 x11 x12 x15 (ix1 r)
      = Cert.Spec.z0 + ∑ j : Fin 1024, (Cert.Spec.hAt (Cert.Spec.row x0 r) (Cert.Spec.row (val_main_v30 (F := Ideal) x0 x1 x2 x3 x4 x5 x6 x7 x8 x9 x10 x15) r) x11 (fun j => x12 (ix1 j)) j - Cert.Spec.meanAt (Cert.Spec.row x0 r) (Cert.Spec.row (val_main_v30 (F := Ideal) x0 x1 x2 x3 x4 x5 x6 x7 x8 x9 x10 x15) r) x11 (fun j => x12 (ix1 j)))
          * (Cert.Spec.hAt (Cert.Spec.row x0 r) (Cert.Spec.row (val_main_v30 (F := Ideal) x0 x1 x2 x3 x4 x5 x6 x7 x8 x9 x10 x15) r) x11 (fun j => x12 (ix1 j)) j - Cert.Spec.meanAt (Cert.Spec.row x0 r) (Cert.Spec.row (val_main_v30 (F := Ideal) x0 x1 x2 x3 x4 x5 x6 x7 x8 x9 x10 x15) r) x11 (fun j => x12 (ix1 j))) := by
  rw [val_main_v44_apply, val_main_cst_3_apply]
  refine congrArg (fun t => Cert.Spec.z0 + t) (Finset.sum_congr rfl fun k _ => ?_)
  have e : idx_main_v44 (ix1 r) k = ix2 r k :=
    funext fun a => Fin.ext (by match a with | ⟨0, _⟩ => rfl | ⟨1, _⟩ => rfl)
  rw [e, val_main_v43_apply, centred_v42]
  rfl

/-- The variance of row r. -/
theorem var_apply (r : Fin 16384) :
    val_main_v47 (F := Ideal) x0 x1 x2 x3 x4 x5 x6 x7 x8 x9 x10 x11 x12 x15 (ix2 r (0 : Fin 1)) = Cert.Spec.varAt (Cert.Spec.row x0 r) (Cert.Spec.row (val_main_v30 (F := Ideal) x0 x1 x2 x3 x4 x5 x6 x7 x8 x9 x10 x15) r) x11 (fun j => x12 (ix1 j)) := by
  have e : idx_main_v45 (ix2 r (0 : Fin 1)) = ix1 r := funext fun a => Fin.ext (by match a with | ⟨0, _⟩ => rfl)
  rw [val_main_v47_apply, val_main_v45_apply, e, sum_v44, val_main_v46_apply, val_main_cst_4_apply]
  rfl

/-- output: the reference's array is the specification's function of x and the reference's new_state. -/
theorem ref_output :
    val_main_v60 (F := Ideal) x0 x1 x2 x3 x4 x5 x6 x7 x8 x9 x10 x11 x12 x13 x14 x15
      = Cert.Spec.output x0 (val_main_v30 (F := Ideal) x0 x1 x2 x3 x4 x5 x6 x7 x8 x9 x10 x15) x11 (fun j => x12 (ix1 j)) (fun j => x13 (ix1 j)) (fun j => x14 (ix1 j)) := by
  funext i
  obtain ⟨r, j, rfl⟩ : ∃ (r : Fin 16384) (j : Fin 1024), i = ix2 r j := ⟨i 0, i 1, eq_ix2 i⟩
  have e : idx_main_v53 (ix2 r j) = ix2 r (0 : Fin 1) :=
    funext fun a => Fin.ext (by match a with | ⟨0, _⟩ => rfl | ⟨1, _⟩ => rfl)
  rw [val_main_v60_apply, val_main_v57_apply, val_main_v54_apply, centred_v49, val_main_v53_apply, e, val_main_v52_apply,
    val_main_v51_apply, var_apply, val_main_v50_apply, val_main_cst_5_apply, bias_v56, bias_v59]
  rfl

end Cert.RefValue

end
-- ==== Proof.lean ====
/-
  The certificate. Both programs compute, on the extended reals,

    new_state = decay · state + (1 − decay) · tanh (x·W_in + b_in + cond·W_cin + state·W_state),
      decay = exp (−(softplus (x·W_step + b_step) + 0.1 · softplus (cond·W_cstep)) · e^{log_decay}) · carry_scale,
    output = LayerNorm ([x | new_state]·W_out + b_out + x) · ln_w + ln_b,

  element by element (Spec.lean). The kernel does it in two grid-pipelined regions: the first, 128 blocks of 128 rows,
  forms the proposal's pre-activation as ONE product of the joined row [x | cond | state] with the weights stacked by
  the host, and writes new_state; the second, 32 blocks of 512 rows, reads new_state back and writes the normalised
  output. Its narrowings to a 16-bit format are the identity on the extended reals, and the one product equals the
  reference's three because a finite sum splits over stretches of its index set and addition is commutative and
  associative there — no finiteness of the inputs is used. The three frames come from the runs themselves: each run
  terminates on every weakly fair execution, faults nowhere and leaves the argument arrays as launched.
-/
import proofs.«123416_j83958020702584_2_alg».proof.Defs
import proofs.«123416_j83958020702584_2_alg».proof.Proof.Gen.Kernel
import proofs.«123416_j83958020702584_2_alg».proof.Proof.Gen.Kernel.Skeleton
import proofs.«123416_j83958020702584_2_alg».proof.Proof.Gen.Kernel.Launch
import proofs.«123416_j83958020702584_2_alg».proof.Proof.Gen.Kernel.Regions
import proofs.«123416_j83958020702584_2_alg».proof.Proof.Gen.Kernel.Points
import proofs.«123416_j83958020702584_2_alg».proof.Proof.Gen.KernelIdeal
import proofs.«123416_j83958020702584_2_alg».proof.Proof.Gen.KernelIdeal.Skeleton
import proofs.«123416_j83958020702584_2_alg».proof.Proof.Gen.KernelIdeal.Launch
import proofs.«123416_j83958020702584_2_alg».proof.Proof.Gen.KernelIdeal.Regions
import proofs.«123416_j83958020702584_2_alg».proof.Proof.Gen.KernelIdeal.Points
import proofs.«123416_j83958020702584_2_alg».proof.Proof.Gen.ReferenceIdeal
import proofs.«123416_j83958020702584_2_alg».proof.Proof.Gen.ReferenceIdeal.Read
import proofs.«123416_j83958020702584_2_alg».proof.Proof.Gen.Pre_finite_inputs
import proofs.«123416_j83958020702584_2_alg».proof.Proof.KernelRun
import proofs.«123416_j83958020702584_2_alg».proof.Proof.KernelIdealValue
import proofs.«123416_j83958020702584_2_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_k : @Cert.frame_Kernel Cert.Kernel.Gen.facts Cert.Pre_finite_inputs.Gen.facts :=
  fun m ρ _ => Cert.Kernel.Whole.frame m ρ

/-- So does its idealization. -/
theorem frame_ki : @Cert.frame_KernelIdeal Cert.KernelIdeal.Gen.facts Cert.Pre_finite_inputs.Gen.facts :=
  fun m ρ _ => Cert.KernelIdeal.Whole.frame m ρ

/-- The reference's frame is its run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- The reference's new_state of arrays equal to given ones is the specification's of those. -/
theorem ref_ns_eq (x0 y0 : (⟨Cert.ReferenceIdeal.S16384x1024, .f32⟩ : BufTy).Contents (Elt Ideal)) (x1 y1 : (⟨Cert.ReferenceIdeal.S16384x2048, .f32⟩ : BufTy).Contents (Elt Ideal)) (x2 y2 : (⟨Cert.ReferenceIdeal.S16384x1024, .f32⟩ : BufTy).Contents (Elt Ideal)) (x3 y3 : (⟨Cert.ReferenceIdeal.S16384x2048, .f32⟩ : BufTy).Contents (Elt Ideal)) (x4 y4 : (⟨Cert.ReferenceIdeal.S1024x2048, .f32⟩ : BufTy).Contents (Elt Ideal)) (x5 y5 : (⟨Cert.ReferenceIdeal.S2048, .f32⟩ : BufTy).Contents (Elt Ideal)) (x6 y6 : (⟨Cert.ReferenceIdeal.S1024x2048, .f32⟩ : BufTy).Contents (Elt Ideal)) (x7 y7 : (⟨Cert.ReferenceIdeal.S1024x2048, .f32⟩ : BufTy).Contents (Elt Ideal)) (x8 y8 : (⟨Cert.ReferenceIdeal.S2048, .f32⟩ : BufTy).Contents (Elt Ideal)) (x9 y9 : (⟨Cert.ReferenceIdeal.S1024x2048, .f32⟩ : BufTy).Contents (Elt Ideal)) (x10 y10 : (⟨Cert.ReferenceIdeal.S2048x2048, .f32⟩ : BufTy).Contents (Elt Ideal)) (x15 y15 : (⟨Cert.ReferenceIdeal.S2048, .f32⟩ : BufTy).Contents (Elt Ideal)) (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h15 : x15 = y15) :
    Cert.ReferenceIdeal.Read.val_main_v30 (F := Ideal) x0 x1 x2 x3 x4 x5 x6 x7 x8 x9 x10 x15 = (Cert.Spec.newState y0 y2 y1 y3 y4 y6 y7 y9 y10 (fun c => y5 (ValueIdx.ix1 c)) (fun c => y8 (ValueIdx.ix1 c)) (fun c => Ideal.exp (y15 (ValueIdx.ix1 c)))) := by
  subst h0 h1 h2 h3 h4 h5 h6 h7 h8 h9 h10 h15
  exact Cert.RefValue.ref_newState x0 x1 x2 x3 x4 x5 x6 x7 x8 x9 x10 x15

/-- The reference's output of arrays equal to given ones is the specification's of those. -/
theorem ref_out_eq (x0 y0 : (⟨Cert.ReferenceIdeal.S16384x1024, .f32⟩ : BufTy).Contents (Elt Ideal)) (x1 y1 : (⟨Cert.ReferenceIdeal.S16384x2048, .f32⟩ : BufTy).Contents (Elt Ideal)) (x2 y2 : (⟨Cert.ReferenceIdeal.S16384x1024, .f32⟩ : BufTy).Contents (Elt Ideal)) (x3 y3 : (⟨Cert.ReferenceIdeal.S16384x2048, .f32⟩ : BufTy).Contents (Elt Ideal)) (x4 y4 : (⟨Cert.ReferenceIdeal.S1024x2048, .f32⟩ : BufTy).Contents (Elt Ideal)) (x5 y5 : (⟨Cert.ReferenceIdeal.S2048, .f32⟩ : BufTy).Contents (Elt Ideal)) (x6 y6 : (⟨Cert.ReferenceIdeal.S1024x2048, .f32⟩ : BufTy).Contents (Elt Ideal)) (x7 y7 : (⟨Cert.ReferenceIdeal.S1024x2048, .f32⟩ : BufTy).Contents (Elt Ideal)) (x8 y8 : (⟨Cert.ReferenceIdeal.S2048, .f32⟩ : BufTy).Contents (Elt Ideal)) (x9 y9 : (⟨Cert.ReferenceIdeal.S1024x2048, .f32⟩ : BufTy).Contents (Elt Ideal)) (x10 y10 : (⟨Cert.ReferenceIdeal.S2048x2048, .f32⟩ : BufTy).Contents (Elt Ideal)) (x11 y11 : (⟨Cert.ReferenceIdeal.S3072x1024, .f32⟩ : BufTy).Contents (Elt Ideal)) (x12 y12 : (⟨Cert.ReferenceIdeal.S1024, .f32⟩ : BufTy).Contents (Elt Ideal)) (x13 y13 : (⟨Cert.ReferenceIdeal.S1024, .f32⟩ : BufTy).Contents (Elt Ideal)) (x14 y14 : (⟨Cert.ReferenceIdeal.S1024, .f32⟩ : BufTy).Contents (Elt Ideal)) (x15 y15 : (⟨Cert.ReferenceIdeal.S2048, .f32⟩ : BufTy).Contents (Elt Ideal)) (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) :
    Cert.ReferenceIdeal.Read.val_main_v60 (F := Ideal) x0 x1 x2 x3 x4 x5 x6 x7 x8 x9 x10 x11 x12 x13 x14 x15
      = Cert.Spec.output y0 (Cert.Spec.newState y0 y2 y1 y3 y4 y6 y7 y9 y10 (fun c => y5 (ValueIdx.ix1 c)) (fun c => y8 (ValueIdx.ix1 c)) (fun c => Ideal.exp (y15 (ValueIdx.ix1 c)))) y11 (fun j => y12 (ValueIdx.ix1 j)) (fun j => y13 (ValueIdx.ix1 j)) (fun j => y14 (ValueIdx.ix1 j)) := by
  subst h0 h1 h2 h3 h4 h5 h6 h7 h8 h9 h10 h11 h12 h13 h14 h15
  rw [Cert.RefValue.ref_output, Cert.RefValue.ref_newState]

/-- The two idealized programs end with equal results: each result is the specification's function of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => (Cert.Spec.output (m ((c.tc : Thread Cert.KernelIdeal.nD Cert.KernelIdeal.τ).loc Cert.KernelIdeal.main_arg0)) (Cert.Spec.newState (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (fun q => (m ((c.tc : Thread Cert.KernelIdeal.nD Cert.KernelIdeal.τ).loc Cert.KernelIdeal.main_arg5)) (ValueIdx.ix1 q)) (fun q => (m ((c.tc : Thread Cert.KernelIdeal.nD Cert.KernelIdeal.τ).loc Cert.KernelIdeal.main_arg8)) (ValueIdx.ix1 q)) (fun q => Ideal.exp ((m ((c.tc : Thread Cert.KernelIdeal.nD Cert.KernelIdeal.τ).loc Cert.KernelIdeal.main_arg15)) (ValueIdx.ix1 q)))) (m ((c.tc : Thread Cert.KernelIdeal.nD Cert.KernelIdeal.τ).loc Cert.KernelIdeal.main_arg11))
      (fun j => (m ((c.tc : Thread Cert.KernelIdeal.nD Cert.KernelIdeal.τ).loc Cert.KernelIdeal.main_arg12)) (ValueIdx.ix1 j)) (fun j => (m ((c.tc : Thread Cert.KernelIdeal.nD Cert.KernelIdeal.τ).loc Cert.KernelIdeal.main_arg13)) (ValueIdx.ix1 j)) (fun j => (m ((c.tc : Thread Cert.KernelIdeal.nD Cert.KernelIdeal.τ).loc Cert.KernelIdeal.main_arg14)) (ValueIdx.ix1 j))),
    fun c => (Cert.Spec.newState (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (fun q => (m ((c.tc : Thread Cert.KernelIdeal.nD Cert.KernelIdeal.τ).loc Cert.KernelIdeal.main_arg5)) (ValueIdx.ix1 q)) (fun q => (m ((c.tc : Thread Cert.KernelIdeal.nD Cert.KernelIdeal.τ).loc Cert.KernelIdeal.main_arg8)) (ValueIdx.ix1 q)) (fun q => Ideal.exp ((m ((c.tc : Thread Cert.KernelIdeal.nD Cert.KernelIdeal.τ).loc Cert.KernelIdeal.main_arg15)) (ValueIdx.ix1 q)))), Cert.KernelIdeal.Whole.value m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15⟩ := hagree c
    exact (Cert.ReferenceIdeal.Read.val_main_v60_eq m' c).trans (ref_out_eq _ _ _ _ _ _ _ _ _ _ _ _ _ _ _ _ _ _ _ _ _ _ _ _ _ _ _ _ _ _ _ _ a0 a1 a2 a3 a4 a5 a6 a7 a8 a9 a10 a11 a12 a13 a14 a15)
  · obtain ⟨a0, a1, a2, a3, a4, a5, a6, a7, a8, a9, a10, a11, a12, a13, a14, a15⟩ := hagree c
    exact (Cert.ReferenceIdeal.Read.val_main_v30_eq m' c).trans (ref_ns_eq _ _ _ _ _ _ _ _ _ _ _ _ _ _ _ _ _ _ _ _ _ _ _ _ a0 a1 a2 a3 a4 a5 a6 a7 a8 a9 a10 a15)

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, trivial, Cert.Proof.algebraic⟩

end
